-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S5000x128 : Shape := ⟨2, ![5000, 128]⟩
abbrev S5000x1 : Shape := ⟨2, ![5000, 1]⟩
abbrev S1650000x128 : Shape := ⟨2, ![1650000, 128]⟩
abbrev S1x128 : Shape := ⟨2, ![1, 128]⟩
abbrev S5000 : Shape := ⟨1, ![5000]⟩

abbrev nBuf : Space → Nat
  | .hbm => 67
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000x128, .f32⟩
  | .hbm, ⟨42, _⟩ => ⟨S_, .f32⟩
  | .hbm, ⟨43, _⟩ => ⟨S50000x128, .f32⟩
  | .hbm, ⟨44, _⟩ => ⟨S1650000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x1 : Shape := ⟨2, ![50000, 1]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S50000x128, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x1, .f32⟩
  | 61 => ⟨S1650000x128, .f32⟩
  | 62 => ⟨S1650000x128, .f32⟩
  | 63 => ⟨S_, .f32⟩
  | 64 => ⟨S50000x128, .f32⟩
  | 65 => ⟨S1650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S_, .i32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S50000, .f32⟩
  | 91 => ⟨S50000x1, .f32⟩
  | 92 => ⟨S50000x1, .f32⟩
  | 93 => ⟨S50000x1, .f32⟩
  | 94 => ⟨S_, .f32⟩
  | 95 => ⟨S_, .i1⟩
  | 96 => ⟨S_, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .i1⟩
  | 120 => ⟨S_, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S1650000, .i32⟩
  | 4 => ⟨S1650000, .i1⟩
  | 5 => ⟨S_, .i32⟩
  | 6 => ⟨S1650000, .i32⟩
  | 7 => ⟨S1650000, .i32⟩
  | 8 => ⟨S1650000, .i32⟩
  | 9 => ⟨S1650000x1, .i32⟩
  | 10 => ⟨S1650000x128, .f32⟩
  | 11 => ⟨S1650000x1, .f32⟩
  | 12 => ⟨S1650000x128, .f32⟩
  | 13 => ⟨S1650000x128, .f32⟩
  | 14 => ⟨S_, .f32⟩
  | 15 => ⟨S50000x128, .f32⟩
  | 16 => ⟨S1650000x1, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S_, .i32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S50000, .f32⟩
  | 42 => ⟨S50000x1, .f32⟩
  | 43 => ⟨S50000x1, .f32⟩
  | 44 => ⟨S50000x1, .f32⟩
  | 45 => ⟨S_, .f32⟩
  | 46 => ⟨S_, .i1⟩
  | 47 => ⟨S_, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S50000x1, .f32⟩
  | 55 => ⟨S50000x1, .f32⟩
  | 56 => ⟨S50000x1, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .i1⟩
  | 71 => ⟨S_, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_cst_3 : Ref sig .tc := ⟨.hbm, 94, rfl⟩
abbrev main_call1_v13 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_12 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_cst_1 : Ref sig .tc := ⟨.hbm, 120, rfl⟩
abbrev main_call2_call0_v0 : Ref sig .tc := ⟨.hbm, 121, rfl⟩
abbrev main_call2_call0_v1 : Ref sig .tc := ⟨.hbm, 122, rfl⟩
abbrev main_call2_v4 : Ref sig .tc := ⟨.hbm, 123, rfl⟩
abbrev main_call2_v5 : Ref sig .tc := ⟨.hbm, 124, rfl⟩
abbrev main_call2_cst_2 : Ref sig .tc := ⟨.hbm, 125, rfl⟩
abbrev main_call2_v6 : Ref sig .tc := ⟨.hbm, 126, rfl⟩
abbrev main_call2_v7 : Ref sig .tc := ⟨.hbm, 127, rfl⟩
abbrev main_v65 : Ref sig .tc := ⟨.hbm, 128, rfl⟩
abbrev main_v66 : Ref sig .tc := ⟨.hbm, 129, rfl⟩
abbrev main_c_13 : Ref sig .tc := ⟨.hbm, 130, rfl⟩
abbrev main_v67 : Ref sig .tc := ⟨.hbm, 131, rfl⟩
abbrev main_v68 : Ref sig .tc := ⟨.hbm, 132, rfl⟩
abbrev main_c_14 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_15 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_16 : Ref sig .tc := ⟨.hbm, 149, rfl⟩
abbrev main_v83 : Ref sig .tc := ⟨.hbm, 150, rfl⟩
abbrev main_v84 : Ref sig .tc := ⟨.hbm, 151, rfl⟩
abbrev main_cst_17 : Ref sig .tc := ⟨.hbm, 152, rfl⟩
abbrev main_v85 : Ref sig .tc := ⟨.hbm, 153, rfl⟩
abbrev main_v86 : Ref sig .tc := ⟨.hbm, 154, rfl⟩
abbrev main_c_18 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_v12 : Ref sig .tc := ⟨.hbm, 172, rfl⟩
abbrev main_call3_cst_3 : Ref sig .tc := ⟨.hbm, 173, rfl⟩
abbrev main_call3_v13 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_cst_19 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_cst_1 : Ref sig .tc := ⟨.hbm, 199, rfl⟩
abbrev main_call4_call0_v0 : Ref sig .tc := ⟨.hbm, 200, rfl⟩
abbrev main_call4_call0_v1 : Ref sig .tc := ⟨.hbm, 201, rfl⟩
abbrev main_call4_v4 : Ref sig .tc := ⟨.hbm, 202, rfl⟩
abbrev main_call4_v5 : Ref sig .tc := ⟨.hbm, 203, rfl⟩
abbrev main_call4_cst_2 : Ref sig .tc := ⟨.hbm, 204, rfl⟩
abbrev main_call4_v6 : Ref sig .tc := ⟨.hbm, 205, rfl⟩
abbrev main_call4_v7 : Ref sig .tc := ⟨.hbm, 206, rfl⟩
abbrev main_v101 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«167445_j32667521253433_2_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibNormLayer.lean ====
/-
  Layer normalisation along the lanes of a [P, Q] array, and the node update of a graph-convolution step built from it,
  as whole-array functions over the extended reals.

  For a [P, Q] array y, a divisor c and an offset e,
      rowMean c y p   = (∑ k, y (p, k)) / c,
      centred c y     = y - rowMean (entry (p, q) minus the mean of row p),
      rowVar c y p    = (∑ k, centred (p, k) · centred (p, k)) / c,
      lnorm c e y g b (p, q) = centred (p, q) · rsqrt (rowVar p + e) · g q + b q.
  The node update is three dense layers, each followed by max(·, 0), with a normalisation after the first two, and the
  result scaled row by row:
      step … (p, q) = max (dense (layer (layer h W₁ b₁ g₁ β₁) W₂ b₂ g₂ β₂) W₃ b₃ (p, q), 0) · s p,
      layer x W b g β = lnorm (max (dense x W b, 0)) g β.
  Nothing here uses a law of arithmetic: a kernel that computes the update on a block of rows and a host program that
  computes it on the whole array apply the SAME operations in the same order, and the only content is that every
  entry (p, q) depends on row p of the input alone (the `_congr` lemmas).  The kernel spells a row sum as a lane
  reduction cast to a column and broadcast back over the lanes; the host spells it as a reduce, two broadcasts and a
  divide.  At the ideal instance both are the plain finite sum.
-/
import Idealize.ShloMosaic.Lib.ValueIdx
import Idealize.ShloMosaic.Lib.ValueLayout
import Idealize.ShloMosaic.Lib.Pipeline.Value
import Idealize.ShloMosaic.PureOps.Ideal.Laws
import proofs.«167445_j32667521253433_2_alg».proof.Proof.LibPlainDot
import proofs.«167445_j32667521253433_2_alg».proof.Proof.LibDenseLayer
import proofs.«167445_j32667521253433_2_alg».proof.Proof.LibKeepDims
import proofs.«167445_j32667521253433_2_alg».proof.Proof.LibBroadcastReads

noncomputable section

namespace NormLayer

open Idealize.ShloMosaic Idealize.ShloMosaic.ValueIdx DenseLayer

variable {P P' K Q : Nat}

/-! ## The functions -/

/-- max(y, 0), entry by entry. -/
def relu {s : Shape} (y : s.Idx → EReal) : s.Idx → EReal := fun i => max (y i) 0

/-- The mean of row p: the row's sum divided by c. -/
def rowMean (c : EReal) (y : (⟨2, ![P, Q]⟩ : Shape).Idx → EReal) (p : Fin P) : EReal :=
  Ideal.div (∑ k : Fin Q, y (ix2 p k)) c

/-- Every entry minus the mean of its row. -/
def centred (c : EReal) (y : (⟨2, ![P, Q]⟩ : Shape).Idx → EReal) : (⟨2, ![P, Q]⟩ : Shape).Idx → EReal :=
  fun i => y i - rowMean c y (i 0)

/-- The mean of the squares of row p's centred entries. -/
def rowVar (c : EReal) (y : (⟨2, ![P, Q]⟩ : Shape).Idx → EReal) (p : Fin P) : EReal :=
  Ideal.div (∑ k : Fin Q, centred c y (ix2 p k) * centred c y (ix2 p k)) c

/-- Layer normalisation along the lanes, with gain g and offset b. -/
def lnorm (c e : EReal) (y : (⟨2, ![P, Q]⟩ : Shape).Idx → EReal) (g b : Fin Q → EReal) : (⟨2, ![P, Q]⟩ : Shape).Idx → EReal :=
  fun i => centred c y i * Ideal.rsqrt (rowVar c y (i 0) + e) * g (i 1) + b (i 1)

/-- A dense layer, max(·, 0), and a normalisation. -/
def layer (c e : EReal) (x : (⟨2, ![P, K]⟩ : Shape).Idx → EReal) (W : (⟨2, ![K, Q]⟩ : Shape).Idx → EReal) (b g β : Fin Q → EReal) :
    (⟨2, ![P, Q]⟩ : Shape).Idx → EReal :=
  lnorm c e (relu (dense x W b)) g β

/-- The node update: two normalised layers, a third dense layer with max(·, 0), and the scaling of row p by s p. -/
def step (c e : EReal) (h : (⟨2, ![P, Q]⟩ : Shape).Idx → EReal) (s : Fin P → EReal)
    (W₁ : (⟨2, ![Q, Q]⟩ : Shape).Idx → EReal) (b₁ g₁ β₁ : Fin Q → EReal)
    (W₂ : (⟨2, ![Q, Q]⟩ : Shape).Idx → EReal) (b₂ g₂ β₂ : Fin Q → EReal)
    (W₃ : (⟨2, ![Q, Q]⟩ : Shape).Idx → EReal) (b₃ : Fin Q → EReal) : (⟨2, ![P, Q]⟩ : Shape).Idx → EReal :=
  fun i => relu (dense (layer c e (layer c e h W₁ b₁ g₁ β₁) W₂ b₂ g₂ β₂) W₃ b₃) i * s (i 0)

/-! ## Every entry reads its own row only -/

theorem relu_congr {s s' : Shape} {y : s.Idx → EReal} {y' : s'.Idx → EReal} {i : s.Idx} {i' : s'.Idx} (h : y i = y' i') :
    relu y i = relu y' i' := congrArg (max · 0) h

theorem rowMean_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) : rowMean c y p = rowMean c y' p' :=
  congrArg (Ideal.div · c) (Finset.sum_congr rfl fun k _ => hy k)

theorem centred_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) (q : Fin Q) :
    centred c y (ix2 p q) = centred c y' (ix2 p' q) := by
  show y (ix2 p q) - rowMean c y p = y' (ix2 p' q) - rowMean c y' p'
  rw [hy q, rowMean_congr hy]

theorem rowVar_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) : rowVar c y p = rowVar c y' p' :=
  congrArg (Ideal.div · c) (Finset.sum_congr rfl fun k _ => by rw [centred_congr hy k])

theorem lnorm_congr {c e : EReal} {y : (⟨2, ![P, Q]⟩ : Shape).Idx → EReal} {y' : (⟨2, ![P', Q]⟩ : Shape).Idx → EReal}
    {g g' b b' : Fin Q → EReal} {p : Fin P} {p' : Fin P'} {q : Fin Q}
    (hy : ∀ k, y (ix2 p k) = y' (ix2 p' k)) (hg : g q = g' q) (hb : b q = b' q) :
    lnorm c e y g b (ix2 p q) = lnorm c e y' g' b' (ix2 p' q) := by
  show centred c y (ix2 p q) * Ideal.rsqrt (rowVar c y p + e) * g q + b q
      = centred c y' (ix2 p' q) * Ideal.rsqrt (rowVar c y' p' + e) * g' q + b' q
  rw [centred_congr hy q, rowVar_congr hy, hg, hb]

theorem layer_congr {c e : EReal} {x : (⟨2, ![P, K]⟩ : Shape).Idx → EReal} {x' : (⟨2, ![P', K]⟩ : Shape).Idx → EReal}
    {W W' : (⟨2, ![K, Q]⟩ : Shape).Idx → EReal} {b b' g g' β β' : Fin Q → EReal} {p : Fin P} {p' : Fin P'}
    (hx : ∀ k, x (ix2 p k) = x' (ix2 p' k)) (hW : ∀ k q, W (ix2 k q) = W' (ix2 k q)) (hb : ∀ q, b q = b' q)
    (hg : ∀ q, g q = g' q) (hβ : ∀ q, β q = β' q) (q : Fin Q) :
    layer c e x W b g β (ix2 p q) = layer c e x' W' b' g' β' (ix2 p' q) :=
  lnorm_congr (fun k => relu_congr (dense_congr hx (fun j => hW j k) (hb k))) (hg q) (hβ q)

theorem step_congr {c e : EReal} {h : (⟨2, ![P, Q]⟩ : Shape).Idx → EReal} {h' : (⟨2, ![P', Q]⟩ : Shape).Idx → EReal}
    {s : Fin P → EReal} {s' : Fin P' → EReal}
    {W₁ W₁' W₂ W₂' W₃ W₃' : (⟨2, ![Q, Q]⟩ : Shape).Idx → EReal} {b₁ b₁' g₁ g₁' β₁ β₁' b₂ b₂' g₂ g₂' β₂ β₂' b₃ b₃' : Fin Q → EReal}
    {p : Fin P} {p' : Fin P'}
    (hh : ∀ k, h (ix2 p k) = h' (ix2 p' k)) (hs : s p = s' p')
    (hW₁ : ∀ k q, W₁ (ix2 k q) = W₁' (ix2 k q)) (hb₁ : ∀ q, b₁ q = b₁' q) (hg₁ : ∀ q, g₁ q = g₁' q) (hβ₁ : ∀ q, β₁ q = β₁' q)
    (hW₂ : ∀ k q, W₂ (ix2 k q) = W₂' (ix2 k q)) (hb₂ : ∀ q, b₂ q = b₂' q) (hg₂ : ∀ q, g₂ q = g₂' q) (hβ₂ : ∀ q, β₂ q = β₂' q)
    (hW₃ : ∀ k q, W₃ (ix2 k q) = W₃' (ix2 k q)) (hb₃ : ∀ q, b₃ q = b₃' q) (q : Fin Q) :
    step c e h s W₁ b₁ g₁ β₁ W₂ b₂ g₂ β₂ W₃ b₃ (ix2 p q) = step c e h' s' W₁' b₁' g₁' β₁' W₂' b₂' g₂' β₂' W₃' b₃' (ix2 p' q) := by
  show relu (dense (layer c e (layer c e h W₁ b₁ g₁ β₁) W₂ b₂ g₂ β₂) W₃ b₃) (ix2 p q) * s p
      = relu (dense (layer c e (layer c e h' W₁' b₁' g₁' β₁') W₂' b₂' g₂' β₂') W₃' b₃') (ix2 p' q) * s' p'
  rw [hs]
  exact congrArg (· * s' p') (relu_congr (dense_congr
    (fun k => layer_congr (fun j => layer_congr hh hW₁ hb₁ hg₁ hβ₁ j) hW₂ hb₂ hg₂ hβ₂ k) (fun k => hW₃ k q) (hb₃ q)))

/-! ## The kernel's spelling -/

/-- A [1, Q] block broadcast over P rows reads, at (p, q), the block at (0, q). -/
theorem row_read {α : Type} (v : (⟨2, ![1, Q]⟩ : Shape).Idx → α) (h : (⟨2, ![1, Q]⟩ : Shape).Broadcasts ⟨2, ![P, Q]⟩)
    (p : Fin P) (q : Fin Q) : broadcastTo ⟨2, ![P, Q]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)

/-- A dense layer whose bias block is broadcast over the rows as it is: the product of the operands rounded to bf16,
    accumulated into zero, plus the [1, Q] block. -/
theorem kernel_dense' {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ b hbc)
    = dense x W (fun q => b (ix2 (0 : Fin 1) q)) := by
  funext j
  obtain ⟨p, q, rfl⟩ : ∃ (p : Fin P) (q : Fin Q), j = ix2 p q := ⟨j 0, j 1, eq_ix2 j⟩
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, row_read b hbc p q]
  rfl

/-- max with a splat zero. -/
theorem kernel_relu {s : Shape} (y : FVec Ideal s .f32) :
    maximumf y (broadcast s (FloatOps.ofBits (F := Ideal) .f32 0x00000000#32)) = relu y := by
  funext i
  show max (y i) (Ideal.ofBits .f32 0x00000000#32) = max (y i) 0
  rw [Ideal.ofBits_zero_f32]

/-- A lane sum cast to a column and divided by a splat c is the column of row means. -/
theorem kernel_meanCol (c : Ideal .f32) (y : FVec Ideal ⟨2, ![P, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (p : Fin P) (u : Fin 1) :
    divf (shapeCast ⟨2, ![P, 1]⟩ (multiReduction .add [1] ⟨1, ![P]⟩ y 0x00000000#32 hred hφ hacc) hsc)
      (broadcast ⟨2, ![P, 1]⟩ c) (ix2 p u) = rowMean c y p := by
  show Ideal.div (shapeCast ⟨2, ![P, 1]⟩ (multiReduction .add [1] ⟨1, ![P]⟩ y 0x00000000#32 hred hφ hacc) hsc (ix2 p u)) c = _
  rw [KeepDims.shapeCast_a_a1_apply, KeepDims.laneSum_apply]
  rfl

/-- The array minus its column of row means broadcast over the lanes is the centred array. -/
theorem kernel_centred (c : Ideal .f32) (y : FVec Ideal ⟨2, ![P, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (hcol : (⟨2, ![P, 1]⟩ : Shape).Broadcasts ⟨2, ![P, Q]⟩) :
    subf y (broadcastTo ⟨2, ![P, Q]⟩
      (divf (shapeCast ⟨2, ![P, 1]⟩ (multiReduction .add [1] ⟨1, ![P]⟩ y 0x00000000#32 hred hφ hacc) hsc)
        (broadcast ⟨2, ![P, 1]⟩ c)) hcol) = centred c y := by
  funext j
  obtain ⟨p, q, rfl⟩ : ∃ (p : Fin P) (q : Fin Q), j = ix2 p q := ⟨j 0, j 1, eq_ix2 j⟩
  show y (ix2 p q) - broadcastTo ⟨2, ![P, Q]⟩ _ hcol (ix2 p q) = y (ix2 p q) - rowMean c y p
  rw [KeepDims.broadcastTo_a1_ab_apply, kernel_meanCol]

/-- THE KERNEL'S SPELLING of the normalisation: lane sums kept as columns, the divisor and the offset splat, the gain and
    the offset [1, Q] blocks broadcast over the rows. -/
theorem kernel_lnorm (c e : Ideal .f32) (y : FVec Ideal ⟨2, ![P, Q]⟩ .f32) (g b : FVec Ideal ⟨2, ![1, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (hcol : (⟨2, ![P, 1]⟩ : Shape).Broadcasts ⟨2, ![P, Q]⟩) (hrow : (⟨2, ![1, Q]⟩ : Shape).Broadcasts ⟨2, ![P, Q]⟩) :
    addf (mulf (mulf
        (subf y (broadcastTo ⟨2, ![P, Q]⟩
          (divf (shapeCast ⟨2, ![P, 1]⟩ (multiReduction .add [1] ⟨1, ![P]⟩ y 0x00000000#32 hred hφ hacc) hsc)
            (broadcast ⟨2, ![P, 1]⟩ c)) hcol))
        (broadcastTo ⟨2, ![P, Q]⟩ (rsqrt (addf
          (divf (shapeCast ⟨2, ![P, 1]⟩ (multiReduction .add [1] ⟨1, ![P]⟩
              (mulf (subf y (broadcastTo ⟨2, ![P, Q]⟩
                  (divf (shapeCast ⟨2, ![P, 1]⟩ (multiReduction .add [1] ⟨1, ![P]⟩ y 0x00000000#32 hred hφ hacc) hsc)
                    (broadcast ⟨2, ![P, 1]⟩ c)) hcol))
                (subf y (broadcastTo ⟨2, ![P, Q]⟩
                  (divf (shapeCast ⟨2, ![P, 1]⟩ (multiReduction .add [1] ⟨1, ![P]⟩ y 0x00000000#32 hred hφ hacc) hsc)
                    (broadcast ⟨2, ![P, 1]⟩ c)) hcol)))
              0x00000000#32 hred hφ hacc) hsc)
            (broadcast ⟨2, ![P, 1]⟩ c))
          (broadcast ⟨2, ![P, 1]⟩ e))) hcol))
        (broadcastTo ⟨2, ![P, Q]⟩ g hrow))
      (broadcastTo ⟨2, ![P, Q]⟩ b hrow)
    = lnorm c e y (fun q => g (ix2 (0 : Fin 1) q)) (fun q => b (ix2 (0 : Fin 1) q)) := by
  rw [kernel_centred c y hred hφ hacc hsc hcol]
  funext j
  obtain ⟨p, q, rfl⟩ : ∃ (p : Fin P) (q : Fin Q), j = ix2 p q := ⟨j 0, j 1, eq_ix2 j⟩
  show centred c y (ix2 p q) * broadcastTo ⟨2, ![P, Q]⟩ _ hcol (ix2 p q) * broadcastTo ⟨2, ![P, Q]⟩ g hrow (ix2 p q)
      + broadcastTo ⟨2, ![P, Q]⟩ b hrow (ix2 p q)
    = centred c y (ix2 p q) * Ideal.rsqrt (rowVar c y p + e) * g (ix2 (0 : Fin 1) q) + b (ix2 (0 : Fin 1) q)
  rw [KeepDims.broadcastTo_a1_ab_apply, row_read g hrow p q, row_read b hrow p q]
  show centred c y (ix2 p q) * Ideal.rsqrt (Ideal.div (shapeCast ⟨2, ![P, 1]⟩ _ hsc (ix2 p (0 : Fin 1))) c + e) * _ + _ = _
  rw [KeepDims.shapeCast_a_a1_apply, KeepDims.laneSum_apply]
  rfl

/-! ## The host's spelling -/

/-- max with a broadcast zero constant. -/
theorem host_relu {s : Shape} (y : FVec Ideal s .f32) (h : (⟨0, ![]⟩ : Shape).BroadcastsInDim s ![]) :
    maximumf y (broadcastInDim s ![] h (constant (F := Ideal) ⟨0, ![]⟩ .f32 0x00000000#32)) = relu y := by
  funext i
  show max (y i) (broadcastInDim s ![] h (constant (F := Ideal) ⟨0, ![]⟩ .f32 0x00000000#32) i) = max (y i) 0
  rw [BroadcastReads.scalar_to]
  show max (y i) (Ideal.ofBits .f32 0x00000000#32) = _
  rw [Ideal.ofBits_zero_f32]

end NormLayer

end
-- ==== Proof.LibRowIndexing.lean ====
/-
  Gathering rows of a table and scatter-adding rows into a table, read at an index.

  A table is an array [N, C]: N rows of C entries. A list of E row numbers, kept as an integer array [E, 1], names for
  every position e one row of the table.

  * The host's gather along the rows reads, at (e, c), the table at (row e, c), where row e is the integer at position e
    read SIGNED and CLAMPED into [0, N − 1]. The same reading holds for a vector [N] gathered at such a list.
  * The host's accumulating scatter along the rows adds, into entry (i, c) of the table, every update (e, c) whose
    integer at position e, read signed and NOT clamped, is exactly i; an update whose integer is negative or at least N
    lands nowhere. At the ideal instance the result at (i, c) is the operand's entry plus the sum of those updates.
  * When the integer at position e is some i in [0, N) — which is the case whenever the scatter lands it on row i —
    the clamped reading is that same i (`clampRow_of_toInt`).
-/
import Idealize.ShloMosaic.Lib.ValueIdx
import Idealize.ShloMosaic.PureOps.Ideal
import Idealize.ShloMosaic.PureOps.Contract
import Idealize.ShloMosaic.PureOps.ShapeOps

noncomputable section

namespace RowIndexing

open Idealize.ShloMosaic Idealize.ShloMosaic.ValueIdx

variable {N E C w : Nat} {α : Type}

/-- The row an integer names for a gather: read signed, clamped into [0, N − 1]. -/
def clampRow (hN : 0 < N) (z : BitVec w) : Fin N := ⟨min z.toInt.toNat (N - 1), by omega⟩

/-- An integer that is a row number is its own clamped reading. -/
theorem clampRow_of_toInt (hN : 0 < N) (z : BitVec w) (i : Fin N) (h : z.toInt = (i.val : Int)) : clampRow hN z = i := by
  refine Fin.ext ?_
  show min z.toInt.toNat (N - 1) = i.val
  rw [h, Int.toNat_natCast]
  have := i.isLt
  omega

/-! ## The gather of rows of a table [N, C] -/

/-- The dimension numbers of a gather of whole rows: the start index names the row, the row is the slice. -/
structure IsRowGather (d : GatherDims ⟨2, ![N, C]⟩ ⟨2, ![E, 1]⟩ ⟨2, ![E, C]⟩) : Prop where
  od : d.offsetDims = [(1 : Fin 2)]
  cd : d.collapsedSliceDims = [(0 : Fin 2)]
  ob : d.operandBatchingDims = []
  sm : d.startIndexMap = [(0 : Fin 2)]
  iv : d.indexVectorDim = 1
  ss : d.sliceSizes = ![1, C]

theorem rowGather_apply (hN : 0 < N) {d : GatherDims ⟨2, ![N, C]⟩ ⟨2, ![E, 1]⟩ ⟨2, ![E, C]⟩} (h : IsRowGather d)
    (x : (⟨2, ![N, C]⟩ : Shape).Idx → α) (idx : IVec ⟨2, ![E, 1]⟩ w) (e : Fin E) (c : Fin C) :
    Host.gather d x idx (ix2 e c) = x (ix2 (clampRow hN (idx (ix2 e (0 : Fin 1)))) c) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[(1 : Fin 2)], [(0 : Fin 2)], [], sb, [(0 : Fin 2)], 1, ![1, C], wf⟩ :
        GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (fun h => Nat.one_ne_zero (congrArg Fin.val (List.mem_singleton.mp h)))]
    simp only [Nat.add_zero, Nat.zero_add]
    rfl

/-! ## The gather of entries of a vector [N] -/

/-- The dimension numbers of a gather of single entries of a vector. -/
structure IsVecGather (d : GatherDims ⟨1, ![N]⟩ ⟨2, ![E, 1]⟩ ⟨1, ![E]⟩) : Prop where
  od : d.offsetDims = []
  cd : d.collapsedSliceDims = [(0 : Fin 1)]
  ob : d.operandBatchingDims = []
  sm : d.startIndexMap = [(0 : Fin 1)]
  iv : d.indexVectorDim = 1
  ss : d.sliceSizes = ![1]

theorem vecGather_apply (hN : 0 < N) {d : GatherDims ⟨1, ![N]⟩ ⟨2, ![E, 1]⟩ ⟨1, ![E]⟩} (h : IsVecGather d)
    (x : (⟨1, ![N]⟩ : Shape).Idx → α) (idx : IVec ⟨2, ![E, 1]⟩ w) (e : Fin E) :
    Host.gather d x idx (ix1 e) = x (ix1 (clampRow hN (idx (ix2 e (0 : Fin 1))))) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [(0 : Fin 1)], [], sb, [(0 : Fin 1)], 1, ![1], wf⟩ :
        GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The accumulating scatter of rows into a table [N, C] -/

/-- The dimension numbers of a scatter of whole rows: the scatter index names the row, the update's row is the window. -/
structure IsRowScatter (d : ScatterDims ⟨2, ![N, C]⟩ ⟨2, ![E, 1]⟩ ⟨2, ![E, C]⟩) : Prop where
  uw : d.updateWindowDims = [(1 : Fin 2)]
  iw : d.insertedWindowDims = [(0 : Fin 2)]
  sd : d.scatterDimsToOperandDims = [(0 : Fin 2)]
  iv : d.indexVectorDim = 1

section Scatter
variable {d : ScatterDims ⟨2, ![N, C]⟩ ⟨2, ![E, 1]⟩ ⟨2, ![E, C]⟩}

theorem start_row (h : IsRowScatter d) (idx : IVec ⟨2, ![E, 1]⟩ w) (e : Fin E) (c : Fin C) :
    d.start (ix2 e c) idx 0 = (idx (ix2 e (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  have hsi : ScatterDims.siIdx (⟨[(1 : Fin 2)], [(0 : Fin 2)], [(0 : Fin 2)], 1, wf⟩ :
      ScatterDims ⟨2, ![N, C]⟩ ⟨2, ![E, 1]⟩ ⟨2, ![E, C]⟩) (ix2 e c)
      ⟨List.idxOf (0 : Fin 2) [(0 : Fin 2)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (h : IsRowScatter d) (idx : IVec ⟨2, ![E, 1]⟩ w) (e : Fin E) (c : Fin C) :
    d.start (ix2 e c) idx 1 = 0 := by
  obtain ⟨uw, iw, sd, iv, wf⟩ := d
  obtain ⟨h1, h2, h3, h4⟩ := h
  dsimp only at h1 h2 h3 h4
  subst h1 h2 h3 h4
  unfold ScatterDims.start
  rw [dif_neg (fun h => Nat.one_ne_zero (congrArg Fin.val (List.mem_singleton.mp h)))]

theorem window_row (h : IsRowScatter d) (e : Fin E) (c : Fin C) : d.window (ix2 e c) 0 = 0 := by
  obtain ⟨uw, iw, sd, iv, wf⟩ := d
  obtain ⟨h1, h2, h3, h4⟩ := h
  dsimp only at h1 h2 h3 h4
  subst h1 h2 h3 h4
  rfl

theorem window_col (h : IsRowScatter d) (e : Fin E) (c : Fin C) : d.window (ix2 e c) 1 = c.val := by
  obtain ⟨uw, iw, sd, iv, wf⟩ := d
  obtain ⟨h1, h2, h3, h4⟩ := h
  dsimp only at h1 h2 h3 h4
  subst h1 h2 h3 h4
  rfl

/-- WHERE AN UPDATE LANDS: update (e, c) lands on entry (i, c') exactly when the integer at position e is i and c = c'. -/
theorem rowScatter_resultIdx (h : IsRowScatter d) (idx : IVec ⟨2, ![E, 1]⟩ w) (e : Fin E) (c : Fin C) (i : Fin N) (c' : Fin C) :
    d.resultIdx? (ix2 e c) idx = some (ix2 i c') ↔ (idx (ix2 e (0 : Fin 1))).toInt = (i.val : Int) ∧ c = c' := by
  have h00 : d.start (ix2 e c) idx 0 + (d.window (ix2 e c) 0 : Int) = (idx (ix2 e (0 : Fin 1))).toInt := by
    rw [start_row h, window_row h]; simp
  have h11 : d.start (ix2 e c) idx 1 + (d.window (ix2 e c) 1 : Int) = (c.val : Int) := by
    rw [start_col h, window_col h]; simp
  unfold ScatterDims.resultIdx?
  split
  · rename_i hc
    rw [Option.some.injEq]
    constructor
    · intro hf
      have e0 : (d.start (ix2 e c) idx 0 + (d.window (ix2 e c) 0 : Int)).toNat = i.val := congrArg (fun f => (f 0).val) hf
      have e1 : (d.start (ix2 e c) idx 1 + (d.window (ix2 e c) 1 : Int)).toNat = c'.val := congrArg (fun f => (f 1).val) hf
      have p0 := (hc 0).1
      rw [h00] at e0 p0
      rw [h11] at e1
      refine ⟨by omega, Fin.ext (by omega)⟩
    · rintro ⟨hz, rfl⟩
      funext a
      refine Fin.ext ?_
      match a with
      | ⟨0, _⟩ =>
        show (d.start (ix2 e c) idx 0 + (d.window (ix2 e c) 0 : Int)).toNat = i.val
        rw [h00, hz]; simp
      | ⟨1, _⟩ =>
        show (d.start (ix2 e c) idx 1 + (d.window (ix2 e c) 1 : Int)).toNat = c.val
        rw [h11]; simp
  · rename_i hc
    constructor
    · intro hf; cases hf
    · rintro ⟨hz, rfl⟩
      exfalso
      refine hc fun a => ?_
      match a with
      | ⟨0, _⟩ =>
        show 0 ≤ d.start (ix2 e c) idx 0 + (d.window (ix2 e c) 0 : Int) ∧ d.start (ix2 e c) idx 0 + (d.window (ix2 e c) 0 : Int) < (N : Int)
        rw [h00, hz]
        have := i.isLt
        omega
      | ⟨1, _⟩ =>
        show 0 ≤ d.start (ix2 e c) idx 1 + (d.window (ix2 e c) 1 : Int) ∧ d.start (ix2 e c) idx 1 + (d.window (ix2 e c) 1 : Int) < (C : Int)
        rw [h11]
        have := c.isLt
        omega

/-- THE ACCUMULATING SCATTER AT (i, c), at the ideal instance: the operand's entry plus the sum, over the positions e whose
    integer is i, of the update's entry (e, c). -/
theorem rowScatterAdd_apply (h : IsRowScatter d) {φ : FTy} (x : FVec Ideal ⟨2, ![N, C]⟩ φ) (idx : IVec ⟨2, ![E, 1]⟩ w)
    (upd : FVec Ideal ⟨2, ![E, C]⟩ φ) (i : Fin N) (c : Fin C) :
    Host.scatterAdd d x idx upd (ix2 i c)
      = x (ix2 i c) + ∑ e ∈ Finset.univ.filter (fun e : Fin E => (idx (ix2 e (0 : Fin 1))).toInt = (i.val : Int)), upd (ix2 e c) := by
  show x (ix2 i c) + ∑ j ∈ Finset.univ.filter (fun j => d.resultIdx? j idx = some (ix2 i c)), upd j = _
  congr 1
  rw [Finset.sum_filter, sum_idx2, Finset.sum_filter]
  refine Finset.sum_congr rfl fun e _ => ?_
  by_cases hz : (idx (ix2 e (0 : Fin 1))).toInt = (i.val : Int)
  · rw [if_pos hz]
    rw [Finset.sum_eq_single c]
    · rw [if_pos ((rowScatter_resultIdx h idx e c i c).mpr ⟨hz, rfl⟩)]
    · intro c2 _ hne
      rw [if_neg (fun hh => hne ((rowScatter_resultIdx h idx e c2 i c).mp hh).2)]
    · intro hh; exact absurd (Finset.mem_univ c) hh
  · rw [if_neg hz]
    refine Finset.sum_eq_zero fun c2 _ => ?_
    rw [if_neg (fun hh => hz ((rowScatter_resultIdx h idx e c2 i c).mp hh).1)]

/-- A scatter-add of gathered rows: entry (i, c) is the operand's entry plus the sum, over the positions e whose scatter integer
    is i, of the table's entry (row named by the gather integer at e, c). -/
theorem scatterAdd_gather_apply (hN : 0 < N) (h : IsRowScatter d) {dg : GatherDims ⟨2, ![N, C]⟩ ⟨2, ![E, 1]⟩ ⟨2, ![E, C]⟩}
    (hg : IsRowGather dg) {φ : FTy} (x : FVec Ideal ⟨2, ![N, C]⟩ φ) (idx idg : IVec ⟨2, ![E, 1]⟩ w)
    (tbl : FVec Ideal ⟨2, ![N, C]⟩ φ) (i : Fin N) (c : Fin C) :
    Host.scatterAdd d x idx (Host.gather dg tbl idg) (ix2 i c)
      = x (ix2 i c) + ∑ e ∈ Finset.univ.filter (fun e : Fin E => (idx (ix2 e (0 : Fin 1))).toInt = (i.val : Int)),
          tbl (ix2 (clampRow hN (idg (ix2 e (0 : Fin 1)))) c) := by
  rw [rowScatterAdd_apply h]
  exact congrArg (x (ix2 i c) + ·) (Finset.sum_congr rfl fun e _ => rowGather_apply hN hg tbl idg e c)

end Scatter

end RowIndexing

end
-- ==== Proof.LibGcnSpec.lean ====
/-
  A two-layer graph convolution block, as functions on the extended reals.

  Nodes are the rows of an [N, D] table; an edge list of E positions names, for each position e, a source row and a
  destination row by two 32-bit integers. An integer names a row for a GATHER after the usual normalisation (a negative
  integer has the extent added) and clamping into [0, N − 1]; an update LANDS on row i of a scatter when its integer,
  read signed and as it is, is exactly i. The degree of a node is the number of positions that land on it, and
  dinv = where(deg > 0, 1 / sqrt deg, 0).

  One layer aggregates, into node i, the rows h[src e] of the positions e that land on i, weighted by
  dinv[src e] · dinv[dst e], adds a bias, normalises each row (mean and variance over the D lanes) with gain and offset,
  and applies ELU. The REFERENCE spells the weight per edge (aggRef). The KERNEL program scales the rows of h by dinv before
  the gather (scaledProd), sums the gathered rows unweighted (aggKer), and scales row i of the sum by dinv i afterwards
  (inside pre). The two spellings agree because dinv i is a real number in [0, ∞) and dinv[dst e] = dinv i on every
  position that lands on i.
-/
import Idealize.ShloMosaic.Lib.ValueIdx
import Idealize.ShloMosaic.PureOps.Ideal
import proofs.«167445_j32667521253433_2_alg».proof.Proof.LibNormLayer
import proofs.«167445_j32667521253433_2_alg».proof.Proof.LibRowIndexing

noncomputable section

namespace Gcn

open Idealize.ShloMosaic Idealize.ShloMosaic.ValueIdx NormLayer

variable {P P' K Q : Nat}

/-- Tables [P, Q] of extended reals. -/
abbrev Mat (P Q : Nat) := (⟨2, ![P, Q]⟩ : Shape).Idx → EReal
/-- A list of E 32-bit integers. -/
abbrev IdxList (E : Nat) := (⟨1, ![E]⟩ : Shape).Idx → BitVec 32

/-- The lane count as both programs write it (the f32 word of 128), and the offset under the square root (the f32 word nearest 1e-5). -/
def c128 : EReal := Ideal.ofBits .f32 0x43000000#32
def eps : EReal := Ideal.ofBits .f32 0x3727C5AC#32

/-! ## ELU -/

/-- y where y > 0, else e^y − 1. -/
def elu1 (y : EReal) : EReal := Scalar.select (Ideal.cmp .ogt y 0) y (Ideal.exp y - 1)
def elu {s : Shape} (y : s.Idx → EReal) : s.Idx → EReal := fun i => elu1 (y i)

theorem elu_congr {s s' : Shape} {y : s.Idx → EReal} {y' : s'.Idx → EReal} {i : s.Idx} {i' : s'.Idx} (h : y i = y' i') :
    elu y i = elu y' i' := congrArg elu1 h

/-! ## The dense stages -/

/-- (a · w) with row p scaled by the column entry d (p, 0). -/
def scaledProd (a : Mat P K) (w : Mat K Q) (d : Mat P 1) : Mat P Q :=
  fun i => (∑ k : Fin K, a (ix2 (n0 := P) (i 0) k) * w (ix2 k (n1 := Q) (i 1))) * d (ix2 (n0 := P) (i 0) (0 : Fin 1))

theorem scaledProd_ix2 (a : Mat P K) (w : Mat K Q) (d : Mat P 1) (p : Fin P) (q : Fin Q) :
    scaledProd a w d (ix2 p q) = (∑ k : Fin K, a (ix2 p k) * w (ix2 k q)) * d (ix2 p (0 : Fin 1)) := rfl

theorem scaledProd_congr {a : Mat P K} {a' : Mat P' K} {w w' : Mat K Q} {d : Mat P 1} {d' : Mat P' 1} {p : Fin P} {p' : Fin P'}
    (ha : ∀ k, a (ix2 p k) = a' (ix2 p' k)) (hw : ∀ k q, w (ix2 k q) = w' (ix2 k q))
    (hd : d (ix2 p (0 : Fin 1)) = d' (ix2 p' (0 : Fin 1))) (q : Fin Q) :
    scaledProd a w d (ix2 p q) = scaledProd a' w' d' (ix2 p' q) := by
  rw [scaledProd_ix2, scaledProd_ix2, hd]
  exact congrArg (· * d' (ix2 p' (0 : Fin 1))) (Finset.sum_congr rfl fun k _ => by rw [ha k, hw k q])

/-- a · w. -/
def matProd (a : Mat P K) (w : Mat K Q) : Mat P Q :=
  fun i => ∑ k : Fin K, a (ix2 (n0 := P) (i 0) k) * w (ix2 k (n1 := Q) (i 1))

theorem matProd_ix2 (a : Mat P K) (w : Mat K Q) (p : Fin P) (q : Fin Q) :
    matProd a w (ix2 p q) = ∑ k : Fin K, a (ix2 p k) * w (ix2 k q) := rfl

/-- The kernel program's input to the normalisation: the unweighted aggregate with row p scaled by d (p, 0), plus the bias. -/
def pre (conv : Mat P Q) (d : Mat P 1) (b : Fin Q → EReal) : Mat P Q :=
  fun i => conv i * d (ix2 (n0 := P) (i 0) (0 : Fin 1)) + b (i 1)

theorem pre_ix2 (conv : Mat P Q) (d : Mat P 1) (b : Fin Q → EReal) (p : Fin P) (q : Fin Q) :
    pre conv d b (ix2 p q) = conv (ix2 p q) * d (ix2 p (0 : Fin 1)) + b q := rfl

/-- Normalisation over the lanes (divisor 128, offset eps) with gain g and offset β, then ELU. -/
def normAct (y : Mat P Q) (g β : Fin Q → EReal) : Mat P Q := elu (lnorm c128 eps y g β)

theorem normAct_congr {y : Mat P Q} {y' : Mat P' Q} {g g' β β' : Fin Q → EReal} {p : Fin P} {p' : Fin P'} {q : Fin Q}
    (hy : ∀ k, y (ix2 p k) = y' (ix2 p' k)) (hg : g q = g' q) (hβ : β q = β' q) :
    normAct y g β (ix2 p q) = normAct y' g' β' (ix2 p' q) := elu_congr (lnorm_congr hy hg hβ)

/-- What the last kernel leaves: normAct of pre. -/
def actK (conv : Mat P Q) (d : Mat P 1) (b g β : Fin Q → EReal) : Mat P Q := normAct (pre conv d b) g β

/-- What the middle kernel leaves: actK, times w, rows scaled by d. -/
def midK (conv : Mat P K) (d : Mat P 1) (b g β : Fin K → EReal) (w : Mat K Q) : Mat P Q := scaledProd (actK conv d b g β) w d

/-! ## The graph stages (N rows, E positions) -/

variable {N E : Nat}

/-- The positions whose destination integer, read signed, is exactly i. -/
def lands (dst : IdxList E) (i : Fin N) : Finset (Fin E) :=
  Finset.univ.filter fun e : Fin E => (dst (ix1 e)).toInt = (i.val : Int)

/-- The degree of node i: the number of positions that land on it, as a sum of ones. -/
def deg (dst : IdxList E) (i : Fin N) : EReal := ∑ _e ∈ lands dst i, (1 : EReal)

/-- where(deg > 0, 1 / sqrt deg, 0). -/
def dinv (dst : IdxList E) (i : Fin N) : EReal :=
  Scalar.select (Ideal.cmp .ogt (deg dst i) 0) (Ideal.rsqrt (deg dst i)) 0

/-- dinv as the column [N, 1] the kernels read. -/
def dinvCol (dst : IdxList E) : Mat N 1 := fun j => dinv dst (j 0)

/-- A negative integer has the extent added. -/
def nrm (n : BitVec 32) (z : BitVec 32) : BitVec 32 := Scalar.select (IntOp.cmpi .slt z 0#32) (IntOp.addi z n) z

/-- The row of the table a gather reads for the integer z: normalised, read signed, clamped into [0, N − 1]. -/
def rowOf (hN : 0 < N) (n : BitVec 32) (z : BitVec 32) : Fin N := RowIndexing.clampRow hN (nrm n z)

/-- The kernel program's aggregate: into (i, c), the entries (row of src e, c) of hs over the positions that land on i. -/
def aggKer (hN : 0 < N) (n : BitVec 32) (src dst : IdxList E) (hs : Mat N Q) : Mat N Q :=
  fun j => ∑ e ∈ lands dst (j 0), hs (ix2 (rowOf hN n (src (ix1 e))) (n1 := Q) (j 1))

/-- The reference's aggregate: the same entries of h, each times dinv[row of src e] · dinv[row of dst e]. -/
def aggRef (hN : 0 < N) (n : BitVec 32) (src dst : IdxList E) (h : Mat N Q) : Mat N Q :=
  fun j => ∑ e ∈ lands dst (j 0), h (ix2 (rowOf hN n (src (ix1 e))) (n1 := Q) (j 1))
    * (dinv dst (rowOf hN n (src (ix1 e))) * dinv dst (rowOf hN n (dst (ix1 e))))

/-! ## The two programs' results -/

/-- The kernel program: three kernels with two aggregations between them. -/
def outKer (hN : 0 < N) (n : BitVec 32) (src dst : IdxList E) (x : Mat N K) (W1 : Mat K Q) (b1 g1 β1 : Fin Q → EReal)
    (W2 : Mat Q Q) (b2 g2 β2 : Fin Q → EReal) : Mat N Q :=
  actK (aggKer hN n src dst (midK (aggKer hN n src dst (scaledProd x W1 (dinvCol dst))) (dinvCol dst) b1 g1 β1 W2))
    (dinvCol dst) b2 g2 β2

/-- One layer of the reference on node features a. -/
def layerRef (hN : 0 < N) (n : BitVec 32) (src dst : IdxList E) (a : Mat N K) (W : Mat K Q) (b g β : Fin Q → EReal) : Mat N Q :=
  normAct (fun j => aggRef hN n src dst (matProd a W) j + b (j 1)) g β

/-- The reference: two layers. -/
def outRef (hN : 0 < N) (n : BitVec 32) (src dst : IdxList E) (x : Mat N K) (W1 : Mat K Q) (b1 g1 β1 : Fin Q → EReal)
    (W2 : Mat Q Q) (b2 g2 β2 : Fin Q → EReal) : Mat N Q :=
  layerRef hN n src dst (layerRef hN n src dst x W1 b1 g1 β1) W2 b2 g2 β2

end Gcn

end
-- ==== Proof.LibGraphSum.lean ====
/-
  Sums over the edges of a graph with self-loops, on the extended reals.

  A graph convolution adds, into node `i`, one term per edge that arrives at `i`. With the symmetric normalisation every
  term carries the factor `a[src] · a[dst]`, and `a[dst] = a[i]` on every edge that arrives at `i`; with self-loops the edge
  list is the given edges followed by one loop `(j, j)` per node. This file has the arithmetic that lets the factor
  `a[i]` be taken out of the sum and the loops be summed apart:

  * `sum_mul_of_nonneg`: a finite sum times a non-negative REAL factor is the sum of the products. (On the extended reals
    right-distributivity fails in general — `(⊤ + ⊥) · x` — but it holds for a factor in `[0, ∞)`, whatever the terms.)
  * `sum_filter_add`, `sum_filter_split`: a filtered sum over `m + n` positions is the filtered sum over the first `m`
    plus the one over the last `n`.
  * `sum_filter_self`: a filtered sum whose filter holds of exactly one position is the term there.
  * `toInt_ofNat_of_lt`: a node number below `2^31`, written as a 32-bit integer and read signed, is itself.
  * `select_neg_of_nonneg`: the "add the extent to a negative index" normalisation leaves a non-negative index alone.
  * `sum_ones`, `rsqrt_count`: a sum of ones is the number of terms, and the inverse square root of one plus such a
    count is a real number in `[0, ∞)`.
  * `gt_zero_count`: one plus a count is positive, so a `where(deg > 0, f deg, 0)` takes its first branch there.
-/
import Idealize.ShloMosaic.Lib.ValueIdx
import Idealize.ShloMosaic.PureOps.Ideal.Laws

noncomputable section

namespace GraphSum

open Idealize.ShloMosaic

/-! ## Taking a non-negative real factor out of a sum -/

theorem sum_mul_of_nonneg {ι : Type*} (S : Finset ι) (t : ι → EReal) {d : EReal} (h0 : 0 ≤ d) (ht : d ≠ ⊤) :
    (∑ j ∈ S, t j) * d = ∑ j ∈ S, t j * d := by
  classical
  induction S using Finset.induction_on with
  | empty => simp
  | insert a s ha ih =>
    rw [Finset.sum_insert ha, Finset.sum_insert ha, EReal.right_distrib_of_nonneg_of_ne_top h0 ht, ih]

/-! ## Splitting a sum over a list of positions followed by another -/

theorem sum_filter_add {M : Type*} [AddCommMonoid M] {m n : Nat} (p : Fin (m + n) → Prop) [DecidablePred p]
    (f : Fin (m + n) → M) :
    ∑ e ∈ Finset.univ.filter p, f e
      = ∑ e ∈ Finset.univ.filter (fun e : Fin m => p (Fin.castAdd n e)), f (Fin.castAdd n e)
        + ∑ j ∈ Finset.univ.filter (fun j : Fin n => p (Fin.natAdd m j)), f (Fin.natAdd m j) := by
  rw [Finset.sum_filter, Fin.sum_univ_add, ← Finset.sum_filter, ← Finset.sum_filter]

/-- The same for a list of `M = m + n` positions: the first `m` and the last `n`, each re-read as a position of the whole. -/
theorem sum_filter_split {A : Type*} [AddCommMonoid A] {M m n : Nat} (hM : m + n = M) (p : Fin M → Prop) [DecidablePred p]
    (f : Fin M → A) :
    ∑ e ∈ Finset.univ.filter p, f e
      = ∑ e ∈ Finset.univ.filter (fun e : Fin m => p (Fin.cast hM (Fin.castAdd n e))), f (Fin.cast hM (Fin.castAdd n e))
        + ∑ j ∈ Finset.univ.filter (fun j : Fin n => p (Fin.cast hM (Fin.natAdd m j))), f (Fin.cast hM (Fin.natAdd m j)) := by
  subst hM
  exact sum_filter_add p f

theorem sum_filter_self {M : Type*} [AddCommMonoid M] {n : Nat} (i : Fin n) (p : Fin n → Prop) [DecidablePred p]
    (hp : ∀ j, p j ↔ j = i) (f : Fin n → M) : ∑ j ∈ Finset.univ.filter p, f j = f i := by
  have e : Finset.univ.filter p = {i} := by
    ext j
    simp [hp]
  rw [e, Finset.sum_singleton]

/-! ## Node numbers as 32-bit integers -/

theorem toInt_ofNat_of_lt {j : Nat} (h : j < 2 ^ 31) : (BitVec.ofNat 32 j).toInt = (j : Int) := by
  have h2 : j % 2 ^ 32 = j := Nat.mod_eq_of_lt (by omega)
  rw [BitVec.toInt_eq_toNat_cond, BitVec.toNat_ofNat, h2]
  split
  · rfl
  · omega

theorem select_neg_of_nonneg (x y : BitVec 32) (h : 0 ≤ x.toInt) :
    Scalar.select (IntOp.cmpi .slt x 0#32) y x = x := by
  have hs : x.slt 0#32 = false := by
    simp only [BitVec.slt, BitVec.toInt_zero, decide_eq_false_iff_not, not_lt]
    exact h
  unfold Scalar.select IntOp.cmpi
  simp only [hs]
  rfl

/-! ## Degrees: one plus a count -/

theorem sum_ones {ι : Type*} (S : Finset ι) : ∑ _j ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    congr 1
    push_cast
    ring

/-- One plus a count, as a real number that is at least one. -/
theorem count_succ {ι : Type*} (S : Finset ι) :
    ∃ r : ℝ, 1 ≤ r ∧ (0 + ∑ _j ∈ S, (1 : EReal)) + 1 = (r : EReal) := by
  refine ⟨(S.card : ℝ) + 1, by have : (0 : ℝ) ≤ (S.card : ℝ) := Nat.cast_nonneg _; linarith, ?_⟩
  rw [zero_add, sum_ones, ← EReal.coe_one, ← EReal.coe_add]

/-- The inverse square root of a real number that is at least one is a real number in `[0, ∞)`. -/
theorem rsqrt_of_one_le {r : ℝ} (h : 1 ≤ r) : 0 ≤ Ideal.rsqrt (r : EReal) ∧ Ideal.rsqrt (r : EReal) ≠ ⊤ := by
  have hpos : 0 < r := by linarith
  rw [Ideal.rsqrt_coe, if_neg (not_lt.mpr hpos.le), if_neg hpos.ne']
  exact ⟨by exact_mod_cast (inv_nonneg.mpr (Real.sqrt_nonneg r)), EReal.coe_ne_top _⟩

/-- A real number that is at least one is greater than zero, as extended reals compare. -/
theorem cmp_ogt_zero_of_one_le {r : ℝ} (h : 1 ≤ r) : Ideal.cmp .ogt (r : EReal) 0 = 1 := by
  have hpos : (0 : EReal) < (r : EReal) := by exact_mod_cast (by linarith : (0 : ℝ) < r)
  unfold Ideal.cmp
  simp [hpos]

end GraphSum

end
-- ==== Proof.LibGcnBridge.lean ====
/-
  The kernel program's block and the reference's block are one function.

  In one layer the reference adds, into entry (i, q), the terms h[src e, q] · (dinv[src e] · dinv[dst e]) over the positions e
  that land on i. On such a position the destination integer, read signed, is i itself; a non-negative integer is left
  alone by the normalisation and by the clamp, so dinv[dst e] = dinv i there. dinv i is a real number in [0, ∞) — the
  degree is a count, and where the count is positive its inverse square root is a positive real —, and a factor in [0, ∞)
  can be taken out of a finite sum of extended reals whatever the terms are. So the reference's sum is
  (∑ h[src e, q] · dinv[src e]) · dinv i: the kernel program's unweighted aggregate of the rows it scaled before the
  gather, scaled after the scatter. Everything downstream of the sum (bias, normalisation, ELU, the next product) is the
  same function on both sides.
-/
import proofs.«167445_j32667521253433_2_alg».proof.Proof.LibGcnSpec
import proofs.«167445_j32667521253433_2_alg».proof.Proof.LibGraphSum

noncomputable section

namespace Gcn

open Idealize.ShloMosaic Idealize.ShloMosaic.ValueIdx NormLayer

variable {K Q N E : Nat}

/-! ## dinv is a real number in [0, ∞) -/

theorem dinv_nonneg (dst : IdxList E) (i : Fin N) : 0 ≤ dinv dst i ∧ dinv dst i ≠ ⊤ := by
  unfold dinv deg
  rw [GraphSum.sum_ones]
  by_cases hc : (lands dst i).card = 0
  · rw [hc]
    have h0 : Ideal.cmp .ogt (((0 : ℕ) : ℝ) : EReal) 0 ≠ 1 := by
      unfold Ideal.cmp
      simp
    unfold Scalar.select
    rw [if_neg h0]
    exact ⟨le_refl _, EReal.zero_ne_top⟩
  · have h1 : (1 : ℝ) ≤ ((lands dst i).card : ℝ) := by
      exact_mod_cast Nat.one_le_iff_ne_zero.mpr hc
    unfold Scalar.select
    rw [if_pos (GraphSum.cmp_ogt_zero_of_one_le h1)]
    exact GraphSum.rsqrt_of_one_le h1

/-! ## A position that lands on i names row i -/

theorem rowOf_of_lands (hN : 0 < N) (n : BitVec 32) (dst : IdxList E) (i : Fin N) (e : Fin E) (he : e ∈ lands dst i) :
    rowOf hN n (dst (ix1 e)) = i := by
  have hz : (dst (ix1 e)).toInt = (i.val : Int) := (Finset.mem_filter.mp he).2
  unfold rowOf nrm
  rw [GraphSum.select_neg_of_nonneg _ _ (by rw [hz]; exact Int.natCast_nonneg _)]
  exact RowIndexing.clampRow_of_toInt hN _ i hz

/-! ## One layer -/

/-- The scaled unweighted aggregate of the scaled rows, plus the bias, is the reference's weighted aggregate plus the bias. -/
theorem pre_agg (hN : 0 < N) (n : BitVec 32) (src dst : IdxList E) (a : Mat N K) (W : Mat K Q) (b : Fin Q → EReal) :
    pre (aggKer hN n src dst (scaledProd a W (dinvCol dst))) (dinvCol dst) b
      = fun j => aggRef hN n src dst (matProd a W) j + b (j 1) := by
  funext j
  obtain ⟨p, q, rfl⟩ : ∃ (p : Fin N) (q : Fin Q), j = ix2 p q := ⟨j 0, j 1, eq_ix2 j⟩
  show (∑ e ∈ lands dst p, (∑ k : Fin K, a (ix2 (rowOf hN n (src (ix1 e))) k) * W (ix2 k q)) * dinv dst (rowOf hN n (src (ix1 e))))
        * dinv dst p + b q
      = (∑ e ∈ lands dst p, (∑ k : Fin K, a (ix2 (rowOf hN n (src (ix1 e))) k) * W (ix2 k q))
          * (dinv dst (rowOf hN n (src (ix1 e))) * dinv dst (rowOf hN n (dst (ix1 e))))) + b q
  rw [GraphSum.sum_mul_of_nonneg _ _ (dinv_nonneg dst p).1 (dinv_nonneg dst p).2]
  refine congrArg (· + b q) (Finset.sum_congr rfl fun e he => ?_)
  rw [rowOf_of_lands hN n dst p e he, mul_assoc]

theorem layer_eq (hN : 0 < N) (n : BitVec 32) (src dst : IdxList E) (a : Mat N K) (W : Mat K Q) (b g β : Fin Q → EReal) :
    actK (aggKer hN n src dst (scaledProd a W (dinvCol dst))) (dinvCol dst) b g β = layerRef hN n src dst a W b g β := by
  unfold actK layerRef
  rw [pre_agg]

/-! ## The block -/

theorem outKer_eq_outRef (hN : 0 < N) (n : BitVec 32) (src dst : IdxList E) (x : Mat N K) (W1 : Mat K Q) (b1 g1 β1 : Fin Q → EReal)
    (W2 : Mat Q Q) (b2 g2 β2 : Fin Q → EReal) :
    outKer hN n src dst x W1 b1 g1 β1 W2 b2 g2 β2 = outRef hN n src dst x W1 b1 g1 β1 W2 b2 g2 β2 := by
  unfold outKer outRef midK
  rw [layer_eq, layer_eq]

end Gcn

end
-- ==== Proof.LibVecScatter.lean ====
/-
  Scatter-adding the entries of a vector [E] into a vector [N] at a list of E positions, read at an index.

  The positions are an integer array [E, 1]. The host's accumulating scatter adds update `e` into entry `i` exactly when
  the integer at position `e`, read signed and NOT clamped, is `i`; an update whose integer is negative or at least `N`
  lands nowhere. At the ideal instance entry `i` of the result is the operand's entry plus the sum of those updates
  (`vecScatterAdd_apply`) — with updates that are all one, the operand's entry plus the number of positions naming `i`.
-/
import Idealize.ShloMosaic.Lib.ValueIdx
import Idealize.ShloMosaic.PureOps.Ideal
import Idealize.ShloMosaic.PureOps.Contract
import Idealize.ShloMosaic.PureOps.ShapeOps

noncomputable section

namespace VecScatter

open Idealize.ShloMosaic Idealize.ShloMosaic.ValueIdx

variable {N E w : Nat}

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries: the scatter index names the entry, the update has no window. -/
structure IsVecScatter (d : ScatterDims ⟨1, ![N]⟩ ⟨2, ![E, 1]⟩ ⟨1, ![E]⟩) : Prop where
  uw : d.updateWindowDims = []
  iw : d.insertedWindowDims = [(0 : Fin 1)]
  sd : d.scatterDimsToOperandDims = [(0 : Fin 1)]
  iv : d.indexVectorDim = 1

variable {d : ScatterDims ⟨1, ![N]⟩ ⟨2, ![E, 1]⟩ ⟨1, ![E]⟩}

theorem start_eq (h : IsVecScatter d) (idx : IVec ⟨2, ![E, 1]⟩ w) (e : Fin E) :
    d.start (ix1 e) idx 0 = (idx (ix2 e (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  have hsi : ScatterDims.siIdx (⟨[], [(0 : Fin 1)], [(0 : Fin 1)], 1, wf⟩ :
      ScatterDims ⟨1, ![N]⟩ ⟨2, ![E, 1]⟩ ⟨1, ![E]⟩) (ix1 e)
      ⟨List.idxOf (0 : Fin 1) [(0 : Fin 1)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_eq (h : IsVecScatter d) (e : Fin E) : d.window (ix1 e) 0 = 0 := by
  obtain ⟨uw, iw, sd, iv, wf⟩ := d
  obtain ⟨h1, h2, h3, h4⟩ := h
  dsimp only at h1 h2 h3 h4
  subst h1 h2 h3 h4
  rfl

/-- WHERE AN UPDATE LANDS: update `e` lands on entry `i` exactly when the integer at position `e` is `i`. -/
theorem resultIdx_iff (h : IsVecScatter d) (idx : IVec ⟨2, ![E, 1]⟩ w) (e : Fin E) (i : Fin N) :
    d.resultIdx? (ix1 e) idx = some (ix1 i) ↔ (idx (ix2 e (0 : Fin 1))).toInt = (i.val : Int) := by
  have h00 : d.start (ix1 e) idx 0 + (d.window (ix1 e) 0 : Int) = (idx (ix2 e (0 : Fin 1))).toInt := by
    rw [start_eq h, window_eq h]; simp
  unfold ScatterDims.resultIdx?
  split
  · rename_i hc
    rw [Option.some.injEq]
    constructor
    · intro hf
      have e0 : (d.start (ix1 e) idx 0 + (d.window (ix1 e) 0 : Int)).toNat = i.val := congrArg (fun f => (f 0).val) hf
      have p0 := (hc 0).1
      rw [h00] at e0 p0
      omega
    · intro hz
      funext a
      refine Fin.ext ?_
      match a with
      | ⟨0, _⟩ =>
        show (d.start (ix1 e) idx 0 + (d.window (ix1 e) 0 : Int)).toNat = i.val
        rw [h00, hz]; simp
  · rename_i hc
    constructor
    · intro hf; cases hf
    · intro hz
      exfalso
      refine hc fun a => ?_
      match a with
      | ⟨0, _⟩ =>
        show 0 ≤ d.start (ix1 e) idx 0 + (d.window (ix1 e) 0 : Int) ∧ d.start (ix1 e) idx 0 + (d.window (ix1 e) 0 : Int) < (N : Int)
        rw [h00, hz]
        have := i.isLt
        omega

/-- THE ACCUMULATING SCATTER AT `i`, at the ideal instance: the operand's entry plus the sum, over the positions whose
    integer is `i`, of the update's entry. -/
theorem vecScatterAdd_apply (h : IsVecScatter d) {φ : FTy} (x : FVec Ideal ⟨1, ![N]⟩ φ) (idx : IVec ⟨2, ![E, 1]⟩ w)
    (upd : FVec Ideal ⟨1, ![E]⟩ φ) (i : Fin N) :
    Host.scatterAdd d x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter (fun j => d.resultIdx? j idx = some (ix1 i)), upd j = _
  congr 1
  rw [Finset.sum_filter, sum_idx1, Finset.sum_filter]
  exact Finset.sum_congr rfl fun e _ => if_congr (resultIdx_iff h idx e i) rfl rfl

end VecScatter

end
-- ==== Proof.LibGcnHost.lean ====
/-
  The host's spelling of the graph stages, read at an index (at the ideal instance).

  * the degree: a scatter-add of a vector of ones into a vector of zeros at the destination integers laid out as a column
    is, at i, the number of positions that land on i (as a sum of ones);
  * dinv: select (deg > 0) (rsqrt deg) 0, entry by entry;
  * the normalisation of an index: select (z < 0) (z + n) z, entry by entry;
  * the kernel program's aggregate: a scatter-add, into zeros, of the rows gathered at the normalised source integers;
  * the reference's aggregate: the same scatter-add of the gathered rows times the per-position weight
    dinv[src] · dinv[dst], the weight laid out as a column and broadcast over the lanes;
  * a plain matrix product.
-/
import proofs.«167445_j32667521253433_2_alg».proof.Proof.LibGcnSpec
import proofs.«167445_j32667521253433_2_alg».proof.Proof.LibVecScatter
import proofs.«167445_j32667521253433_2_alg».proof.Proof.LibBroadcastReads
import proofs.«167445_j32667521253433_2_alg».proof.Proof.LibPlainDot

noncomputable section

namespace Gcn

open Idealize.ShloMosaic Idealize.ShloMosaic.ValueIdx

variable {P K Q N E : Nat}

/-- The positions whose integer in the column layout of dst is i are the positions that land on i. -/
theorem lands_col (h1 : (⟨1, ![E]⟩ : Shape).BroadcastsInDim ⟨2, ![E, 1]⟩ ![0]) (dst : IdxList E) (i : Fin N) :
    Finset.univ.filter (fun e : Fin E => (broadcastInDim ⟨2, ![E, 1]⟩ ![0] h1 dst (ix2 e (0 : Fin 1))).toInt = (i.val : Int))
      = lands dst i := by
  unfold lands
  refine Finset.filter_congr fun e _ => ?_
  rw [BroadcastReads.vec_to_col dst h1 e 0]

/-- The degree. -/
theorem host_deg {d : ScatterDims ⟨1, ![N]⟩ ⟨2, ![E, 1]⟩ ⟨1, ![E]⟩} (hd : VecScatter.IsVecScatter d)
    (h1 : (⟨1, ![E]⟩ : Shape).BroadcastsInDim ⟨2, ![E, 1]⟩ ![0])
    (zero : FVec Ideal ⟨1, ![N]⟩ .f32) (ones : FVec Ideal ⟨1, ![E]⟩ .f32) (hz : ∀ j, zero j = 0) (ho : ∀ j, ones j = 1)
    (dst : IdxList E) (i : Fin N) :
    Host.scatterAdd (F := Ideal) d zero (broadcastInDim ⟨2, ![E, 1]⟩ ![0] h1 dst) ones (ix1 i) = deg dst i := by
  rw [VecScatter.vecScatterAdd_apply hd, lands_col h1 dst i, hz, zero_add]
  exact Finset.sum_congr rfl fun e _ => ho _

/-- A broadcast f32 constant, entry by entry. -/
theorem const_bcast (s : Shape) (h : (⟨0, ![]⟩ : Shape).BroadcastsInDim s ![]) (w : BitVec 32) (j : s.Idx) :
    broadcastInDim s ![] h (constant (F := Ideal) ⟨0, ![]⟩ .f32 w) j = Ideal.ofBits .f32 w := by
  rw [BroadcastReads.scalar_to]
  rfl

theorem zero_bcast (s : Shape) (h : (⟨0, ![]⟩ : Shape).BroadcastsInDim s ![]) (j : s.Idx) :
    broadcastInDim s ![] h (constant (F := Ideal) ⟨0, ![]⟩ .f32 0x00000000#32) j = 0 := by
  rw [const_bcast, Ideal.ofBits_zero_f32]

theorem one_bcast (s : Shape) (h : (⟨0, ![]⟩ : Shape).BroadcastsInDim s ![]) (j : s.Idx) :
    broadcastInDim s ![] h (constant (F := Ideal) ⟨0, ![]⟩ .f32 0x3F800000#32) j = 1 := by
  rw [const_bcast, DenseLayer.ofBits_one]

/-- dinv, entry by entry. -/
theorem host_dinv (dg zc zs : FVec Ideal ⟨1, ![N]⟩ .f32) (dst : IdxList E) (i : Fin N)
    (hdg : dg (ix1 i) = deg dst i) (hzc : zc (ix1 i) = 0) (hzs : zs (ix1 i) = 0) :
    select (cmpf .ogt dg zc) (Host.rsqrt (F := Ideal) dg) zs (ix1 i) = dinv dst i := by
  show Scalar.select (Ideal.cmp .ogt (dg (ix1 i)) (zc (ix1 i))) (Ideal.rsqrt (dg (ix1 i))) (zs (ix1 i)) = _
  rw [hdg, hzc, hzs]
  rfl

/-- The normalisation of an index, entry by entry. -/
theorem host_nrm {s : Shape} (z zeros nn : IVec s 32) (n : BitVec 32) (j : s.Idx) (h0 : zeros j = 0#32) (hn : nn j = n) :
    select (cmpi .slt z zeros) (addi z nn) z j = nrm n (z j) := by
  show Scalar.select (IntOp.cmpi .slt (z j) (zeros j)) (IntOp.addi (z j) (nn j)) (z j) = _
  rw [h0, hn]
  rfl

/-- The kernel program's aggregate. -/
theorem host_aggKer (hN : 0 < N) {d : ScatterDims ⟨2, ![N, Q]⟩ ⟨2, ![E, 1]⟩ ⟨2, ![E, Q]⟩} (hd : RowIndexing.IsRowScatter d)
    {dg : GatherDims ⟨2, ![N, Q]⟩ ⟨2, ![E, 1]⟩ ⟨2, ![E, Q]⟩} (hg : RowIndexing.IsRowGather dg)
    (h1 : (⟨1, ![E]⟩ : Shape).BroadcastsInDim ⟨2, ![E, 1]⟩ ![0])
    (zero : FVec Ideal ⟨2, ![N, Q]⟩ .f32) (hz : ∀ j, zero j = 0) (n : BitVec 32) (src dst srcN : IdxList E)
    (hsrcN : ∀ e : Fin E, srcN (ix1 e) = nrm n (src (ix1 e))) (hs : FVec Ideal ⟨2, ![N, Q]⟩ .f32) :
    Host.scatterAdd (F := Ideal) d zero (broadcastInDim ⟨2, ![E, 1]⟩ ![0] h1 dst)
        (Host.gather dg hs (broadcastInDim ⟨2, ![E, 1]⟩ ![0] h1 srcN))
      = aggKer hN n src dst hs := by
  funext j
  obtain ⟨i, c, rfl⟩ : ∃ (i : Fin N) (c : Fin Q), j = ix2 i c := ⟨j 0, j 1, eq_ix2 j⟩
  rw [RowIndexing.scatterAdd_gather_apply hN hd hg, hz, zero_add, lands_col h1 dst i]
  show _ = ∑ e ∈ lands dst i, hs (ix2 (rowOf hN n (src (ix1 e))) c)
  refine Finset.sum_congr rfl fun e _ => ?_
  rw [BroadcastReads.vec_to_col srcN h1 e 0, hsrcN e]
  rfl

/-- The reference's aggregate. -/
theorem host_aggRef (hN : 0 < N) {d : ScatterDims ⟨2, ![N, Q]⟩ ⟨2, ![E, 1]⟩ ⟨2, ![E, Q]⟩} (hd : RowIndexing.IsRowScatter d)
    {dg : GatherDims ⟨2, ![N, Q]⟩ ⟨2, ![E, 1]⟩ ⟨2, ![E, Q]⟩} (hg : RowIndexing.IsRowGather dg)
    {dv : GatherDims ⟨1, ![N]⟩ ⟨2, ![E, 1]⟩ ⟨1, ![E]⟩} (hv : RowIndexing.IsVecGather dv)
    (h1 : (⟨1, ![E]⟩ : Shape).BroadcastsInDim ⟨2, ![E, 1]⟩ ![0])
    (h3 : (⟨2, ![E, 1]⟩ : Shape).BroadcastsInDim ⟨2, ![E, Q]⟩ ![0, 1])
    (zero : FVec Ideal ⟨2, ![N, Q]⟩ .f32) (hz : ∀ j, zero j = 0) (n : BitVec 32) (src dst srcN dstN : IdxList E)
    (hsrcN : ∀ e : Fin E, srcN (ix1 e) = nrm n (src (ix1 e))) (hdstN : ∀ e : Fin E, dstN (ix1 e) = nrm n (dst (ix1 e)))
    (dv' : FVec Ideal ⟨1, ![N]⟩ .f32) (hdv : ∀ i : Fin N, dv' (ix1 i) = dinv dst i) (h : FVec Ideal ⟨2, ![N, Q]⟩ .f32) :
    Host.scatterAdd (F := Ideal) d zero (broadcastInDim ⟨2, ![E, 1]⟩ ![0] h1 dst)
        (mulf (Host.gather dg h (broadcastInDim ⟨2, ![E, 1]⟩ ![0] h1 srcN))
          (broadcastInDim ⟨2, ![E, Q]⟩ ![0, 1] h3 (broadcastInDim ⟨2, ![E, 1]⟩ ![0] h1
            (mulf (Host.gather dv dv' (broadcastInDim ⟨2, ![E, 1]⟩ ![0] h1 srcN))
              (Host.gather dv dv' (broadcastInDim ⟨2, ![E, 1]⟩ ![0] h1 dstN))))))
      = aggRef hN n src dst h := by
  funext j
  obtain ⟨i, c, rfl⟩ : ∃ (i : Fin N) (c : Fin Q), j = ix2 i c := ⟨j 0, j 1, eq_ix2 j⟩
  rw [RowIndexing.rowScatterAdd_apply hd, hz, zero_add, lands_col h1 dst i]
  show _ = ∑ e ∈ lands dst i, h (ix2 (rowOf hN n (src (ix1 e))) c)
      * (dinv dst (rowOf hN n (src (ix1 e))) * dinv dst (rowOf hN n (dst (ix1 e))))
  refine Finset.sum_congr rfl fun e _ => ?_
  show Host.gather dg h (broadcastInDim ⟨2, ![E, 1]⟩ ![0] h1 srcN) (ix2 e c)
      * broadcastInDim ⟨2, ![E, Q]⟩ ![0, 1] h3 (broadcastInDim ⟨2, ![E, 1]⟩ ![0] h1
          (mulf (Host.gather dv dv' (broadcastInDim ⟨2, ![E, 1]⟩ ![0] h1 srcN))
            (Host.gather dv dv' (broadcastInDim ⟨2, ![E, 1]⟩ ![0] h1 dstN)))) (ix2 e c) = _
  rw [RowIndexing.rowGather_apply hN hg, BroadcastReads.col_to_lanes _ h3 e c, BroadcastReads.vec_to_col srcN h1 e 0,
    BroadcastReads.vec_to_col (mulf _ _) h1 e 0]
  show h (ix2 (RowIndexing.clampRow hN (srcN (ix1 e))) c)
      * (Host.gather dv dv' (broadcastInDim ⟨2, ![E, 1]⟩ ![0] h1 srcN) (ix1 e)
        * Host.gather dv dv' (broadcastInDim ⟨2, ![E, 1]⟩ ![0] h1 dstN) (ix1 e)) = _
  rw [RowIndexing.vecGather_apply hN hv, RowIndexing.vecGather_apply hN hv, BroadcastReads.vec_to_col srcN h1 e 0,
    BroadcastReads.vec_to_col dstN h1 e 0, hsrcN e, hdstN e, hdv, hdv]
  rfl

/-- A plain host product. -/
theorem host_matProd {d : DotDims ⟨2, ![P, K]⟩ ⟨2, ![K, Q]⟩ ⟨2, ![P, Q]⟩} (hd : PlainDot.IsPlain d)
    (a : FVec Ideal ⟨2, ![P, K]⟩ .f32) (w : FVec Ideal ⟨2, ![K, Q]⟩ .f32) :
    Host.dotGeneral (F := Ideal) d none a w = matProd a w := by
  funext j
  obtain ⟨p, q, rfl⟩ : ∃ (p : Fin P) (q : Fin Q), j = ix2 p q := ⟨j 0, j 1, eq_ix2 j⟩
  exact PlainDot.dotGeneral_apply hd _ a w p q

end Gcn

end
-- ==== Proof.KerHost.lean ====
/-
  The host stretches of the kernel program, read back.

  Between its three kernels the program runs stretches of whole-array operations. From ANY contents V0 of the core's buffers a
  stretch leaves, in each buffer it writes, the operations' composed term over V0, and every other buffer as it was. The
  terms are then read as the graph stages they spell:

  * the source and the destination list: row 0 and row 1 of the edge list, each followed by the nodes' own numbers (the
    self-loops);
  * the degree (ones scatter-added at the destinations into zeros), dinv = where(deg > 0, 1 / sqrt deg, 0), and dinv laid out
    as the column [50000, 1] the kernels read;
  * the aggregate: the rows of a table gathered at the normalised sources, scatter-added at the destinations into zeros;
  * a vector [128] laid out as the row [1, 128] a kernel reads: at (0, q) the vector at q.
-/
import proofs.«167445_j32667521253433_2_alg».proof.Proof.Gen.KernelIdeal.Launch
import proofs.«167445_j32667521253433_2_alg».proof.Proof.LibGcnSpec
import proofs.«167445_j32667521253433_2_alg».proof.Proof.LibGcnHost
import proofs.«167445_j32667521253433_2_alg».proof.Proof.LibKeepDims
import Idealize.ShloMosaic.Lib.StableHlo.Run
import Idealize.ShloMosaic.Lib.ValueLayout

noncomputable section

namespace Cert.KernelIdeal.Hand

open Idealize.ShloMosaic Idealize.ShloMosaic.ValueIdx
open Cert.KernelIdeal.Gen

variable (V0 : Valuation τ sig (Elt Ideal))

/-! ## The buffers each stretch writes; every other buffer keeps its contents -/

/-- The buffers the first stretch writes. -/
abbrev written0 : List (Ref sig .tc) :=
  [main_v0, main_v1, main_v2, main_v3, main_v4, main_v5, main_v6, main_cst, main_v7, main_cst_0, main_v8, main_v9, main_v10,
    main_cst_1, main_v11, main_v12, main_v13, main_cst_2]
/-- The buffers the outlined where writes. -/
abbrev written0_1 : List (Ref sig .tc) := [main_call0_v0, main_call0_v1, main_v14]
/-- The buffer the reshape to a column writes. -/
abbrev written0_2 : List (Ref sig .tc) := [main_v15]
/-- The buffers the stretch between the first and the second kernel writes. -/
abbrev written1 : List (Ref sig .tc) :=
  [main_c, main_v17, main_v18, main_c_3, main_v19, main_v20, main_v21, main_v22, main_v23, main_cst_4, main_v24, main_v25,
    main_v26, main_v27, main_v28, main_v29]
/-- The buffers the stretch between the second and the third kernel writes. -/
abbrev written2 : List (Ref sig .tc) :=
  [main_c_5, main_v31, main_v32, main_c_6, main_v33, main_v34, main_v35, main_v36, main_v37, main_cst_7, main_v38, main_v39,
    main_v40, main_v41, main_v42, main_v43]

theorem hostOps0_writes : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps0_1_writes : (hostOps0_1 : List (HloOp τ sig (Elt Ideal))).Forall fun op =>
    op.writes ⊆ (written0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps0_2_writes : (hostOps0_2 : List (HloOp τ sig (Elt Ideal))).Forall fun op =>
    op.writes ⊆ (written0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  exact List.mem_map_of_mem (by decide)

theorem hostOps1_writes : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps2_writes : (hostOps2 : List (HloOp τ sig (Elt Ideal))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep0 {r : Ref sig .tc} (h : r ∉ written0) :
    StableHlo.after (hostOps0 (F := Ideal)) V0 (Proc.devRef .tc r) = V0 (Proc.devRef .tc r) :=
  StableHlo.after_of_writes_sub hostOps0 V0 hostOps0_writes h
theorem keep0_1 {r : Ref sig .tc} (h : r ∉ written0_1) :
    StableHlo.after (hostOps0_1 (F := Ideal)) V0 (Proc.devRef .tc r) = V0 (Proc.devRef .tc r) :=
  StableHlo.after_of_writes_sub hostOps0_1 V0 hostOps0_1_writes h
theorem keep0_2 {r : Ref sig .tc} (h : r ∉ written0_2) :
    StableHlo.after (hostOps0_2 (F := Ideal)) V0 (Proc.devRef .tc r) = V0 (Proc.devRef .tc r) :=
  StableHlo.after_of_writes_sub hostOps0_2 V0 hostOps0_2_writes h
theorem keep1 {r : Ref sig .tc} (h : r ∉ written1) :
    StableHlo.after (hostOps1 (F := Ideal)) V0 (Proc.devRef .tc r) = V0 (Proc.devRef .tc r) :=
  StableHlo.after_of_writes_sub hostOps1 V0 hostOps1_writes h
theorem keep2 {r : Ref sig .tc} (h : r ∉ written2) :
    StableHlo.after (hostOps2 (F := Ideal)) V0 (Proc.devRef .tc r) = V0 (Proc.devRef .tc r) :=
  StableHlo.after_of_writes_sub hostOps2 V0 hostOps2_writes h

/-! ## The source and the destination list -/

/-- Row 0 of the edge list, then the nodes' own numbers. -/
def srcList (ei : (⟨2, ![2, 1600000]⟩ : Shape).Idx → BitVec 32) : Gcn.IdxList 1650000 :=
  concatenate S1650000 0
    [⟨S1600000, shapeCast S1600000 (extractStridedSlice S1x1600000 ![0, 0] ei slices_S2x1600000_S1x1600000_0_0)
        shapeCasts_S1x1600000_S1600000⟩,
      ⟨S50000, iotaInDim S50000 32 0⟩] concatenates_S1600000_S50000_S1650000_d0

/-- Row 1 of the edge list, then the nodes' own numbers. -/
def dstList (ei : (⟨2, ![2, 1600000]⟩ : Shape).Idx → BitVec 32) : Gcn.IdxList 1650000 :=
  concatenate S1650000 0
    [⟨S1600000, shapeCast S1600000 (extractStridedSlice S1x1600000 ![1, 0] ei slices_S2x1600000_S1x1600000_1_0)
        shapeCasts_S1x1600000_S1600000⟩,
      ⟨S50000, iotaInDim S50000 32 0⟩] concatenates_S1600000_S50000_S1650000_d0

theorem h0_v3 : StableHlo.after (hostOps0 (F := Ideal)) V0 (Proc.devRef .tc main_v3) = srcList (V0 (Proc.devRef .tc main_arg1)) := by
  dsimp only [hostOps0]
  after_results
  rfl

theorem h0_v6 : StableHlo.after (hostOps0 (F := Ideal)) V0 (Proc.devRef .tc main_v6) = dstList (V0 (Proc.devRef .tc main_arg1)) := by
  dsimp only [hostOps0]
  after_results
  rfl

/-! ## The degree and dinv -/

/-- Ones scatter-added at the destinations, into zeros. -/
def degArr (dst : Gcn.IdxList 1650000) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 dst)
    (broadcastInDim S1650000 ![] bcast_S_S1650000 (constant (F := Ideal) S_ .f32 0x3F800000#32))

/-- Entry i of it is the degree of node i. -/
theorem degArr_apply (dst : Gcn.IdxList 1650000) (i : Fin 50000) : degArr dst (ix1 i) = Gcn.deg dst i :=
  Gcn.host_deg ⟨rfl, rfl, rfl, rfl⟩ bcast_S1650000_S1650000x1_0 _ _ (fun j => Gcn.zero_bcast _ _ j) (fun j => Gcn.one_bcast _ _ j) dst i

theorem h0_v12 : StableHlo.after (hostOps0 (F := Ideal)) V0 (Proc.devRef .tc main_v12)
    = cmpf (F := Ideal) .ogt (degArr (dstList (V0 (Proc.devRef .tc main_arg1))))
        (broadcastInDim S50000 ![] bcast_S_S50000 (constant (F := Ideal) S_ .f32 0x00000000#32)) := by
  dsimp only [hostOps0]
  after_results
  rfl

theorem h0_v13 : StableHlo.after (hostOps0 (F := Ideal)) V0 (Proc.devRef .tc main_v13)
    = Host.rsqrt (F := Ideal) (degArr (dstList (V0 (Proc.devRef .tc main_arg1)))) := by
  dsimp only [hostOps0]
  after_results
  rfl

theorem h0_cst_2 : StableHlo.after (hostOps0 (F := Ideal)) V0 (Proc.devRef .tc main_cst_2)
    = constant (F := Ideal) S_ .f32 0x00000000#32 := by
  dsimp only [hostOps0]
  after_results

theorem h0_1_v14 : StableHlo.after (hostOps0_1 (F := Ideal)) V0 (Proc.devRef .tc main_v14)
    = select (V0 (Proc.devRef .tc main_v12)) (V0 (Proc.devRef .tc main_v13))
        (broadcastInDim S50000 ![] bcast_S_S50000 (V0 (Proc.devRef .tc main_cst_2))) := by
  dsimp only [hostOps0_1]
  after_results
  rfl

theorem h0_2_v15 : StableHlo.after (hostOps0_2 (F := Ideal)) V0 (Proc.devRef .tc main_v15)
    = shapeCast S50000x1 (V0 (Proc.devRef .tc main_v14)) shapeCasts_S50000_S50000x1 := by
  dsimp only [hostOps0_2]
  after_results
  rfl

/-- The contents the first kernel is entered at: the three stretches before it, in order. -/
abbrev pre0 : Valuation τ sig (Elt Ideal) :=
  StableHlo.after (hostOps0_2 (F := Ideal)) (StableHlo.after (hostOps0_1 (F := Ideal)) (StableHlo.after (hostOps0 (F := Ideal)) V0))

theorem pre0_keep {r : Ref sig .tc} (h0 : r ∉ written0) (h1 : r ∉ written0_1) (h2 : r ∉ written0_2) :
    pre0 V0 (Proc.devRef .tc r) = V0 (Proc.devRef .tc r) :=
  (keep0_2 _ h2).trans ((keep0_1 _ h1).trans (keep0 V0 h0))

theorem pre0_v3 : pre0 V0 (Proc.devRef .tc main_v3) = srcList (V0 (Proc.devRef .tc main_arg1)) :=
  (keep0_2 _ (by decide)).trans ((keep0_1 _ (by decide)).trans (h0_v3 V0))

theorem pre0_v6 : pre0 V0 (Proc.devRef .tc main_v6) = dstList (V0 (Proc.devRef .tc main_arg1)) :=
  (keep0_2 _ (by decide)).trans ((keep0_1 _ (by decide)).trans (h0_v6 V0))

/-- The column the kernels read is dinv of the destination list. -/
theorem pre0_v15 : pre0 V0 (Proc.devRef .tc main_v15) = Gcn.dinvCol (dstList (V0 (Proc.devRef .tc main_arg1))) := by
  refine (h0_2_v15 _).trans ?_
  funext j
  obtain ⟨i, u, rfl⟩ : ∃ (i : Fin 50000) (u : Fin 1), j = ix2 i u := ⟨j 0, j 1, eq_ix2 j⟩
  refine (KeepDims.shapeCast_a_a1_apply _ shapeCasts_S50000_S50000x1 i u).trans ?_
  rw [h0_1_v14, h0_v12, h0_v13, h0_cst_2]
  exact Gcn.host_dinv _ _ _ (dstList (V0 (Proc.devRef .tc main_arg1))) i (degArr_apply _ i)
    (Gcn.zero_bcast _ _ _) (Gcn.zero_bcast _ _ _)

/-! ## The aggregate -/

/-- A broadcast integer constant, entry by entry. -/
theorem constI_bcast (s : Shape) (h : S_.BroadcastsInDim s ![]) (b : BitVec 32) (j : s.Idx) :
    broadcastInDim s ![] h (constantI S_ 32 b) j = b := by
  rw [BroadcastReads.scalar_to]
  rfl

/-- The rows of hs gathered at the normalised sources, scatter-added at the destinations into zeros. -/
def aggArr (src dst : Gcn.IdxList 1650000) (hs : FVec Ideal S50000x128 .f32) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 dst)
    (Host.gather gather_S50000x128_S1650000x1_S1650000x128_1_0_n_n_0_1_1128 hs
      (broadcastInDim S1650000x1 ![0] bcast_S1650000_S1650000x1_0
        (select (cmpi .slt src (broadcastInDim S1650000 ![] bcast_S_S1650000 (constantI S_ 32 0#32)))
          (addi src (broadcastInDim S1650000 ![] bcast_S_S1650000 (constantI S_ 32 50000#32))) src)))

theorem aggArr_eq (src dst : Gcn.IdxList 1650000) (hs : FVec Ideal S50000x128 .f32) :
    aggArr src dst hs = Gcn.aggKer (N := 50000) (E := 1650000) (by decide) 50000#32 src dst hs :=
  Gcn.host_aggKer (by decide) ⟨rfl, rfl, rfl, rfl⟩ ⟨rfl, rfl, rfl, rfl, rfl, rfl⟩ bcast_S1650000_S1650000x1_0 _
    (fun j => Gcn.zero_bcast _ _ j) 50000#32 src dst _
    (fun e => Gcn.host_nrm src _ _ 50000#32 (ix1 e) (constI_bcast _ _ _ _) (constI_bcast _ _ _ _)) hs

theorem h1_v26 : StableHlo.after (hostOps1 (F := Ideal)) V0 (Proc.devRef .tc main_v26)
    = Gcn.aggKer (N := 50000) (E := 1650000) (by decide) 50000#32 (V0 (Proc.devRef .tc main_v3)) (V0 (Proc.devRef .tc main_v6))
        (V0 (Proc.devRef .tc main_v16)) := by
  refine Eq.trans ?_ (aggArr_eq _ _ _)
  dsimp only [hostOps1]
  after_results
  rfl

theorem h2_v40 : StableHlo.after (hostOps2 (F := Ideal)) V0 (Proc.devRef .tc main_v40)
    = Gcn.aggKer (N := 50000) (E := 1650000) (by decide) 50000#32 (V0 (Proc.devRef .tc main_v3)) (V0 (Proc.devRef .tc main_v6))
        (V0 (Proc.devRef .tc main_v30)) := by
  refine Eq.trans ?_ (aggArr_eq _ _ _)
  dsimp only [hostOps2]
  after_results
  rfl

/-! ## The rows [1, 128] -/

theorem h1_v27 (q : Fin 128) : StableHlo.after (hostOps1 (F := Ideal)) V0 (Proc.devRef .tc main_v27) (ix2 (0 : Fin 1) q)
    = V0 (Proc.devRef .tc main_arg3) (ix1 q) := by
  refine Eq.trans (congrFun (?_ : _ = shapeCast S1x128 (V0 (Proc.devRef .tc main_arg3)) shapeCasts_S128_S1x128) _)
    (shapeCast_a_1a_apply _ _ 0 q)
  dsimp only [hostOps1]
  after_results
  rfl

theorem h1_v28 (q : Fin 128) : StableHlo.after (hostOps1 (F := Ideal)) V0 (Proc.devRef .tc main_v28) (ix2 (0 : Fin 1) q)
    = V0 (Proc.devRef .tc main_arg4) (ix1 q) := by
  refine Eq.trans (congrFun (?_ : _ = shapeCast S1x128 (V0 (Proc.devRef .tc main_arg4)) shapeCasts_S128_S1x128) _)
    (shapeCast_a_1a_apply _ _ 0 q)
  dsimp only [hostOps1]
  after_results
  rfl

theorem h1_v29 (q : Fin 128) : StableHlo.after (hostOps1 (F := Ideal)) V0 (Proc.devRef .tc main_v29) (ix2 (0 : Fin 1) q)
    = V0 (Proc.devRef .tc main_arg5) (ix1 q) := by
  refine Eq.trans (congrFun (?_ : _ = shapeCast S1x128 (V0 (Proc.devRef .tc main_arg5)) shapeCasts_S128_S1x128) _)
    (shapeCast_a_1a_apply _ _ 0 q)
  dsimp only [hostOps1]
  after_results
  rfl

theorem h2_v41 (q : Fin 128) : StableHlo.after (hostOps2 (F := Ideal)) V0 (Proc.devRef .tc main_v41) (ix2 (0 : Fin 1) q)
    = V0 (Proc.devRef .tc main_arg7) (ix1 q) := by
  refine Eq.trans (congrFun (?_ : _ = shapeCast S1x128 (V0 (Proc.devRef .tc main_arg7)) shapeCasts_S128_S1x128) _)
    (shapeCast_a_1a_apply _ _ 0 q)
  dsimp only [hostOps2]
  after_results
  rfl

theorem h2_v42 (q : Fin 128) : StableHlo.after (hostOps2 (F := Ideal)) V0 (Proc.devRef .tc main_v42) (ix2 (0 : Fin 1) q)
    = V0 (Proc.devRef .tc main_arg8) (ix1 q) := by
  refine Eq.trans (congrFun (?_ : _ = shapeCast S1x128 (V0 (Proc.devRef .tc main_arg8)) shapeCasts_S128_S1x128) _)
    (shapeCast_a_1a_apply _ _ 0 q)
  dsimp only [hostOps2]
  after_results
  rfl

theorem h2_v43 (q : Fin 128) : StableHlo.after (hostOps2 (F := Ideal)) V0 (Proc.devRef .tc main_v43) (ix2 (0 : Fin 1) q)
    = V0 (Proc.devRef .tc main_arg9) (ix1 q) := by
  refine Eq.trans (congrFun (?_ : _ = shapeCast S1x128 (V0 (Proc.devRef .tc main_arg9)) shapeCasts_S128_S1x128) _)
    (shapeCast_a_1a_apply _ _ 0 q)
  dsimp only [hostOps2]
  after_results
  rfl

end Cert.KernelIdeal.Hand

end
-- ==== Proof.KerRun.lean ====
/-
  The kernel program's run, with the result named.

  The three TensorCore regions and the host stretches between them are run as segments over the thread state "every
  unscoped buffer at the boundary's contents". At the last boundary the contents are the fold `Gen.W8`; the final state is
  read against it at the result buffer and at the ten argument buffers. The arguments walk back through the fold to the launch
  memory; the result buffer is left at `Gen.W8 … main_v44`, which the value modules evaluate.
-/
import proofs.«167445_j32667521253433_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement is matched against the launch theorem's conclusion up to the unfolding of plain definitions
set_option backward.isDefEq.respectTransparency.types false in
/-- From any memory with zero counters, every weakly fair execution of @main on the TensorCores terminates, nothing
    faulting; every final state has the result buffer at the last boundary's contents and the argument arrays as launched. -/
theorem run_named : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Hand

end
-- ==== Proof.KerBody0.lean ====
/-
  The first kernel's body as a function of its loaded blocks, over the extended reals.

  The body loads a block of 5000 rows of x, the whole of W and the block's 5000 entries of the column d, and stores,
  entry by entry, (x · W) scaled row by row by d (Gcn.scaledProd).  A rounding to bf16 is the identity on the extended
  reals, and a product accumulated into zero is the exact sum over the contracted axis.
-/
import proofs.«167445_j32667521253433_2_alg».proof.Proof.Gen.KernelIdeal.Skeleton
import proofs.«167445_j32667521253433_2_alg».proof.Proof.LibGcnSpec
import proofs.«167445_j32667521253433_2_alg».proof.Proof.LibPlainDot
import proofs.«167445_j32667521253433_2_alg».proof.Proof.LibKeepDims
import proofs.«167445_j32667521253433_2_alg».proof.Proof.LibDenseLayer
import proofs.«167445_j32667521253433_2_alg».proof.Proof.LibNormLayer

noncomputable section

namespace Cert.KernelIdeal.Hand

open Idealize.ShloMosaic Idealize.ShloMosaic.ValueIdx
open Cert.KernelIdeal Cert.KernelIdeal.Gen

/-- The kernels' product contracts the left operand's lanes against the right operand's rows, with no batch axis. -/
theorem dot_plain : PlainDot.IsPlain dot_S5000x128_S128x128_S5000x128_1_0_0_1_n_n := ⟨rfl, rfl, rfl, rfl, rfl, rfl⟩

/-- THE FIRST KERNEL'S BLOCK: (x · W) at (p, q), times the column entry d (p, 0). -/
theorem k0_eq (x0 : Vec Ideal S5000x128 .f32) (x1 : Vec Ideal S128x128 .f32) (x2 : Vec Ideal S5000x1 .f32) :
    k0_pay1 x0 x1 x2 = Gcn.scaledProd x0 x1 x2 := by
  funext j
  obtain ⟨p, q, rfl⟩ : ∃ (p : Fin 5000) (q : Fin 128), j = ix2 p q := ⟨j 0, j 1, eq_ix2 j⟩
  unfold k0_pay1
  rw [shapeCast_self]
  show FloatOps.matmul (F := Ideal) dot_S5000x128_S128x128_S5000x128_1_0_0_1_n_n none (truncf (F := Ideal) .bf16 x0 bitsLt_bf16_f32)
      (truncf (F := Ideal) .bf16 x1 bitsLt_bf16_f32) (constant (F := Ideal) S5000x128 .f32 0x00000000#32) (ix2 p q)
    * broadcastTo S5000x128 x2 broadcasts_S5000x1_S5000x128 (ix2 p q) = _
  rw [PlainDot.matmul_zero_apply dot_plain, KeepDims.broadcastTo_a1_ab_apply]
  rfl

end Cert.KernelIdeal.Hand

end
-- ==== Proof.KerRegion0.lean ====
/-
  The first kernel's result array, from blocks to the whole array.

  The grid has 10 points; point t works on rows 5000 t … 5000 t + 4999.  Block t of x and of the column d are those rows
  of the arrays, the one block of W is W, and the result's block t is written back to those rows of the result array.
  Entry (r, q) of (x · W) scaled by d depends on row r of x and entry r of d only, so the block's result at (p, q) is the
  whole arrays' result at (5000 t + p, q); row r is covered by point r / 5000.  Hence the result array ends holding
  Gcn.scaledProd of the whole arrays.
-/
import proofs.«167445_j32667521253433_2_alg».proof.Proof.Gen.KernelIdeal.Frame
import proofs.«167445_j32667521253433_2_alg».proof.Proof.KerBody0
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero_off0 : (![0, 0] : Fin 2 → Nat) = fun _ => 0 := funext fun a => by fin_cases a <;> rfl

/-- The printed index maps over the grid: the row-blocked windows are at block (t, 0), the weights at block (0, 0). -/
theorem idx0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of x at (p, k) is x at row 5000 t + p. -/
theorem blk0_0 (c : Dev nD) (t : Fin cfg0.N) (p : Fin 5000) (k : Fin 128) (r : Fin 50000) (hr : r.val = 5000 * t.val + p.val) :
    (iblk0 V c 0 t : S5000x128.Idx → EReal) (ix2 p k) = (V c main_arg0 : S50000x128.Idx → EReal) (ix2 r k) := by
  obtain ⟨e0, e1, -⟩ := idx0 t
  unfold iblk0
  rw [View.read_apply]
  show (V c main_arg0 : S50000x128.Idx → EReal) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The one block of W is W. -/
theorem blk0_1 (c : Dev nD) (t : Fin cfg0.N) (k : Fin 128) (q : Fin 128) :
    (iblk0 V c 1 t : S128x128.Idx → EReal) (ix2 k q) = (V c main_arg2 : S128x128.Idx → EReal) (ix2 k q) := by
  obtain ⟨-, -, e0, e1, -⟩ := idx0 t
  unfold iblk0
  rw [View.read_apply]
  show (V c main_arg2 : S128x128.Idx → EReal) _ = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Block t of the column d at (p, 0) is d at row 5000 t + p. -/
theorem blk0_2 (c : Dev nD) (t : Fin cfg0.N) (p : Fin 5000) (r : Fin 50000) (hr : r.val = 5000 * t.val + p.val) :
    (iblk0 V c 2 t : S5000x1.Idx → EReal) (ix2 p (0 : Fin 1)) = (V c main_v15 : S50000x1.Idx → EReal) (ix2 r (0 : Fin 1)) := by
  obtain ⟨-, -, -, -, e0, e1, -⟩ := idx0 t
  unfold iblk0
  rw [View.read_apply]
  show (V c main_v15 : S50000x1.Idx → EReal) _ = _
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The first kernel's result on the whole arrays. -/
abbrev G0 (c : Dev nD) : S50000x128.Idx → EReal :=
  Gcn.scaledProd (V c main_arg0 : S50000x128.Idx → EReal) (V c main_arg2 : S128x128.Idx → EReal) (V c main_v15 : S50000x1.Idx → EReal)

/-- Row-locality: the block's result at (p, q) is the whole result at (5000 t + p, q). -/
theorem local0 (c : Dev nD) (t : Fin cfg0.N) (p : Fin 5000) (q : Fin 128) (r : Fin 50000) (hr : r.val = 5000 * t.val + p.val) :
    Gcn.scaledProd (iblk0 V c 0 t : S5000x128.Idx → EReal) (iblk0 V c 1 t : S128x128.Idx → EReal) (iblk0 V c 2 t : S5000x1.Idx → EReal) (ix2 p q)
      = G0 V c (ix2 r q) :=
  Gcn.scaledProd_congr (fun k => blk0_0 V c t p k r hr) (fun k q => blk0_1 V c t k q) (blk0_2 V c t p r hr) q

/-- WHAT POINT t WRITES BACK is block t of the whole result. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_off0]
  simp only [View.ld_unit_zero (S := S5000x128) zero_off0, View.ld_unit_zero (S := S128x128) zero_off0, View.ld_unit_zero (S := S5000x1) zero_off0]
  rw [k0_eq]
  funext j
  rw [View.read_apply]
  have hj0 : (j 0).val < 5000 := (j 0).isLt
  have hj1 : (j 1).val < 128 := (j 1).isLt
  obtain ⟨-, -, -, -, -, -, e0, e1⟩ := idx0 t
  have ht : t.val < 10 := by have h : t.val < grid0.N := t.isLt; have hN : grid0.N = 10 := N_0; omega
  refine (local0 V c t ⟨(j 0).val, hj0⟩ ⟨(j 1).val, hj1⟩ ⟨5000 * t.val + (j 0).val, by omega⟩ rfl).trans ?_
  refine congrArg (G0 V c) (funext fun a => Fin.ext ?_)
  match a with
  | ⟨0, _⟩ => show 5000 * t.val + (j 0).val = win0_3.index t (0 : Fin 2) * 5000 + 1 * (j 0).val; rw [e0]; omega
  | ⟨1, _⟩ => show (j 1).val = win0_3.index t (1 : Fin 2) * 128 + 1 * (j 1).val; rw [e1]; omega

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r of the result is written back by point r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  refine ⟨t, flush0_3 t, ?_⟩
  rw [mem_blk0]
  obtain ⟨-, -, -, -, -, -, e0, e1⟩ := idx0 t
  intro a
  match a with
  | ⟨0, _⟩ => show win0_3.index t (0 : Fin 2) * 5000 ≤ (i 0).val ∧ (i 0).val < win0_3.index t (0 : Fin 2) * 5000 + 5000; rw [e0]; omega
  | ⟨1, _⟩ => show win0_3.index t (1 : Fin 2) * 128 ≤ (i 1).val ∧ (i 1).val < win0_3.index t (1 : Fin 2) * 128 + 128; rw [e1]; omega

/-- THE FIRST KERNEL'S RESULT ARRAY after the run: (x · W) scaled row by row by d, on the whole arrays. -/
theorem region0_eq (c : Dev nD) :
    (dat0 V c).arrAt 3 cfg0.N
      = Gcn.scaledProd (V c main_arg0 : S50000x128.Idx → EReal) (V c main_arg2 : S128x128.Idx → EReal)
          (V c main_v15 : S50000x1.Idx → EReal) :=
  (dat0 V c).arrAt_eq_of_cover 3 (G0 V c) (fun t _ => flushed0 V c t) (cover0)

end Cert.KernelIdeal.Hand

end
-- ==== Proof.KerBody2.lean ====
/-
  The last kernel's body as a function of its loaded blocks, over the extended reals.

  The body loads a block of 5000 rows of the aggregate conv, the block's 5000 entries of the column d, and the bias, gain
  and offset as [1, 128] blocks.  It forms y = conv · d + b row by row, normalises each row of y over its 128 lanes
  (mean and variance by lane sums kept as columns, divisor 128, offset eps), applies gain and offset, and ELU.  Entry by
  entry that is Gcn.actK.  The middle kernel computes the same value before its product; both are read here.
-/
import proofs.«167445_j32667521253433_2_alg».proof.Proof.Gen.KernelIdeal.Skeleton
import proofs.«167445_j32667521253433_2_alg».proof.Proof.LibGcnSpec
import proofs.«167445_j32667521253433_2_alg».proof.Proof.LibKeepDims
import proofs.«167445_j32667521253433_2_alg».proof.Proof.LibDenseLayer
import proofs.«167445_j32667521253433_2_alg».proof.Proof.LibNormLayer

noncomputable section

namespace Cert.KernelIdeal.Hand

open Idealize.ShloMosaic Idealize.ShloMosaic.ValueIdx
open Cert.KernelIdeal Cert.KernelIdeal.Gen

/-- The input to the normalisation: conv scaled row by row by the column d, plus the bias row. -/
theorem pre_eq (v0 : FVec Ideal S5000x128 .f32) (v2 : FVec Ideal S5000x1 .f32) (v6 : FVec Ideal S1x128 .f32) :
    addf (F := Ideal) (mulf (F := Ideal) v0 (broadcastTo S5000x128 v2 broadcasts_S5000x1_S5000x128))
      (broadcastTo S5000x128 v6 broadcasts_S1x128_S5000x128)
    = Gcn.pre v0 v2 (fun q => v6 (ix2 (0 : Fin 1) q)) := by
  funext j
  obtain ⟨p, q, rfl⟩ : ∃ (p : Fin 5000) (q : Fin 128), j = ix2 p q := ⟨j 0, j 1, eq_ix2 j⟩
  show v0 (ix2 p q) * broadcastTo S5000x128 v2 broadcasts_S5000x1_S5000x128 (ix2 p q)
      + broadcastTo S5000x128 v6 broadcasts_S1x128_S5000x128 (ix2 p q) = _
  rw [KeepDims.broadcastTo_a1_ab_apply, NormLayer.row_read v6 broadcasts_S1x128_S5000x128 p q]
  rfl

/-- ELU as the kernels spell it: select (y > splat 0) y (exp y − splat 1). -/
theorem elu_eq (y : FVec Ideal S5000x128 .f32) :
    select (cmpf (F := Ideal) .ogt y (broadcast S5000x128 (Scalar.ofBits (F := Ideal) .f32 0x00000000#32))) y
      (subf (F := Ideal) (exp (F := Ideal) y) (broadcast S5000x128 (Scalar.ofBits (F := Ideal) .f32 0x3F800000#32)))
    = Gcn.elu y := by
  funext j
  show Scalar.select (Ideal.cmp .ogt (y j) (Ideal.ofBits .f32 0x00000000#32)) (y j) (Ideal.exp (y j) - Ideal.ofBits .f32 0x3F800000#32)
    = Scalar.select (Ideal.cmp .ogt (y j) 0) (y j) (Ideal.exp (y j) - 1)
  rw [Ideal.ofBits_zero_f32, DenseLayer.ofBits_one]

/-- THE LAST KERNEL'S BLOCK: ELU of the lane normalisation of conv · d + b. -/
theorem k2_eq (v0 : FVec Ideal S5000x128 .f32) (v2 : FVec Ideal S5000x1 .f32) (v6 v26 v30 : FVec Ideal S1x128 .f32) :
    k2_pay1 (F := Ideal) v0 v2 v6 v26 v30
      = Gcn.actK v0 v2 (fun q => v6 (ix2 (0 : Fin 1) q)) (fun q => v26 (ix2 (0 : Fin 1) q)) (fun q => v30 (ix2 (0 : Fin 1) q)) := by
  unfold k2_pay1
  simp only [shapeCast_self]
  rw [pre_eq]
  rw [NormLayer.kernel_lnorm (Scalar.ofBits (F := Ideal) .f32 0x43000000#32) (Scalar.ofBits (F := Ideal) .f32 0x3727C5AC#32)
    (Gcn.pre v0 v2 (fun q => v6 (ix2 (0 : Fin 1) q))) v26 v30]
  rw [elu_eq]
  rfl

end Cert.KernelIdeal.Hand

end
-- ==== Proof.KerBody1.lean ====
/-
  The middle kernel's body as a function of its loaded blocks, over the extended reals.

  The body loads a block of 5000 rows of the aggregate conv, the block's 5000 entries of the column d, the bias, gain and
  offset as [1, 128] blocks, and the whole of W.  Its first part computes what the last kernel computes, ELU of the lane
  normalisation of conv · d + b (a rounding to bf16 is the identity on the extended reals); its second part multiplies
  that by W and scales the product row by row by d.  Entry by entry that is Gcn.midK.
-/
import proofs.«167445_j32667521253433_2_alg».proof.Proof.Gen.KernelIdeal.Skeleton
import proofs.«167445_j32667521253433_2_alg».proof.Proof.LibGcnSpec
import proofs.«167445_j32667521253433_2_alg».proof.Proof.LibPlainDot
import proofs.«167445_j32667521253433_2_alg».proof.Proof.LibKeepDims
import proofs.«167445_j32667521253433_2_alg».proof.Proof.LibDenseLayer
import proofs.«167445_j32667521253433_2_alg».proof.Proof.LibNormLayer
import proofs.«167445_j32667521253433_2_alg».proof.Proof.KerBody0
import proofs.«167445_j32667521253433_2_alg».proof.Proof.KerBody2

noncomputable section

namespace Cert.KernelIdeal.Hand

open Idealize.ShloMosaic Idealize.ShloMosaic.ValueIdx
open Cert.KernelIdeal Cert.KernelIdeal.Gen

/-- The middle kernel's first part: ELU of the lane normalisation of conv · d + b. -/
theorem k1_act_eq (v0 : FVec Ideal S5000x128 .f32) (v2 : FVec Ideal S5000x1 .f32) (v6 v26 v30 : FVec Ideal S1x128 .f32) :
    k1_pay2 (F := Ideal) v0 v2 v6 v26 v30
      = Gcn.actK v0 v2 (fun q => v6 (ix2 (0 : Fin 1) q)) (fun q => v26 (ix2 (0 : Fin 1) q)) (fun q => v30 (ix2 (0 : Fin 1) q)) := by
  unfold k1_pay2
  simp only [shapeCast_self]
  rw [pre_eq]
  rw [NormLayer.kernel_lnorm (Scalar.ofBits (F := Ideal) .f32 0x43000000#32) (Scalar.ofBits (F := Ideal) .f32 0x3727C5AC#32)
    (Gcn.pre v0 v2 (fun q => v6 (ix2 (0 : Fin 1) q))) v26 v30]
  rw [elu_eq]
  rfl

/-- The middle kernel's second part: (a · W) at (p, q), times the column entry d (p, 0). -/
theorem k1_prod_eq (a : FVec Ideal S5000x128 .bf16) (w : FVec Ideal S128x128 .f32) (d : FVec Ideal S5000x1 .f32) :
    k1_pay1 (F := Ideal) a w d = Gcn.scaledProd a w d := by
  funext j
  obtain ⟨p, q, rfl⟩ : ∃ (p : Fin 5000) (q : Fin 128), j = ix2 p q := ⟨j 0, j 1, eq_ix2 j⟩
  unfold k1_pay1
  rw [shapeCast_self]
  show FloatOps.matmul (F := Ideal) dot_S5000x128_S128x128_S5000x128_1_0_0_1_n_n none a
      (truncf (F := Ideal) .bf16 w bitsLt_bf16_f32) (constant (F := Ideal) S5000x128 .f32 0x00000000#32) (ix2 p q)
    * broadcastTo S5000x128 d broadcasts_S5000x1_S5000x128 (ix2 p q) = _
  rw [PlainDot.matmul_zero_apply dot_plain, KeepDims.broadcastTo_a1_ab_apply]
  rfl

/-- THE MIDDLE KERNEL'S BLOCK: the last kernel's value, times W, scaled row by row by d. -/
theorem k1_eq (v0 : FVec Ideal S5000x128 .f32) (v2 : FVec Ideal S5000x1 .f32) (v6 v26 v30 : FVec Ideal S1x128 .f32)
    (v41 : FVec Ideal S128x128 .f32) :
    k1_pay1 (F := Ideal) (k1_pay2 (F := Ideal) v0 v2 v6 v26 v30) v41 v2
      = Gcn.midK v0 v2 (fun q => v6 (ix2 (0 : Fin 1) q)) (fun q => v26 (ix2 (0 : Fin 1) q)) (fun q => v30 (ix2 (0 : Fin 1) q)) v41 := by
  rw [k1_act_eq, k1_prod_eq]
  rfl

end Cert.KernelIdeal.Hand

end
-- ==== Proof.KerRegion1.lean ====
/-
  The middle kernel's result array, from blocks to the whole array.

  The grid has 10 points; point t works on rows 5000 t … 5000 t + 4999.  Block t of the aggregate conv and of the column d
  are those rows of the arrays, the one block of each of the bias, gain and offset rows is the row, the one block of W is W,
  and the result's block t is written back to those rows of the result array.  Entry (r, q) of the normalised and activated
  rows times W, scaled by d, depends on row r of conv and entry r of d only, so the block's result at (p, q) is the whole
  arrays' result at (5000 t + p, q); row r is covered by point r / 5000.  Hence the result array ends holding Gcn.midK of
  the whole arrays.
-/
import proofs.«167445_j32667521253433_2_alg».proof.Proof.Gen.KernelIdeal.Frame
import proofs.«167445_j32667521253433_2_alg».proof.Proof.KerBody1
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps over the grid: the row-blocked windows are at block (t, 0), the rows and the weights at block
    (0, 0). -/
theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block t of conv at (p, k) is conv at row 5000 t + p. -/
theorem blk1_0 (c : Dev nD) (t : Fin cfg1.N) (p : Fin 5000) (k : Fin 128) (r : Fin 50000) (hr : r.val = 5000 * t.val + p.val) :
    (iblk1 V c 0 t : S5000x128.Idx → EReal) (ix2 p k) = (V c main_v26 : S50000x128.Idx → EReal) (ix2 r k) := by
  obtain ⟨e0, e1, -⟩ := idx1 t
  unfold iblk1
  rw [View.read_apply]
  show (V c main_v26 : S50000x128.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Block t of the column d at (p, 0) is d at row 5000 t + p. -/
theorem blk1_1 (c : Dev nD) (t : Fin cfg1.N) (p : Fin 5000) (r : Fin 50000) (hr : r.val = 5000 * t.val + p.val) :
    (iblk1 V c 1 t : S5000x1.Idx → EReal) (ix2 p (0 : Fin 1)) = (V c main_v15 : S50000x1.Idx → EReal) (ix2 r (0 : Fin 1)) := by
  obtain ⟨-, -, e0, e1, -⟩ := idx1 t
  unfold iblk1
  rw [View.read_apply]
  show (V c main_v15 : S50000x1.Idx → EReal) _ = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The one block of the bias row is the row. -/
theorem blk1_2 (c : Dev nD) (t : Fin cfg1.N) (q : Fin 128) :
    (iblk1 V c 2 t : S1x128.Idx → EReal) (ix2 (0 : Fin 1) q) = (V c main_v27 : S1x128.Idx → EReal) (ix2 (0 : Fin 1) q) := by
  obtain ⟨-, -, -, -, e0, e1, -⟩ := idx1 t
  unfold iblk1
  rw [View.read_apply]
  show (V c main_v27 : S1x128.Idx → EReal) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- The one block of the gain row is the row. -/
theorem blk1_3 (c : Dev nD) (t : Fin cfg1.N) (q : Fin 128) :
    (iblk1 V c 3 t : S1x128.Idx → EReal) (ix2 (0 : Fin 1) q) = (V c main_v28 : S1x128.Idx → EReal) (ix2 (0 : Fin 1) q) := by
  obtain ⟨-, -, -, -, -, -, e0, e1, -⟩ := idx1 t
  unfold iblk1
  rw [View.read_apply]
  show (V c main_v28 : S1x128.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The one block of the offset row is the row. -/
theorem blk1_4 (c : Dev nD) (t : Fin cfg1.N) (q : Fin 128) :
    (iblk1 V c 4 t : S1x128.Idx → EReal) (ix2 (0 : Fin 1) q) = (V c main_v29 : S1x128.Idx → EReal) (ix2 (0 : Fin 1) q) := by
  obtain ⟨-, -, -, -, -, -, -, -, e0, e1, -⟩ := idx1 t
  unfold iblk1
  rw [View.read_apply]
  show (V c main_v29 : S1x128.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- The one block of W is W. -/
theorem blk1_5 (c : Dev nD) (t : Fin cfg1.N) (k : Fin 128) (q : Fin 128) :
    (iblk1 V c 5 t : S128x128.Idx → EReal) (ix2 k q) = (V c main_arg6 : S128x128.Idx → EReal) (ix2 k q) := by
  obtain ⟨-, -, -, -, -, -, -, -, -, -, e0, e1, -⟩ := idx1 t
  unfold iblk1
  rw [View.read_apply]
  show (V c main_arg6 : S128x128.Idx → EReal) _ = _
  refine congrArg _ (funext fun a => Fin.ext ?_)
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The middle kernel's result on the whole arrays. -/
abbrev G1 (c : Dev nD) : S50000x128.Idx → EReal :=
  Gcn.midK (V c main_v26 : S50000x128.Idx → EReal) (V c main_v15 : S50000x1.Idx → EReal)
    (fun q => (V c main_v27 : S1x128.Idx → EReal) (ix2 (0 : Fin 1) q))
    (fun q => (V c main_v28 : S1x128.Idx → EReal) (ix2 (0 : Fin 1) q))
    (fun q => (V c main_v29 : S1x128.Idx → EReal) (ix2 (0 : Fin 1) q))
    (V c main_arg6 : S128x128.Idx → EReal)

/-- Row-locality: the block's result at (p, q) is the whole result at (5000 t + p, q). -/
theorem local1 (c : Dev nD) (t : Fin cfg1.N) (p : Fin 5000) (q : Fin 128) (r : Fin 50000) (hr : r.val = 5000 * t.val + p.val) :
    Gcn.midK (iblk1 V c 0 t : S5000x128.Idx → EReal) (iblk1 V c 1 t : S5000x1.Idx → EReal)
        (fun q => (iblk1 V c 2 t : S1x128.Idx → EReal) (ix2 (0 : Fin 1) q))
        (fun q => (iblk1 V c 3 t : S1x128.Idx → EReal) (ix2 (0 : Fin 1) q))
        (fun q => (iblk1 V c 4 t : S1x128.Idx → EReal) (ix2 (0 : Fin 1) q))
        (iblk1 V c 5 t : S128x128.Idx → EReal) (ix2 p q)
      = G1 V c (ix2 r q) :=
  Gcn.scaledProd_congr
    (fun k => Gcn.normAct_congr
      (fun k' => by rw [Gcn.pre_ix2, Gcn.pre_ix2, blk1_0 V c t p k' r hr, blk1_1 V c t p r hr, blk1_2 V c t k'])
      (blk1_3 V c t k) (blk1_4 V c t k))
    (fun k q => blk1_5 V c t k q) (blk1_1 V c t p r hr) q

/-- WHAT POINT t WRITES BACK is block t of the whole result. -/
theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero zero_off1]
  simp only [View.ld_unit_zero (S := S5000x128) zero_off1, View.ld_unit_zero (S := S5000x1) zero_off1,
    View.ld_unit_zero (S := S1x128) zero_off1, View.ld_unit_zero (S := S128x128) zero_off1]
  rw [k1_eq]
  funext j
  rw [View.read_apply]
  have hj0 : (j 0).val < 5000 := (j 0).isLt
  have hj1 : (j 1).val < 128 := (j 1).isLt
  obtain ⟨-, -, -, -, -, -, -, -, -, -, -, -, e0, e1⟩ := idx1 t
  have ht : t.val < 10 := by have h : t.val < grid1.N := t.isLt; have hN : grid1.N = 10 := N_1; omega
  have hx : win1_6.xinj (grid1.coords t) j = ix2 (⟨(j 0).val, hj0⟩ : Fin 5000) (⟨(j 1).val, hj1⟩ : Fin 128) :=
    funext fun a => Fin.ext (by match a with | ⟨0, _⟩ => rfl | ⟨1, _⟩ => rfl)
  show Gcn.midK _ _ _ _ _ _ (win1_6.xinj (grid1.coords t) j) = _
  rw [hx]
  refine (local1 V c t ⟨(j 0).val, hj0⟩ ⟨(j 1).val, hj1⟩ ⟨5000 * t.val + (j 0).val, by omega⟩ rfl).trans ?_
  refine congrArg (G1 V c) (funext fun a => Fin.ext ?_)
  match a with
  | ⟨0, _⟩ => show 5000 * t.val + (j 0).val = win1_6.index t (0 : Fin 2) * 5000 + 1 * (j 0).val; rw [e0]; omega
  | ⟨1, _⟩ => show (j 1).val = win1_6.index t (1 : Fin 2) * 128 + 1 * (j 1).val; rw [e1]; omega

/-- An index of the result array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v30).slice (win1_6.rect t)).set ↔ _
  rw [View.set_slice_whole, Rect.mem_set_unit]
  exact Iff.rfl

/-- Row r of the result is written back by point r / 5000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  refine ⟨t, flush1_6 t, ?_⟩
  rw [mem_blk1]
  obtain ⟨-, -, -, -, -, -, -, -, -, -, -, -, e0, e1⟩ := idx1 t
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 128 ≤ (i 1).val ∧ (i 1).val < win1_6.index t (1 : Fin 2) * 128 + 128; rw [e1]; omega

/-- THE MIDDLE KERNEL'S RESULT ARRAY after the run: the normalised and activated rows of conv · d + b, times W, scaled row
    by row by d, on the whole arrays. -/
theorem region1_eq (c : Dev nD) :
    (dat1 V c).arrAt 6 cfg1.N
      = Gcn.midK (V c main_v26 : S50000x128.Idx → EReal) (V c main_v15 : S50000x1.Idx → EReal)
          (fun q => (V c main_v27 : S1x128.Idx → EReal) (ix2 (0 : Fin 1) q))
          (fun q => (V c main_v28 : S1x128.Idx → EReal) (ix2 (0 : Fin 1) q))
          (fun q => (V c main_v29 : S1x128.Idx → EReal) (ix2 (0 : Fin 1) q))
          (V c main_arg6 : S128x128.Idx → EReal) :=
  (dat1 V c).arrAt_eq_of_cover 6 (G1 V c) (fun t _ => flushed1 V c t) (cover1)

end Cert.KernelIdeal.Hand

end
-- ==== Proof.KerRegion2.lean ====
/-
  The last kernel's result array, from blocks to the whole array.

  The grid has 10 points; point t works on rows 5000 t … 5000 t + 4999.  Block t of the aggregate conv and of the column
  d are those rows of the arrays, the one block of each of the bias, gain and offset rows is the row, and the result's
  block t is written back to those rows of the result array.  Entry (r, q) of ELU of the lane normalisation of
  conv · d + b depends on row r of conv and entry r of d only, so the block's result at (p, q) is the whole arrays'
  result at (5000 t + p, q); row r is covered by point r / 5000.  Hence the result array ends holding Gcn.actK of the
  whole arrays.
-/
import proofs.«167445_j32667521253433_2_alg».proof.Proof.Gen.KernelIdeal.Frame
import proofs.«167445_j32667521253433_2_alg».proof.Proof.KerBody2
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: the row-blocked windows are at block (t, 0), the rows at block (0, 0). -/
theorem idx2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of conv at (p, k) is conv at row 5000 t + p. -/
theorem blk2_0 (c : Dev nD) (t : Fin cfg2.N) (p : Fin 5000) (k : Fin 128) (r : Fin 50000) (hr : r.val = 5000 * t.val + p.val) :
    (iblk2 V c 0 t : S5000x128.Idx → EReal) (ix2 p k) = (V c main_v40 : S50000x128.Idx → EReal) (ix2 r k) := by
  obtain ⟨e0, e1, -⟩ := idx2 t
  unfold iblk2
  rw [View.read_apply]
  show (V c main_v40 : S50000x128.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Block t of the column d at (p, 0) is d at row 5000 t + p. -/
theorem blk2_1 (c : Dev nD) (t : Fin cfg2.N) (p : Fin 5000) (r : Fin 50000) (hr : r.val = 5000 * t.val + p.val) :
    (iblk2 V c 1 t : S5000x1.Idx → EReal) (ix2 p (0 : Fin 1)) = (V c main_v15 : S50000x1.Idx → EReal) (ix2 r (0 : Fin 1)) := by
  obtain ⟨-, -, e0, e1, -⟩ := idx2 t
  unfold iblk2
  rw [View.read_apply]
  show (V c main_v15 : S50000x1.Idx → EReal) _ = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 1 + 1 * 0 = 0; rw [e1]

/-- The one block of the bias row is the row. -/
theorem blk2_2 (c : Dev nD) (t : Fin cfg2.N) (q : Fin 128) :
    (iblk2 V c 2 t : S1x128.Idx → EReal) (ix2 (0 : Fin 1) q) = (V c main_v41 : S1x128.Idx → EReal) (ix2 (0 : Fin 1) q) := by
  obtain ⟨-, -, -, -, e0, e1, -⟩ := idx2 t
  unfold iblk2
  rw [View.read_apply]
  show (V c main_v41 : S1x128.Idx → EReal) _ = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- The one block of the gain row is the row. -/
theorem blk2_3 (c : Dev nD) (t : Fin cfg2.N) (q : Fin 128) :
    (iblk2 V c 3 t : S1x128.Idx → EReal) (ix2 (0 : Fin 1) q) = (V c main_v42 : S1x128.Idx → EReal) (ix2 (0 : Fin 1) q) := by
  obtain ⟨-, -, -, -, -, -, e0, e1, -⟩ := idx2 t
  unfold iblk2
  rw [View.read_apply]
  show (V c main_v42 : S1x128.Idx → EReal) _ = _
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- The one block of the offset row is the row. -/
theorem blk2_4 (c : Dev nD) (t : Fin cfg2.N) (q : Fin 128) :
    (iblk2 V c 4 t : S1x128.Idx → EReal) (ix2 (0 : Fin 1) q) = (V c main_v43 : S1x128.Idx → EReal) (ix2 (0 : Fin 1) q) := by
  obtain ⟨-, -, -, -, -, -, -, -, e0, e1, -⟩ := idx2 t
  unfold iblk2
  rw [View.read_apply]
  show (V c main_v43 : S1x128.Idx → EReal) _ = _
  refine congrArg _ (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-- The last kernel's result on the whole arrays. -/
abbrev G2 (c : Dev nD) : S50000x128.Idx → EReal :=
  Gcn.actK (V c main_v40 : S50000x128.Idx → EReal) (V c main_v15 : S50000x1.Idx → EReal)
    (fun q => (V c main_v41 : S1x128.Idx → EReal) (ix2 (0 : Fin 1) q))
    (fun q => (V c main_v42 : S1x128.Idx → EReal) (ix2 (0 : Fin 1) q))
    (fun q => (V c main_v43 : S1x128.Idx → EReal) (ix2 (0 : Fin 1) q))

/-- Row-locality: the block's result at (p, q) is the whole result at (5000 t + p, q). -/
theorem local2 (c : Dev nD) (t : Fin cfg2.N) (p : Fin 5000) (q : Fin 128) (r : Fin 50000) (hr : r.val = 5000 * t.val + p.val) :
    Gcn.actK (iblk2 V c 0 t : S5000x128.Idx → EReal) (iblk2 V c 1 t : S5000x1.Idx → EReal)
        (fun q => (iblk2 V c 2 t : S1x128.Idx → EReal) (ix2 (0 : Fin 1) q))
        (fun q => (iblk2 V c 3 t : S1x128.Idx → EReal) (ix2 (0 : Fin 1) q))
        (fun q => (iblk2 V c 4 t : S1x128.Idx → EReal) (ix2 (0 : Fin 1) q)) (ix2 p q)
      = G2 V c (ix2 r q) :=
  Gcn.normAct_congr (fun k => by rw [Gcn.pre_ix2, Gcn.pre_ix2, blk2_0 V c t p k r hr, blk2_1 V c t p r hr, blk2_2 V c t k])
    (blk2_3 V c t q) (blk2_4 V c t q)

/-- WHAT POINT t WRITES BACK is block t of the whole result. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zero_off2]
  simp only [View.ld_unit_zero (S := S5000x128) zero_off2, View.ld_unit_zero (S := S5000x1) zero_off2, View.ld_unit_zero (S := S1x128) zero_off2]
  rw [k2_eq]
  funext j
  rw [View.read_apply]
  have hj0 : (j 0).val < 5000 := (j 0).isLt
  have hj1 : (j 1).val < 128 := (j 1).isLt
  obtain ⟨-, -, -, -, -, -, -, -, -, -, e0, e1⟩ := idx2 t
  have ht : t.val < 10 := by have h : t.val < grid2.N := t.isLt; have hN : grid2.N = 10 := N_2; omega
  have hx : win2_5.xinj (grid2.coords t) j = ix2 (⟨(j 0).val, hj0⟩ : Fin 5000) (⟨(j 1).val, hj1⟩ : Fin 128) :=
    funext fun a => Fin.ext (by match a with | ⟨0, _⟩ => rfl | ⟨1, _⟩ => rfl)
  show Gcn.actK _ _ _ _ _ (win2_5.xinj (grid2.coords t) j) = _
  rw [hx]
  refine (local2 V c t ⟨(j 0).val, hj0⟩ ⟨(j 1).val, hj1⟩ ⟨5000 * t.val + (j 0).val, by omega⟩ rfl).trans ?_
  refine congrArg (G2 V c) (funext fun a => Fin.ext ?_)
  match a with
  | ⟨0, _⟩ => show 5000 * t.val + (j 0).val = win2_5.index t (0 : Fin 2) * 5000 + 1 * (j 0).val; rw [e0]; omega
  | ⟨1, _⟩ => show (j 1).val = win2_5.index t (1 : Fin 2) * 128 + 1 * (j 1).val; rw [e1]; omega

/-- An index of the result array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v44).slice (win2_5.rect t)).set ↔ _
  rw [View.set_slice_whole, Rect.mem_set_unit]
  exact Iff.rfl

/-- Row r of the result is written back by point r / 5000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  refine ⟨t, flush2_5 t, ?_⟩
  rw [mem_blk2]
  obtain ⟨-, -, -, -, -, -, -, -, -, -, e0, e1⟩ := idx2 t
  intro a
  match a with
  | ⟨0, _⟩ => show win2_5.index t (0 : Fin 2) * 5000 ≤ (i 0).val ∧ (i 0).val < win2_5.index t (0 : Fin 2) * 5000 + 5000; rw [e0]; omega
  | ⟨1, _⟩ => show win2_5.index t (1 : Fin 2) * 128 ≤ (i 1).val ∧ (i 1).val < win2_5.index t (1 : Fin 2) * 128 + 128; rw [e1]; omega

/-- THE LAST KERNEL'S RESULT ARRAY after the run: ELU of the lane normalisation of conv · d + b, on the whole arrays. -/
theorem region2_eq (c : Dev nD) :
    (dat2 V c).arrAt 5 cfg2.N
      = Gcn.actK (V c main_v40 : S50000x128.Idx → EReal) (V c main_v15 : S50000x1.Idx → EReal)
          (fun q => (V c main_v41 : S1x128.Idx → EReal) (ix2 (0 : Fin 1) q))
          (fun q => (V c main_v42 : S1x128.Idx → EReal) (ix2 (0 : Fin 1) q))
          (fun q => (V c main_v43 : S1x128.Idx → EReal) (ix2 (0 : Fin 1) q)) :=
  (dat2 V c).arrAt_eq_of_cover 5 (G2 V c) (fun t _ => flushed2 V c t) (cover2)

end Cert.KernelIdeal.Hand

end
-- ==== Proof.KerValue.lean ====
/-
  The kernel program's result as one function of its arguments.

  The contents of the core's buffers at each boundary of the run are a fold from the launch memory: a host stretch rewrites
  the buffers it writes, a kernel its output array. Walking the fold from the launch forwards: before the first kernel the
  source and destination lists and the column dinv are in place; the first kernel leaves x · W1 with rows scaled by dinv; the
  stretch after it aggregates those rows over the edges; the second kernel normalises, applies ELU, multiplies by W2 and scales
  the rows again; the next stretch aggregates once more; the third kernel normalises and applies ELU. Every buffer a step does
  not write is carried along unchanged, which is how the lists, the column and the parameter vectors reach the later steps.
  The result buffer therefore holds Gcn.outKer of the launch contents of the ten arguments.
-/
import proofs.«167445_j32667521253433_2_alg».proof.Proof.Gen.KernelIdeal.Frame
import proofs.«167445_j32667521253433_2_alg».proof.Proof.KerHost
import proofs.«167445_j32667521253433_2_alg».proof.Proof.KerRun
import proofs.«167445_j32667521253433_2_alg».proof.Proof.KerRegion0
import proofs.«167445_j32667521253433_2_alg».proof.Proof.KerRegion1
import proofs.«167445_j32667521253433_2_alg».proof.Proof.KerRegion2

noncomputable section

namespace Cert.KernelIdeal.Hand

open Idealize.ShloMosaic Idealize.ShloMosaic.TcCoe Idealize.ShloMosaic.ValueIdx
open Idealize.SL.Sem
open Cert.KernelIdeal.Gen

variable (m : (ℓ : Loc nD τ sig) → Buf (Elt Ideal) ℓ) (ρ : Dev nD → PrngReg) (c : Dev nD)

/-! ## Before the first kernel -/

theorem W3_keep {r : Ref sig .tc} (h0 : r ∉ written0) (h1 : r ∉ written0_1) (h2 : r ∉ written0_2) :
    W3 m ρ c (Proc.devRef .tc r) = m ((c.tc : Thread nD τ).loc r) :=
  pre0_keep (W0 m ρ c) h0 h1 h2

theorem W3_v3 : W3 m ρ c (Proc.devRef .tc main_v3) = srcList (m ((c.tc : Thread nD τ).loc main_arg1)) := pre0_v3 (W0 m ρ c)
theorem W3_v6 : W3 m ρ c (Proc.devRef .tc main_v6) = dstList (m ((c.tc : Thread nD τ).loc main_arg1)) := pre0_v6 (W0 m ρ c)
theorem W3_v15 : W3 m ρ c (Proc.devRef .tc main_v15) = Gcn.dinvCol (dstList (m ((c.tc : Thread nD τ).loc main_arg1))) :=
  pre0_v15 (W0 m ρ c)

/-! ## After the first kernel -/

theorem W4_keep {r : Ref sig .tc} (hr : ∀ w, Pipeline.arrRef spec0 w ≠ r) (h0 : r ∉ written0) (h1 : r ∉ written0_1)
    (h2 : r ∉ written0_2) : W4 m ρ c (Proc.devRef .tc r) = m ((c.tc : Thread nD τ).loc r) :=
  (W4_of_ne m ρ c r hr).trans (W3_keep m ρ c h0 h1 h2)

theorem W4_v3 : W4 m ρ c (Proc.devRef .tc main_v3) = srcList (m ((c.tc : Thread nD τ).loc main_arg1)) :=
  (W4_of_ne m ρ c main_v3 (by decide)).trans (W3_v3 m ρ c)
theorem W4_v6 : W4 m ρ c (Proc.devRef .tc main_v6) = dstList (m ((c.tc : Thread nD τ).loc main_arg1)) :=
  (W4_of_ne m ρ c main_v6 (by decide)).trans (W3_v6 m ρ c)
theorem W4_v15 : W4 m ρ c (Proc.devRef .tc main_v15) = Gcn.dinvCol (dstList (m ((c.tc : Thread nD τ).loc main_arg1))) :=
  (W4_arr m ρ c 2).trans (((dat0 (V3 m ρ) c).arrAt_in 2 rfl _).trans ((A_eq0 (V3 m ρ) c 2).trans (W3_v15 m ρ c)))

theorem W4_v16 : W4 m ρ c (Proc.devRef .tc main_v16)
    = Gcn.scaledProd (m ((c.tc : Thread nD τ).loc main_arg0)) (m ((c.tc : Thread nD τ).loc main_arg2))
        (Gcn.dinvCol (dstList (m ((c.tc : Thread nD τ).loc main_arg1)))) := by
  refine (W4_arr m ρ c 3).trans ((region0_eq (V3 m ρ) c).trans ?_)
  show Gcn.scaledProd (W3 m ρ c (Proc.devRef .tc main_arg0)) (W3 m ρ c (Proc.devRef .tc main_arg2)) (W3 m ρ c (Proc.devRef .tc main_v15)) = _
  rw [W3_keep m ρ c (r := main_arg0) (by decide) (by decide) (by decide), W3_keep m ρ c (r := main_arg2) (by decide) (by decide) (by decide), W3_v15]

/-! ## Between the first and the second kernel -/

theorem W5_v26 : W5 m ρ c (Proc.devRef .tc main_v26)
    = Gcn.aggKer (N := 50000) (E := 1650000) (by decide) 50000#32 (srcList (m ((c.tc : Thread nD τ).loc main_arg1)))
        (dstList (m ((c.tc : Thread nD τ).loc main_arg1)))
        (Gcn.scaledProd (m ((c.tc : Thread nD τ).loc main_arg0)) (m ((c.tc : Thread nD τ).loc main_arg2))
          (Gcn.dinvCol (dstList (m ((c.tc : Thread nD τ).loc main_arg1))))) := by
  refine (h1_v26 (W4 m ρ c)).trans ?_
  rw [W4_v3, W4_v6, W4_v16]

theorem W5_keep {r : Ref sig .tc} (h : r ∉ written1) : W5 m ρ c (Proc.devRef .tc r) = W4 m ρ c (Proc.devRef .tc r) :=
  keep1 (W4 m ρ c) h

theorem W5_v15 : W5 m ρ c (Proc.devRef .tc main_v15) = Gcn.dinvCol (dstList (m ((c.tc : Thread nD τ).loc main_arg1))) :=
  (W5_keep m ρ c (by decide)).trans (W4_v15 m ρ c)
theorem W5_v3 : W5 m ρ c (Proc.devRef .tc main_v3) = srcList (m ((c.tc : Thread nD τ).loc main_arg1)) :=
  (W5_keep m ρ c (by decide)).trans (W4_v3 m ρ c)
theorem W5_v6 : W5 m ρ c (Proc.devRef .tc main_v6) = dstList (m ((c.tc : Thread nD τ).loc main_arg1)) :=
  (W5_keep m ρ c (by decide)).trans (W4_v6 m ρ c)
theorem W5_arg6 : W5 m ρ c (Proc.devRef .tc main_arg6) = m ((c.tc : Thread nD τ).loc main_arg6) :=
  (W5_keep m ρ c (by decide)).trans (W4_keep m ρ c (by decide) (by decide) (by decide) (by decide))
theorem W5_arg7 : W5 m ρ c (Proc.devRef .tc main_arg7) = m ((c.tc : Thread nD τ).loc main_arg7) :=
  (W5_keep m ρ c (by decide)).trans (W4_keep m ρ c (by decide) (by decide) (by decide) (by decide))
theorem W5_arg8 : W5 m ρ c (Proc.devRef .tc main_arg8) = m ((c.tc : Thread nD τ).loc main_arg8) :=
  (W5_keep m ρ c (by decide)).trans (W4_keep m ρ c (by decide) (by decide) (by decide) (by decide))
theorem W5_arg9 : W5 m ρ c (Proc.devRef .tc main_arg9) = m ((c.tc : Thread nD τ).loc main_arg9) :=
  (W5_keep m ρ c (by decide)).trans (W4_keep m ρ c (by decide) (by decide) (by decide) (by decide))

theorem W5_v27 (q : Fin 128) : W5 m ρ c (Proc.devRef .tc main_v27) (ix2 (0 : Fin 1) q) = m ((c.tc : Thread nD τ).loc main_arg3) (ix1 q) :=
  (h1_v27 (W4 m ρ c) q).trans (congrFun (W4_keep m ρ c (r := main_arg3) (by decide) (by decide) (by decide) (by decide)) (ix1 q))
theorem W5_v28 (q : Fin 128) : W5 m ρ c (Proc.devRef .tc main_v28) (ix2 (0 : Fin 1) q) = m ((c.tc : Thread nD τ).loc main_arg4) (ix1 q) :=
  (h1_v28 (W4 m ρ c) q).trans (congrFun (W4_keep m ρ c (r := main_arg4) (by decide) (by decide) (by decide) (by decide)) (ix1 q))
theorem W5_v29 (q : Fin 128) : W5 m ρ c (Proc.devRef .tc main_v29) (ix2 (0 : Fin 1) q) = m ((c.tc : Thread nD τ).loc main_arg5) (ix1 q) :=
  (h1_v29 (W4 m ρ c) q).trans (congrFun (W4_keep m ρ c (r := main_arg5) (by decide) (by decide) (by decide) (by decide)) (ix1 q))

/-! ## After the second kernel -/

/-- The first layer's output, times the second weight matrix, rows scaled by dinv. -/
abbrev mid1 : Gcn.Mat 50000 128 :=
  Gcn.midK
    (Gcn.aggKer (N := 50000) (E := 1650000) (by decide) 50000#32 (srcList (m ((c.tc : Thread nD τ).loc main_arg1)))
      (dstList (m ((c.tc : Thread nD τ).loc main_arg1)))
      (Gcn.scaledProd (m ((c.tc : Thread nD τ).loc main_arg0)) (m ((c.tc : Thread nD τ).loc main_arg2))
        (Gcn.dinvCol (dstList (m ((c.tc : Thread nD τ).loc main_arg1))))))
    (Gcn.dinvCol (dstList (m ((c.tc : Thread nD τ).loc main_arg1))))
    (fun q => m ((c.tc : Thread nD τ).loc main_arg3) (ix1 q)) (fun q => m ((c.tc : Thread nD τ).loc main_arg4) (ix1 q))
    (fun q => m ((c.tc : Thread nD τ).loc main_arg5) (ix1 q)) (m ((c.tc : Thread nD τ).loc main_arg6))

theorem W6_v30 : W6 m ρ c (Proc.devRef .tc main_v30) = mid1 m c := by
  refine (W6_arr m ρ c 6).trans ((region1_eq (V5 m ρ) c).trans ?_)
  show Gcn.midK (W5 m ρ c (Proc.devRef .tc main_v26)) (W5 m ρ c (Proc.devRef .tc main_v15))
      (fun q => W5 m ρ c (Proc.devRef .tc main_v27) (ix2 (0 : Fin 1) q)) (fun q => W5 m ρ c (Proc.devRef .tc main_v28) (ix2 (0 : Fin 1) q))
      (fun q => W5 m ρ c (Proc.devRef .tc main_v29) (ix2 (0 : Fin 1) q)) (W5 m ρ c (Proc.devRef .tc main_arg6)) = _
  rw [W5_v26, W5_v15, funext (W5_v27 m ρ c), funext (W5_v28 m ρ c), funext (W5_v29 m ρ c), W5_arg6]

theorem W6_keep {r : Ref sig .tc} (hr : ∀ w, Pipeline.arrRef spec1 w ≠ r) : W6 m ρ c (Proc.devRef .tc r) = W5 m ρ c (Proc.devRef .tc r) :=
  W6_of_ne m ρ c r hr

theorem W6_v15 : W6 m ρ c (Proc.devRef .tc main_v15) = Gcn.dinvCol (dstList (m ((c.tc : Thread nD τ).loc main_arg1))) :=
  (W6_arr m ρ c 1).trans (((dat1 (V5 m ρ) c).arrAt_in 1 rfl _).trans ((A_eq1 (V5 m ρ) c 1).trans (W5_v15 m ρ c)))
theorem W6_v3 : W6 m ρ c (Proc.devRef .tc main_v3) = srcList (m ((c.tc : Thread nD τ).loc main_arg1)) :=
  (W6_keep m ρ c (by decide)).trans (W5_v3 m ρ c)
theorem W6_v6 : W6 m ρ c (Proc.devRef .tc main_v6) = dstList (m ((c.tc : Thread nD τ).loc main_arg1)) :=
  (W6_keep m ρ c (by decide)).trans (W5_v6 m ρ c)
theorem W6_arg7 : W6 m ρ c (Proc.devRef .tc main_arg7) = m ((c.tc : Thread nD τ).loc main_arg7) :=
  (W6_keep m ρ c (by decide)).trans (W5_arg7 m ρ c)
theorem W6_arg8 : W6 m ρ c (Proc.devRef .tc main_arg8) = m ((c.tc : Thread nD τ).loc main_arg8) :=
  (W6_keep m ρ c (by decide)).trans (W5_arg8 m ρ c)
theorem W6_arg9 : W6 m ρ c (Proc.devRef .tc main_arg9) = m ((c.tc : Thread nD τ).loc main_arg9) :=
  (W6_keep m ρ c (by decide)).trans (W5_arg9 m ρ c)

/-! ## Between the second and the third kernel -/

theorem W7_v40 : W7 m ρ c (Proc.devRef .tc main_v40)
    = Gcn.aggKer (N := 50000) (E := 1650000) (by decide) 50000#32 (srcList (m ((c.tc : Thread nD τ).loc main_arg1)))
        (dstList (m ((c.tc : Thread nD τ).loc main_arg1))) (mid1 m c) := by
  refine (h2_v40 (W6 m ρ c)).trans ?_
  rw [W6_v3, W6_v6, W6_v30]

theorem W7_v15 : W7 m ρ c (Proc.devRef .tc main_v15) = Gcn.dinvCol (dstList (m ((c.tc : Thread nD τ).loc main_arg1))) :=
  (keep2 (W6 m ρ c) (by decide)).trans (W6_v15 m ρ c)
theorem W7_v41 (q : Fin 128) : W7 m ρ c (Proc.devRef .tc main_v41) (ix2 (0 : Fin 1) q) = m ((c.tc : Thread nD τ).loc main_arg7) (ix1 q) :=
  (h2_v41 (W6 m ρ c) q).trans (congrFun (W6_arg7 m ρ c) (ix1 q))
theorem W7_v42 (q : Fin 128) : W7 m ρ c (Proc.devRef .tc main_v42) (ix2 (0 : Fin 1) q) = m ((c.tc : Thread nD τ).loc main_arg8) (ix1 q) :=
  (h2_v42 (W6 m ρ c) q).trans (congrFun (W6_arg8 m ρ c) (ix1 q))
theorem W7_v43 (q : Fin 128) : W7 m ρ c (Proc.devRef .tc main_v43) (ix2 (0 : Fin 1) q) = m ((c.tc : Thread nD τ).loc main_arg9) (ix1 q) :=
  (h2_v43 (W6 m ρ c) q).trans (congrFun (W6_arg9 m ρ c) (ix1 q))

/-! ## After the third kernel: the result -/

theorem W8_v44 : W8 m ρ c (Proc.devRef .tc main_v44)
    = Gcn.outKer (N := 50000) (E := 1650000) (by decide) 50000#32 (srcList (m ((c.tc : Thread nD τ).loc main_arg1)))
        (dstList (m ((c.tc : Thread nD τ).loc main_arg1)))
        (m ((c.tc : Thread nD τ).loc main_arg0)) (m ((c.tc : Thread nD τ).loc main_arg2))
        (fun q => m ((c.tc : Thread nD τ).loc main_arg3) (ix1 q)) (fun q => m ((c.tc : Thread nD τ).loc main_arg4) (ix1 q))
        (fun q => m ((c.tc : Thread nD τ).loc main_arg5) (ix1 q)) (m ((c.tc : Thread nD τ).loc main_arg6))
        (fun q => m ((c.tc : Thread nD τ).loc main_arg7) (ix1 q)) (fun q => m ((c.tc : Thread nD τ).loc main_arg8) (ix1 q))
        (fun q => m ((c.tc : Thread nD τ).loc main_arg9) (ix1 q)) := by
  refine (W8_arr m ρ c 5).trans ((region2_eq (V7 m ρ) c).trans ?_)
  show Gcn.actK (W7 m ρ c (Proc.devRef .tc main_v40)) (W7 m ρ c (Proc.devRef .tc main_v15))
      (fun q => W7 m ρ c (Proc.devRef .tc main_v41) (ix2 (0 : Fin 1) q)) (fun q => W7 m ρ c (Proc.devRef .tc main_v42) (ix2 (0 : Fin 1) q))
      (fun q => W7 m ρ c (Proc.devRef .tc main_v43) (ix2 (0 : Fin 1) q)) = _
  rw [W7_v40, W7_v15, funext (W7_v41 m ρ c), funext (W7_v42 m ρ c), funext (W7_v43 m ρ c)]
  rfl

/-! ## The run -/

/-- The kernel program runs, leaves in its result buffer the two-layer block of its arguments, and leaves its arguments as
    launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
        = Gcn.outKer (N := 50000) (E := 1650000) (by decide) 50000#32 (srcList (m ((c.tc : Thread nD τ).loc main_arg1)))
            (dstList (m ((c.tc : Thread nD τ).loc main_arg1)))
            (m ((c.tc : Thread nD τ).loc main_arg0)) (m ((c.tc : Thread nD τ).loc main_arg2))
            (fun q => m ((c.tc : Thread nD τ).loc main_arg3) (ix1 q)) (fun q => m ((c.tc : Thread nD τ).loc main_arg4) (ix1 q))
            (fun q => m ((c.tc : Thread nD τ).loc main_arg5) (ix1 q)) (m ((c.tc : Thread nD τ).loc main_arg6))
            (fun q => m ((c.tc : Thread nD τ).loc main_arg7) (ix1 q)) (fun q => m ((c.tc : Thread nD τ).loc main_arg8) (ix1 q))
            (fun q => m ((c.tc : Thread nD τ).loc main_arg9) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (W8_v44 m ρ c), (h c).2⟩) (run_named (F := Ideal) m ρ)

end Cert.KernelIdeal.Hand

end
-- ==== Proof.RefOps.lean ====
/-
  The reference program's @main as a straight line of host operations, in twelve consecutive stages.

  The stages: the two index lists with the self-loops appended and the degree's inverse square root (opsDeg); the edge
  weights dinv[src] * dinv[dst] (opsW); then, per layer, the product with the weight matrix gathered by source,
  weighted and summed by destination (opsAgg), the bias and the row mean (opsBias), the row variance as the outlined
  function computes it (opsVar), the normalisation with gain and offset (opsNorm), and ELU (opsElu).
-/
import proofs.«167445_j32667521253433_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "𝒞[" s ", " e "]" => BufTy.Contents (Elt F) (BufTy.mk s e)

/-- %0 … %14: the source and destination lists with the self-loops appended (%3, %6), the degree by a scatter-add of ones
    (%10), and where(deg > 0, rsqrt deg, 0) (%14). -/
abbrev opsDeg : List (HloOp τ sig (Elt F)) :=
  [ nullary main_v0 (iotaInDim S50000 32 0),
    unary main_arg1 main_v1 ((extractStridedSlice S1x1600000 ![0, 0] · slices_S2x1600000_S1x1600000_0_0) : 𝒞[S2x1600000, .i32] → 𝒞[S1x1600000, .i32]),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : 𝒞[S1600000, .i32] → 𝒞[S50000, .i32] → 𝒞[S1650000, .i32]),
    unary main_arg1 main_v4 ((extractStridedSlice S1x1600000 ![1, 0] · slices_S2x1600000_S1x1600000_1_0) : 𝒞[S2x1600000, .i32] → 𝒞[S1x1600000, .i32]),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : 𝒞[S1600000, .i32] → 𝒞[S50000, .i32] → 𝒞[S1650000, .i32]),
    nullary main_cst (constant S_ .f32 0x3F800000#32),
    unary main_cst main_v7 (broadcastInDim S1650000 ![] bcast_S_S1650000 : 𝒞[S_, .f32] → 𝒞[S1650000, .f32]),
    nullary main_cst_0 (constant S_ .f32 0x00000000#32),
    unary main_cst_0 main_v8 (broadcastInDim S50000 ![] bcast_S_S50000 : 𝒞[S_, .f32] → 𝒞[S50000, .f32]),
    unary main_v6 main_v9 (broadcastInDim S1650000x1 ![0] bcast_S1650000_S1650000x1_0 : 𝒞[S1650000, .i32] → 𝒞[S1650000x1, .i32]),
    ternary main_v8 main_v9 main_v7 main_v10 ((fun x i u => Host.scatterAdd scatter_S50000_S1650000x1_S1650000_n_0_0_1 x i u) : 𝒞[S50000, .f32] → 𝒞[S1650000x1, .i32] → 𝒞[S1650000, .f32] → 𝒞[S50000, .f32]),
    nullary main_cst_1 (constant S_ .f32 0x00000000#32),
    unary main_cst_1 main_v11 (broadcastInDim S50000 ![] bcast_S_S50000 : 𝒞[S_, .f32] → 𝒞[S50000, .f32]),
    binary main_v10 main_v11 main_v12 (cmpf .ogt : 𝒞[S50000, .f32] → 𝒞[S50000, .f32] → 𝒞[S50000, .i1]),
    unary main_v10 main_v13 (Host.rsqrt : 𝒞[S50000, .f32] → 𝒞[S50000, .f32]),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select ]

/-- %c … %29: both lists normalised for a gather (a negative integer has 50000 added), dinv gathered by each, and the
    product: the weight of each position. -/
abbrev opsW : List (HloOp τ sig (Elt F)) :=
  [ nullary main_c (constantI S_ 32 0#32),
    unary main_c main_v15 (broadcastInDim S1650000 ![] bcast_S_S1650000 : 𝒞[S_, .i32] → 𝒞[S1650000, .i32]),
    binary main_v3 main_v15 main_v16 (cmpi .slt : 𝒞[S1650000, .i32] → 𝒞[S1650000, .i32] → 𝒞[S1650000, .i1]),
    nullary main_c_3 (constantI S_ 32 50000#32),
    unary main_c_3 main_v17 (broadcastInDim S1650000 ![] bcast_S_S1650000 : 𝒞[S_, .i32] → 𝒞[S1650000, .i32]),
    binary main_v3 main_v17 main_v18 (addi : 𝒞[S1650000, .i32] → 𝒞[S1650000, .i32] → 𝒞[S1650000, .i32]),
    ternary main_v16 main_v18 main_v3 main_v19 (select : 𝒞[S1650000, .i1] → 𝒞[S1650000, .i32] → 𝒞[S1650000, .i32] → 𝒞[S1650000, .i32]),
    unary main_v19 main_v20 (broadcastInDim S1650000x1 ![0] bcast_S1650000_S1650000x1_0 : 𝒞[S1650000, .i32] → 𝒞[S1650000x1, .i32]),
    binary main_v14 main_v20 main_v21 ((fun x i => Host.gather gather_S50000_S1650000x1_S1650000_n_0_n_n_0_1_1 x i) : 𝒞[S50000, .f32] → 𝒞[S1650000x1, .i32] → 𝒞[S1650000, .f32]),
    nullary main_c_4 (constantI S_ 32 0#32),
    unary main_c_4 main_v22 (broadcastInDim S1650000 ![] bcast_S_S1650000 : 𝒞[S_, .i32] → 𝒞[S1650000, .i32]),
    binary main_v6 main_v22 main_v23 (cmpi .slt : 𝒞[S1650000, .i32] → 𝒞[S1650000, .i32] → 𝒞[S1650000, .i1]),
    nullary main_c_5 (constantI S_ 32 50000#32),
    unary main_c_5 main_v24 (broadcastInDim S1650000 ![] bcast_S_S1650000 : 𝒞[S_, .i32] → 𝒞[S1650000, .i32]),
    binary main_v6 main_v24 main_v25 (addi : 𝒞[S1650000, .i32] → 𝒞[S1650000, .i32] → 𝒞[S1650000, .i32]),
    ternary main_v23 main_v25 main_v6 main_v26 (select : 𝒞[S1650000, .i1] → 𝒞[S1650000, .i32] → 𝒞[S1650000, .i32] → 𝒞[S1650000, .i32]),
    unary main_v26 main_v27 (broadcastInDim S1650000x1 ![0] bcast_S1650000_S1650000x1_0 : 𝒞[S1650000, .i32] → 𝒞[S1650000x1, .i32]),
    binary main_v14 main_v27 main_v28 ((fun x i => Host.gather gather_S50000_S1650000x1_S1650000_n_0_n_n_0_1_1 x i) : 𝒞[S50000, .f32] → 𝒞[S1650000x1, .i32] → 𝒞[S1650000, .f32]),
    binary main_v21 main_v28 main_v29 (mulf : 𝒞[S1650000, .f32] → 𝒞[S1650000, .f32] → 𝒞[S1650000, .f32]) ]

/-- %30 … %43: x · W1, its rows gathered by the normalised source integers, each times its position's weight, summed
    into the destination rows. -/
abbrev opsAgg1 : List (HloOp τ sig (Elt F)) :=
  [ binary main_arg0 main_arg2 main_v30 ((fun l r => Host.dotGeneral dot_S50000x128_S128x128_S50000x128_1_0_0_1_n_n none l r) : 𝒞[S50000x128, .f32] → 𝒞[S128x128, .f32] → 𝒞[S50000x128, .f32]),
    nullary main_c_6 (constantI S_ 32 0#32),
    unary main_c_6 main_v31 (broadcastInDim S1650000 ![] bcast_S_S1650000 : 𝒞[S_, .i32] → 𝒞[S1650000, .i32]),
    binary main_v3 main_v31 main_v32 (cmpi .slt : 𝒞[S1650000, .i32] → 𝒞[S1650000, .i32] → 𝒞[S1650000, .i1]),
    nullary main_c_7 (constantI S_ 32 50000#32),
    unary main_c_7 main_v33 (broadcastInDim S1650000 ![] bcast_S_S1650000 : 𝒞[S_, .i32] → 𝒞[S1650000, .i32]),
    binary main_v3 main_v33 main_v34 (addi : 𝒞[S1650000, .i32] → 𝒞[S1650000, .i32] → 𝒞[S1650000, .i32]),
    ternary main_v32 main_v34 main_v3 main_v35 (select : 𝒞[S1650000, .i1] → 𝒞[S1650000, .i32] → 𝒞[S1650000, .i32] → 𝒞[S1650000, .i32]),
    unary main_v35 main_v36 (broadcastInDim S1650000x1 ![0] bcast_S1650000_S1650000x1_0 : 𝒞[S1650000, .i32] → 𝒞[S1650000x1, .i32]),
    binary main_v30 main_v36 main_v37 ((fun x i => Host.gather gather_S50000x128_S1650000x1_S1650000x128_1_0_n_n_0_1_1128 x i) : 𝒞[S50000x128, .f32] → 𝒞[S1650000x1, .i32] → 𝒞[S1650000x128, .f32]),
    unary main_v29 main_v38 (broadcastInDim S1650000x1 ![0] bcast_S1650000_S1650000x1_0 : 𝒞[S1650000, .f32] → 𝒞[S1650000x1, .f32]),
    unary main_v38 main_v39 (broadcastInDim S1650000x128 ![0, 1] bcast_S1650000x1_S1650000x128_0_1 : 𝒞[S1650000x1, .f32] → 𝒞[S1650000x128, .f32]),
    binary main_v37 main_v39 main_v40 (mulf : 𝒞[S1650000x128, .f32] → 𝒞[S1650000x128, .f32] → 𝒞[S1650000x128, .f32]),
    nullary main_cst_8 (constant S_ .f32 0x00000000#32),
    unary main_cst_8 main_v41 (broadcastInDim S50000x128 ![] bcast_S_S50000x128 : 𝒞[S_, .f32] → 𝒞[S50000x128, .f32]),
    unary main_v6 main_v42 (broadcastInDim S1650000x1 ![0] bcast_S1650000_S1650000x1_0 : 𝒞[S1650000, .i32] → 𝒞[S1650000x1, .i32]),
    ternary main_v41 main_v42 main_v40 main_v43 ((fun x i u => Host.scatterAdd scatter_S50000x128_S1650000x1_S1650000x128_1_0_0_1 x i u) : 𝒞[S50000x128, .f32] → 𝒞[S1650000x1, .i32] → 𝒞[S1650000x128, .f32] → 𝒞[S50000x128, .f32]) ]

/-- %44 … %47: the bias added to every row, and the row sums. -/
abbrev opsBias1a : List (HloOp τ sig (Elt F)) :=
  [ unary main_arg3 main_v44 (broadcastInDim S1x128 ![1] bcast_S128_S1x128_1 : 𝒞[S128, .f32] → 𝒞[S1x128, .f32]),
    unary main_v44 main_v45 (broadcastInDim S50000x128 ![0, 1] bcast_S1x128_S50000x128_0_1 : 𝒞[S1x128, .f32] → 𝒞[S50000x128, .f32]),
    binary main_v43 main_v45 main_v46 (addf : 𝒞[S50000x128, .f32] → 𝒞[S50000x128, .f32] → 𝒞[S50000x128, .f32]),
    nullary main_cst_9 (constant S_ .f32 0x00000000#32),
    binary main_v46 main_cst_9 main_v47 ((fun x v => Host.reduceAdd x v reducesTo_S50000x128_S50000_d1 h_S_) : 𝒞[S50000x128, .f32] → 𝒞[S_, .f32] → 𝒞[S50000, .f32]) ]

/-- %48 … %c_11: the row means as a column, and the integer 0 the variance function is called with. -/
abbrev opsBias1b : List (HloOp τ sig (Elt F)) :=
  [ unary main_v47 main_v48 (broadcastInDim S50000x1 ![0] bcast_S50000_S50000x1_0 : 𝒞[S50000, .f32] → 𝒞[S50000x1, .f32]),
    nullary main_cst_10 (constant S_ .f32 0x43000000#32),
    unary main_cst_10 main_v49 (broadcastInDim S50000x1 ![] bcast_S_S50000x1 : 𝒞[S_, .f32] → 𝒞[S50000x1, .f32]),
    binary main_v48 main_v49 main_v50 (Host.divf : 𝒞[S50000x1, .f32] → 𝒞[S50000x1, .f32] → 𝒞[S50000x1, .f32]),
    nullary main_c_11 (constantI S_ 32 0#32) ]

/-- The variance function's 23 operations at its first call (on %46 and the integer 0): the row mean again, the squared
    deviations summed, divided by 128 − 0, selected against a NaN constant under (128 − 0) > 0. -/
abbrev opsVar1 : List (HloOp τ sig (Elt F)) :=
  [ TRef.nullary main_call1.cst (constant S_ .f32 0x00000000#32),
    TRef.binary (.of main_v46 : TRef sig ⟨S50000x128, .f32⟩) main_call1.cst main_call1.v0 (fun x v => Host.reduceAdd x v reducesTo_S50000x128_S50000_d1 h_S_),
    TRef.unary main_call1.v0 main_call1.v1 (broadcastInDim S50000x1 ![0] bcast_S50000_S50000x1_0),
    TRef.nullary main_call1.cst_0 (constant S_ .f32 0x43000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x128 ![0, 1] bcast_S50000x1_S50000x128_0_1),
    TRef.binary (.of main_v46 : TRef sig ⟨S50000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b) ]

/-- %52 … %64: the rows centred, times rsqrt (variance + eps), times the gain, plus the offset. -/
abbrev opsNorm1 : List (HloOp τ sig (Elt F)) :=
  [ unary main_v50 main_v52 (broadcastInDim S50000x128 ![0, 1] bcast_S50000x1_S50000x128_0_1 : 𝒞[S50000x1, .f32] → 𝒞[S50000x128, .f32]),
    binary main_v46 main_v52 main_v53 (subf : 𝒞[S50000x128, .f32] → 𝒞[S50000x128, .f32] → 𝒞[S50000x128, .f32]),
    nullary main_cst_12 (constant S_ .f32 0x3727C5AC#32),
    unary main_cst_12 main_v54 (broadcastInDim S50000x1 ![] bcast_S_S50000x1 : 𝒞[S_, .f32] → 𝒞[S50000x1, .f32]),
    binary main_v51 main_v54 main_v55 (addf : 𝒞[S50000x1, .f32] → 𝒞[S50000x1, .f32] → 𝒞[S50000x1, .f32]),
    unary main_v55 main_v56 (Host.rsqrt : 𝒞[S50000x1, .f32] → 𝒞[S50000x1, .f32]),
    unary main_v56 main_v57 (broadcastInDim S50000x128 ![0, 1] bcast_S50000x1_S50000x128_0_1 : 𝒞[S50000x1, .f32] → 𝒞[S50000x128, .f32]),
    binary main_v53 main_v57 main_v58 (mulf : 𝒞[S50000x128, .f32] → 𝒞[S50000x128, .f32] → 𝒞[S50000x128, .f32]),
    unary main_arg4 main_v59 (broadcastInDim S1x128 ![1] bcast_S128_S1x128_1 : 𝒞[S128, .f32] → 𝒞[S1x128, .f32]),
    unary main_v59 main_v60 (broadcastInDim S50000x128 ![0, 1] bcast_S1x128_S50000x128_0_1 : 𝒞[S1x128, .f32] → 𝒞[S50000x128, .f32]),
    binary main_v58 main_v60 main_v61 (mulf : 𝒞[S50000x128, .f32] → 𝒞[S50000x128, .f32] → 𝒞[S50000x128, .f32]),
    unary main_arg5 main_v62 (broadcastInDim S1x128 ![1] bcast_S128_S1x128_1 : 𝒞[S128, .f32] → 𝒞[S1x128, .f32]),
    unary main_v62 main_v63 (broadcastInDim S50000x128 ![0, 1] bcast_S1x128_S50000x128_0_1 : 𝒞[S1x128, .f32] → 𝒞[S50000x128, .f32]),
    binary main_v61 main_v63 main_v64 (addf : 𝒞[S50000x128, .f32] → 𝒞[S50000x128, .f32] → 𝒞[S50000x128, .f32]) ]

/-- ELU's 15 operations at its first call (on %64): select(x > 0, x, 1 · expm1 (select(x > 0, 0, x))). -/
abbrev opsElu1 : List (HloOp τ sig (Elt F)) :=
  [ TRef.nullary main_call2.cst (constant S_ .f32 0x00000000#32),
    TRef.unary main_call2.cst main_call2.v0 (broadcastInDim S50000x128 ![] bcast_S_S50000x128),
    TRef.binary (.of main_v64 : TRef sig ⟨S50000x128, .f32⟩) main_call2.v0 main_call2.v1 (cmpf .ogt),
    TRef.nullary main_call2.cst_0 (constant S_ .f32 0x00000000#32),
    TRef.unary main_call2.cst_0 main_call2.v2 (broadcastInDim S50000x128 ![] bcast_S_S50000x128),
    TRef.binary (.of main_v64 : TRef sig ⟨S50000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x128 ![] bcast_S_S50000x128),
    TRef.ternary main_call2.v3 main_call2.call0.v1 (.of main_v64 : TRef sig ⟨S50000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x128 ![] bcast_S_S50000x128),
    TRef.binary main_call2.v6 main_call2.v5 main_call2.v7 mulf,
    TRef.ternary main_call2.v1 (.of main_v64 : TRef sig ⟨S50000x128, .f32⟩) main_call2.v7 main_call2.call1.v0 select ]

/-- %66 … %79: the second layer's aggregation, on ELU's result and W2, with the same lists and weights. -/
abbrev opsAgg2 : List (HloOp τ sig (Elt F)) :=
  [ binary main_v65 main_arg6 main_v66 ((fun l r => Host.dotGeneral dot_S50000x128_S128x128_S50000x128_1_0_0_1_n_n none l r) : 𝒞[S50000x128, .f32] → 𝒞[S128x128, .f32] → 𝒞[S50000x128, .f32]),
    nullary main_c_13 (constantI S_ 32 0#32),
    unary main_c_13 main_v67 (broadcastInDim S1650000 ![] bcast_S_S1650000 : 𝒞[S_, .i32] → 𝒞[S1650000, .i32]),
    binary main_v3 main_v67 main_v68 (cmpi .slt : 𝒞[S1650000, .i32] → 𝒞[S1650000, .i32] → 𝒞[S1650000, .i1]),
    nullary main_c_14 (constantI S_ 32 50000#32),
    unary main_c_14 main_v69 (broadcastInDim S1650000 ![] bcast_S_S1650000 : 𝒞[S_, .i32] → 𝒞[S1650000, .i32]),
    binary main_v3 main_v69 main_v70 (addi : 𝒞[S1650000, .i32] → 𝒞[S1650000, .i32] → 𝒞[S1650000, .i32]),
    ternary main_v68 main_v70 main_v3 main_v71 (select : 𝒞[S1650000, .i1] → 𝒞[S1650000, .i32] → 𝒞[S1650000, .i32] → 𝒞[S1650000, .i32]),
    unary main_v71 main_v72 (broadcastInDim S1650000x1 ![0] bcast_S1650000_S1650000x1_0 : 𝒞[S1650000, .i32] → 𝒞[S1650000x1, .i32]),
    binary main_v66 main_v72 main_v73 ((fun x i => Host.gather gather_S50000x128_S1650000x1_S1650000x128_1_0_n_n_0_1_1128 x i) : 𝒞[S50000x128, .f32] → 𝒞[S1650000x1, .i32] → 𝒞[S1650000x128, .f32]),
    unary main_v29 main_v74 (broadcastInDim S1650000x1 ![0] bcast_S1650000_S1650000x1_0 : 𝒞[S1650000, .f32] → 𝒞[S1650000x1, .f32]),
    unary main_v74 main_v75 (broadcastInDim S1650000x128 ![0, 1] bcast_S1650000x1_S1650000x128_0_1 : 𝒞[S1650000x1, .f32] → 𝒞[S1650000x128, .f32]),
    binary main_v73 main_v75 main_v76 (mulf : 𝒞[S1650000x128, .f32] → 𝒞[S1650000x128, .f32] → 𝒞[S1650000x128, .f32]),
    nullary main_cst_15 (constant S_ .f32 0x00000000#32),
    unary main_cst_15 main_v77 (broadcastInDim S50000x128 ![] bcast_S_S50000x128 : 𝒞[S_, .f32] → 𝒞[S50000x128, .f32]),
    unary main_v6 main_v78 (broadcastInDim S1650000x1 ![0] bcast_S1650000_S1650000x1_0 : 𝒞[S1650000, .i32] → 𝒞[S1650000x1, .i32]),
    ternary main_v77 main_v78 main_v76 main_v79 ((fun x i u => Host.scatterAdd scatter_S50000x128_S1650000x1_S1650000x128_1_0_0_1 x i u) : 𝒞[S50000x128, .f32] → 𝒞[S1650000x1, .i32] → 𝒞[S1650000x128, .f32] → 𝒞[S50000x128, .f32]) ]

/-- %80 … %c_18: the second bias, the row sums and means, and the integer 0 for the variance function. -/
abbrev opsBias2 : List (HloOp τ sig (Elt F)) :=
  [ unary main_arg7 main_v80 (broadcastInDim S1x128 ![1] bcast_S128_S1x128_1 : 𝒞[S128, .f32] → 𝒞[S1x128, .f32]),
    unary main_v80 main_v81 (broadcastInDim S50000x128 ![0, 1] bcast_S1x128_S50000x128_0_1 : 𝒞[S1x128, .f32] → 𝒞[S50000x128, .f32]),
    binary main_v79 main_v81 main_v82 (addf : 𝒞[S50000x128, .f32] → 𝒞[S50000x128, .f32] → 𝒞[S50000x128, .f32]),
    nullary main_cst_16 (constant S_ .f32 0x00000000#32),
    binary main_v82 main_cst_16 main_v83 ((fun x v => Host.reduceAdd x v reducesTo_S50000x128_S50000_d1 h_S_) : 𝒞[S50000x128, .f32] → 𝒞[S_, .f32] → 𝒞[S50000, .f32]),
    unary main_v83 main_v84 (broadcastInDim S50000x1 ![0] bcast_S50000_S50000x1_0 : 𝒞[S50000, .f32] → 𝒞[S50000x1, .f32]),
    nullary main_cst_17 (constant S_ .f32 0x43000000#32),
    unary main_cst_17 main_v85 (broadcastInDim S50000x1 ![] bcast_S_S50000x1 : 𝒞[S_, .f32] → 𝒞[S50000x1, .f32]),
    binary main_v84 main_v85 main_v86 (Host.divf : 𝒞[S50000x1, .f32] → 𝒞[S50000x1, .f32] → 𝒞[S50000x1, .f32]),
    nullary main_c_18 (constantI S_ 32 0#32) ]

/-- The variance function's 23 operations at its second call (on %82 and the integer 0). -/
abbrev opsVar2 : List (HloOp τ sig (Elt F)) :=
  [ TRef.nullary main_call3.cst (constant S_ .f32 0x00000000#32),
    TRef.binary (.of main_v82 : TRef sig ⟨S50000x128, .f32⟩) main_call3.cst main_call3.v0 (fun x v => Host.reduceAdd x v reducesTo_S50000x128_S50000_d1 h_S_),
    TRef.unary main_call3.v0 main_call3.v1 (broadcastInDim S50000x1 ![0] bcast_S50000_S50000x1_0),
    TRef.nullary main_call3.cst_0 (constant S_ .f32 0x43000000#32),
    TRef.unary main_call3.cst_0 main_call3.v2 (broadcastInDim S50000x1 ![] bcast_S_S50000x1),
    TRef.binary main_call3.v1 main_call3.v2 main_call3.v3 Host.divf,
    TRef.unary main_call3.v3 main_call3.v4 (broadcastInDim S50000x128 ![0, 1] bcast_S50000x1_S50000x128_0_1),
    TRef.binary (.of main_v82 : TRef sig ⟨S50000x128, .f32⟩) main_call3.v4 main_call3.v5 subf,
    TRef.binary main_call3.v5 main_call3.v5 main_call3.v6 mulf,
    TRef.unary (.of main_c_18 : TRef sig ⟨S_, .i32⟩) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S50000_d1 h_S_),
    TRef.unary main_call3.v9 main_call3.v10 (broadcastInDim S50000x1 ![0] bcast_S50000_S50000x1_0),
    TRef.unary main_call3.v8 main_call3.v11 (broadcastInDim S50000x1 ![] bcast_S_S50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S50000x1 ![] bcast_S_S50000x1),
    TRef.ternary main_call3.v13 main_call3.v12 main_call3.call0.v1 main_call3.call0.v2 (fun p a b => select (broadcastInDim S50000x1 ![] bcast_S_S50000x1 p) a b) ]

/-- %88 … %97: the second normalisation up to the gain. -/
abbrev opsNorm2a : List (HloOp τ sig (Elt F)) :=
  [ unary main_v86 main_v88 (broadcastInDim S50000x128 ![0, 1] bcast_S50000x1_S50000x128_0_1 : 𝒞[S50000x1, .f32] → 𝒞[S50000x128, .f32]),
    binary main_v82 main_v88 main_v89 (subf : 𝒞[S50000x128, .f32] → 𝒞[S50000x128, .f32] → 𝒞[S50000x128, .f32]),
    nullary main_cst_19 (constant S_ .f32 0x3727C5AC#32),
    unary main_cst_19 main_v90 (broadcastInDim S50000x1 ![] bcast_S_S50000x1 : 𝒞[S_, .f32] → 𝒞[S50000x1, .f32]),
    binary main_v87 main_v90 main_v91 (addf : 𝒞[S50000x1, .f32] → 𝒞[S50000x1, .f32] → 𝒞[S50000x1, .f32]),
    unary main_v91 main_v92 (Host.rsqrt : 𝒞[S50000x1, .f32] → 𝒞[S50000x1, .f32]),
    unary main_v92 main_v93 (broadcastInDim S50000x128 ![0, 1] bcast_S50000x1_S50000x128_0_1 : 𝒞[S50000x1, .f32] → 𝒞[S50000x128, .f32]),
    binary main_v89 main_v93 main_v94 (mulf : 𝒞[S50000x128, .f32] → 𝒞[S50000x128, .f32] → 𝒞[S50000x128, .f32]),
    unary main_arg8 main_v95 (broadcastInDim S1x128 ![1] bcast_S128_S1x128_1 : 𝒞[S128, .f32] → 𝒞[S1x128, .f32]),
    unary main_v95 main_v96 (broadcastInDim S50000x128 ![0, 1] bcast_S1x128_S50000x128_0_1 : 𝒞[S1x128, .f32] → 𝒞[S50000x128, .f32]),
    binary main_v94 main_v96 main_v97 (mulf : 𝒞[S50000x128, .f32] → 𝒞[S50000x128, .f32] → 𝒞[S50000x128, .f32]) ]

/-- %98 … %100: the second offset added. -/
abbrev opsNorm2b : List (HloOp τ sig (Elt F)) :=
  [ unary main_arg9 main_v98 (broadcastInDim S1x128 ![1] bcast_S128_S1x128_1 : 𝒞[S128, .f32] → 𝒞[S1x128, .f32]),
    unary main_v98 main_v99 (broadcastInDim S50000x128 ![0, 1] bcast_S1x128_S50000x128_0_1 : 𝒞[S1x128, .f32] → 𝒞[S50000x128, .f32]),
    binary main_v97 main_v99 main_v100 (addf : 𝒞[S50000x128, .f32] → 𝒞[S50000x128, .f32] → 𝒞[S50000x128, .f32]) ]

/-- ELU's 15 operations at its second call (on %100): the program's result %101. -/
abbrev opsElu2 : List (HloOp τ sig (Elt F)) :=
  [ TRef.nullary main_call4.cst (constant S_ .f32 0x00000000#32),
    TRef.unary main_call4.cst main_call4.v0 (broadcastInDim S50000x128 ![] bcast_S_S50000x128),
    TRef.binary (.of main_v100 : TRef sig ⟨S50000x128, .f32⟩) main_call4.v0 main_call4.v1 (cmpf .ogt),
    TRef.nullary main_call4.cst_0 (constant S_ .f32 0x00000000#32),
    TRef.unary main_call4.cst_0 main_call4.v2 (broadcastInDim S50000x128 ![] bcast_S_S50000x128),
    TRef.binary (.of main_v100 : TRef sig ⟨S50000x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S50000x128 ![] bcast_S_S50000x128),
    TRef.ternary main_call4.v3 main_call4.call0.v1 (.of main_v100 : TRef sig ⟨S50000x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S50000x128 ![] bcast_S_S50000x128),
    TRef.binary main_call4.v6 main_call4.v5 main_call4.v7 mulf,
    TRef.ternary main_call4.v1 (.of main_v100 : TRef sig ⟨S50000x128, .f32⟩) main_call4.v7 main_call4.call1.v0 select ]

/-- The three printed windows of @main as lists, and the whole line. -/
def ops0 : List (HloOp τ sig (Elt F)) := opsDeg ++ (opsW ++ (opsAgg1 ++ opsBias1a))
def ops1 : List (HloOp τ sig (Elt F)) :=
  opsBias1b ++ (opsVar1 ++ (opsNorm1 ++ (opsElu1 ++ (opsAgg2 ++ (opsBias2 ++ (opsVar2 ++ opsNorm2a))))))
def ops2 : List (HloOp τ sig (Elt F)) := opsNorm2b ++ opsElu2
def ops : List (HloOp τ sig (Elt F)) := ops0 ++ (ops1 ++ ops2)

/-- The fold over two lines run one after the other. -/
theorem after_append {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l, l₂, V => by rw [List.cons_append, after_cons, after_cons, after_append l l₂]

set_option maxRecDepth 4096 in
/-- The first window is its 63 operations: the outlined select's body unfolded at its call, sequencing reassociated. -/
theorem part0_eq (c : Dev nD) : main_part0 (F := F) c = seq ops0 := by
  simp only [ops0, seq_append]
  simp only [main_part0, fn_where.body, opsDeg, opsW, opsAgg1, opsBias1a, seq, bind_assoc, pure_bind]
  rfl

set_option maxRecDepth 4096 in
/-- The second window is its 126 operations. -/
theorem part1_eq (c : Dev nD) : main_part1 (F := F) c = seq ops1 := by
  simp only [ops1, seq_append]
  simp only [main_part1, fn_var.body, fn_where_0.body, fn_elu.body, fn_where_1.body, fn_where_2.body,
    opsBias1b, opsVar1, opsNorm1, opsElu1, opsAgg2, opsBias2, opsVar2, opsNorm2a, seq, bind_assoc, pure_bind]
  rfl

set_option maxRecDepth 4096 in
/-- The third window is its 18 operations. -/
theorem part2_eq (c : Dev nD) : main_part2 (F := F) c = seq ops2 := by
  simp only [ops2, seq_append]
  simp only [main_part2, fn_elu.body, fn_where_1.body, fn_where_2.body, opsNorm2b, opsElu2, seq, bind_assoc, pure_bind]

/-- @main is the straight line of its 198 operations. -/
theorem main_eq (c : Dev nD) : main (F := F) c = seq ops := by
  have h : main (F := F) c = (main_part0 c >>= fun _ => main_part1 c >>= fun _ => main_part2 c) := rfl
  rw [h, part0_eq, part1_eq, part2_eq, ← seq_append, ← seq_append, ops]

end Cert.ReferenceIdeal.Hand

end
-- ==== Proof.RefRun.lean ====
/-
  The run of the reference program: every weakly fair execution of @main terminates with each TensorCore buffer at the
  fold of its 198 operations over the launch contents. The side conditions: every operation touches TensorCore
  references only, and determines its result.
-/
import proofs.«167445_j32667521253433_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation touches TensorCore references only. -/
abbrev Sub (op : HloOp τ sig (Elt F)) : Prop := op.bufs ⊆ tcRefs τ sig
/-- Every operation determines its result. -/
abbrev Det (op : HloOp τ sig (Elt F)) : Prop := op.fresh = ∅

theorem opsDeg_sub : (opsDeg : List (HloOp τ sig (Elt F))).Forall Sub :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub ..⟩
theorem opsDeg_det : (opsDeg : List (HloOp τ sig (Elt F))).Forall Det :=
  ⟨rfl, rfl, rfl, rfl, rfl, rfl, rfl, rfl, rfl, rfl, rfl, rfl, rfl, rfl, rfl, rfl, rfl, rfl, rfl, rfl, rfl⟩

theorem opsW_sub : (opsW : List (HloOp τ sig (Elt F))).Forall Sub :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩
theorem opsW_det : (opsW : List (HloOp τ sig (Elt F))).Forall Det :=
  ⟨rfl, rfl, rfl, rfl, rfl, rfl, rfl, rfl, rfl, rfl, rfl, rfl, rfl, rfl, rfl, rfl, rfl, rfl, rfl⟩

theorem opsAgg1_sub : (opsAgg1 : List (HloOp τ sig (Elt F))).Forall Sub :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub ..⟩
theorem opsAgg1_det : (opsAgg1 : List (HloOp τ sig (Elt F))).Forall Det :=
  ⟨rfl, rfl, rfl, rfl, rfl, rfl, rfl, rfl, rfl, rfl, rfl, rfl, rfl, rfl, rfl, rfl, rfl⟩

theorem opsBias1a_sub : (opsBias1a : List (HloOp τ sig (Elt F))).Forall Sub :=
  ⟨unary_bufs_sub .., unary_bufs_sub .., binary_bufs_sub .., nullary_bufs_sub .., binary_bufs_sub ..⟩
theorem opsBias1a_det : (opsBias1a : List (HloOp τ sig (Elt F))).Forall Det := ⟨rfl, rfl, rfl, rfl, rfl⟩

theorem opsBias1b_sub : (opsBias1b : List (HloOp τ sig (Elt F))).Forall Sub :=
  ⟨unary_bufs_sub .., nullary_bufs_sub .., unary_bufs_sub .., binary_bufs_sub .., nullary_bufs_sub ..⟩
theorem opsBias1b_det : (opsBias1b : List (HloOp τ sig (Elt F))).Forall Det := ⟨rfl, rfl, rfl, rfl, rfl⟩

theorem opsVar1_sub : (opsVar1 : List (HloOp τ sig (Elt F))).Forall Sub :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩
theorem opsVar1_det : (opsVar1 : List (HloOp τ sig (Elt F))).Forall Det :=
  ⟨rfl, rfl, rfl, rfl, rfl, rfl, rfl, rfl, rfl, rfl, rfl, rfl, rfl, rfl, rfl, rfl, rfl, rfl, rfl, rfl, rfl, rfl, rfl⟩

theorem opsNorm1_sub : (opsNorm1 : List (HloOp τ sig (Elt F))).Forall Sub :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩
theorem opsNorm1_det : (opsNorm1 : List (HloOp τ sig (Elt F))).Forall Det :=
  ⟨rfl, rfl, rfl, rfl, rfl, rfl, rfl, rfl, rfl, rfl, rfl, rfl, rfl, rfl⟩

theorem opsElu1_sub : (opsElu1 : List (HloOp τ sig (Elt F))).Forall Sub :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem opsElu1_det : (opsElu1 : List (HloOp τ sig (Elt F))).Forall Det :=
  ⟨rfl, rfl, rfl, rfl, rfl, rfl, rfl, rfl, rfl, rfl, rfl, rfl, rfl, rfl, rfl⟩

theorem opsAgg2_sub : (opsAgg2 : List (HloOp τ sig (Elt F))).Forall Sub :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub ..⟩
theorem opsAgg2_det : (opsAgg2 : List (HloOp τ sig (Elt F))).Forall Det :=
  ⟨rfl, rfl, rfl, rfl, rfl, rfl, rfl, rfl, rfl, rfl, rfl, rfl, rfl, rfl, rfl, rfl, rfl⟩

theorem opsBias2_sub : (opsBias2 : List (HloOp τ sig (Elt F))).Forall Sub :=
  ⟨unary_bufs_sub .., unary_bufs_sub .., binary_bufs_sub .., nullary_bufs_sub .., binary_bufs_sub .., unary_bufs_sub ..,
    nullary_bufs_sub .., unary_bufs_sub .., binary_bufs_sub .., nullary_bufs_sub ..⟩
theorem opsBias2_det : (opsBias2 : List (HloOp τ sig (Elt F))).Forall Det := ⟨rfl, rfl, rfl, rfl, rfl, rfl, rfl, rfl, rfl, rfl⟩

theorem opsVar2_sub : (opsVar2 : List (HloOp τ sig (Elt F))).Forall Sub :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩
theorem opsVar2_det : (opsVar2 : List (HloOp τ sig (Elt F))).Forall Det :=
  ⟨rfl, rfl, rfl, rfl, rfl, rfl, rfl, rfl, rfl, rfl, rfl, rfl, rfl, rfl, rfl, rfl, rfl, rfl, rfl, rfl, rfl, rfl, rfl⟩

theorem opsNorm2a_sub : (opsNorm2a : List (HloOp τ sig (Elt F))).Forall Sub :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub ..⟩
theorem opsNorm2a_det : (opsNorm2a : List (HloOp τ sig (Elt F))).Forall Det :=
  ⟨rfl, rfl, rfl, rfl, rfl, rfl, rfl, rfl, rfl, rfl, rfl⟩

theorem opsNorm2b_sub : (opsNorm2b : List (HloOp τ sig (Elt F))).Forall Sub :=
  ⟨unary_bufs_sub .., unary_bufs_sub .., binary_bufs_sub ..⟩
theorem opsNorm2b_det : (opsNorm2b : List (HloOp τ sig (Elt F))).Forall Det := ⟨rfl, rfl, rfl⟩

theorem opsElu2_sub : (opsElu2 : List (HloOp τ sig (Elt F))).Forall Sub :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem opsElu2_det : (opsElu2 : List (HloOp τ sig (Elt F))).Forall Det :=
  ⟨rfl, rfl, rfl, rfl, rfl, rfl, rfl, rfl, rfl, rfl, rfl, rfl, rfl, rfl, rfl⟩

/-- A property of every operation of two lines holds of every operation of their concatenation. -/
theorem all_append {P : HloOp τ sig (Elt F) → Prop} {l₁ l₂ : List (HloOp τ sig (Elt F))}
    (h₁ : ∀ op ∈ l₁, P op) (h₂ : ∀ op ∈ l₂, P op) : ∀ op ∈ l₁ ++ l₂, P op :=
  fun op h => (List.mem_append.mp h).elim (h₁ op) (h₂ op)

theorem all_of {P : HloOp τ sig (Elt F) → Prop} {l : List (HloOp τ sig (Elt F))} (h : l.Forall P) : ∀ op ∈ l, P op :=
  List.forall_iff_forall_mem.mp h

theorem ops_sub : ∀ op ∈ (ops : List (HloOp τ sig (Elt F))), Sub op :=
  all_append (all_append (all_of opsDeg_sub) (all_append (all_of opsW_sub) (all_append (all_of opsAgg1_sub) (all_of opsBias1a_sub))))
    (all_append
      (all_append (all_of opsBias1b_sub) (all_append (all_of opsVar1_sub) (all_append (all_of opsNorm1_sub) (all_append (all_of opsElu1_sub)
        (all_append (all_of opsAgg2_sub) (all_append (all_of opsBias2_sub) (all_append (all_of opsVar2_sub) (all_of opsNorm2a_sub))))))))
      (all_append (all_of opsNorm2b_sub) (all_of opsElu2_sub)))

theorem ops_det : ∀ op ∈ (ops : List (HloOp τ sig (Elt F))), Det op :=
  all_append (all_append (all_of opsDeg_det) (all_append (all_of opsW_det) (all_append (all_of opsAgg1_det) (all_of opsBias1a_det))))
    (all_append
      (all_append (all_of opsBias1b_det) (all_append (all_of opsVar1_det) (all_append (all_of opsNorm1_det) (all_append (all_of opsElu1_det)
        (all_append (all_of opsAgg2_det) (all_append (all_of opsBias2_det) (all_append (all_of opsVar2_det) (all_of opsNorm2a_det))))))))
      (all_append (all_of opsNorm2b_det) (all_of opsElu2_det)))

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq
    (fun _ => List.forall_iff_forall_mem.mpr ops_sub) m ρ (fun _ => ops_det)

end Cert.ReferenceIdeal.Hand

end
-- ==== Proof.RefSteps.lean ====
/-
  The reference program's fold stage by stage: the valuation after each stage as a function of the valuation before it,
  and the references each stage writes.
-/
import proofs.«167445_j32667521253433_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages as steps on valuations -/

def aDeg (V : Valuation τ sig (Elt F)) : Valuation τ sig (Elt F) := after opsDeg V
def aW (V : Valuation τ sig (Elt F)) : Valuation τ sig (Elt F) := after opsW V
def aAgg1 (V : Valuation τ sig (Elt F)) : Valuation τ sig (Elt F) := after opsAgg1 V
def aBias1a (V : Valuation τ sig (Elt F)) : Valuation τ sig (Elt F) := after opsBias1a V
def aBias1b (V : Valuation τ sig (Elt F)) : Valuation τ sig (Elt F) := after opsBias1b V
def aVar1 (V : Valuation τ sig (Elt F)) : Valuation τ sig (Elt F) := after opsVar1 V
def aNorm1 (V : Valuation τ sig (Elt F)) : Valuation τ sig (Elt F) := after opsNorm1 V
def aElu1 (V : Valuation τ sig (Elt F)) : Valuation τ sig (Elt F) := after opsElu1 V
def aAgg2 (V : Valuation τ sig (Elt F)) : Valuation τ sig (Elt F) := after opsAgg2 V
def aBias2 (V : Valuation τ sig (Elt F)) : Valuation τ sig (Elt F) := after opsBias2 V
def aVar2 (V : Valuation τ sig (Elt F)) : Valuation τ sig (Elt F) := after opsVar2 V
def aNorm2a (V : Valuation τ sig (Elt F)) : Valuation τ sig (Elt F) := after opsNorm2a V
def aNorm2b (V : Valuation τ sig (Elt F)) : Valuation τ sig (Elt F) := after opsNorm2b V
def aElu2 (V : Valuation τ sig (Elt F)) : Valuation τ sig (Elt F) := after opsElu2 V

/-- The fold of the whole line is the fourteen steps in order. -/
theorem after_ops (V : Valuation τ sig (Elt F)) :
    after ops V = aElu2 (aNorm2b (aNorm2a (aVar2 (aBias2 (aAgg2 (aElu1 (aNorm1 (aVar1 (aBias1b (aBias1a (aAgg1 (aW (aDeg V))))))))))))) := by
  simp only [ops, ops0, ops1, ops2, after_append]
  rfl

/-! ## What each stage writes -/

def WDeg : List (Ref sig .tc) :=
  [main_v0, main_v1, main_v2, main_v3, main_v4, main_v5, main_v6, main_cst, main_v7, main_cst_0, main_v8, main_v9, main_v10,
    main_cst_1, main_v11, main_v12, main_v13, main_cst_2, main_call0_v0, main_call0_v1, main_v14]
def WW : List (Ref sig .tc) :=
  [main_c, main_v15, main_v16, main_c_3, main_v17, main_v18, main_v19, main_v20, main_v21, main_c_4, main_v22, main_v23, main_c_5,
    main_v24, main_v25, main_v26, main_v27, main_v28, main_v29]
def WAgg1 : List (Ref sig .tc) :=
  [main_v30, main_c_6, main_v31, main_v32, main_c_7, main_v33, main_v34, main_v35, main_v36, main_v37, main_v38, main_v39, main_v40,
    main_cst_8, main_v41, main_v42, main_v43]
def WBias1a : List (Ref sig .tc) := [main_v44, main_v45, main_v46, main_cst_9, main_v47]
def WBias1b : List (Ref sig .tc) := [main_v48, main_cst_10, main_v49, main_v50, main_c_11]
def WVar1 : List (Ref sig .tc) :=
  [main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10, main_call1_v11,
    main_call1_v12, main_call1_cst_3, main_call1_v13, main_call1_cst_4, main_call1_call0_v0, main_call1_call0_v1, main_v51]
def WNorm1 : List (Ref sig .tc) :=
  [main_v52, main_v53, main_cst_12, main_v54, main_v55, main_v56, main_v57, main_v58, main_v59, main_v60, main_v61, main_v62,
    main_v63, main_v64]
def WElu1 : List (Ref sig .tc) :=
  [main_call2_cst, main_call2_v0, main_call2_v1, main_call2_cst_0, main_call2_v2, main_call2_v3, main_call2_cst_1,
    main_call2_call0_v0, main_call2_call0_v1, main_call2_v4, main_call2_v5, main_call2_cst_2, main_call2_v6, main_call2_v7, main_v65]
def WAgg2 : List (Ref sig .tc) :=
  [main_v66, main_c_13, main_v67, main_v68, main_c_14, main_v69, main_v70, main_v71, main_v72, main_v73, main_v74, main_v75,
    main_v76, main_cst_15, main_v77, main_v78, main_v79]
def WBias2 : List (Ref sig .tc) :=
  [main_v80, main_v81, main_v82, main_cst_16, main_v83, main_v84, main_cst_17, main_v85, main_v86, main_c_18]
def WVar2 : List (Ref sig .tc) :=
  [main_call3_cst, main_call3_v0, main_call3_v1, main_call3_cst_0, main_call3_v2, main_call3_v3, main_call3_v4, main_call3_v5,
    main_call3_v6, main_call3_v7, main_call3_cst_1, main_call3_v8, main_call3_cst_2, main_call3_v9, main_call3_v10, main_call3_v11,
    main_call3_v12, main_call3_cst_3, main_call3_v13, main_call3_cst_4, main_call3_call0_v0, main_call3_call0_v1, main_v87]
def WNorm2a : List (Ref sig .tc) :=
  [main_v88, main_v89, main_cst_19, main_v90, main_v91, main_v92, main_v93, main_v94, main_v95, main_v96, main_v97]
def WNorm2b : List (Ref sig .tc) := [main_v98, main_v99, main_v100]
def WElu2 : List (Ref sig .tc) :=
  [main_call4_cst, main_call4_v0, main_call4_v1, main_call4_cst_0, main_call4_v2, main_call4_v3, main_call4_cst_1,
    main_call4_call0_v0, main_call4_call0_v1, main_call4_v4, main_call4_v5, main_call4_cst_2, main_call4_v6, main_call4_v7, main_v101]

/-- A reference of the list, as the one buffer an operation writes. -/
theorem w {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation writes within the list. -/
abbrev Within (W : List (Ref sig .tc)) (op : HloOp τ sig (Elt F)) : Prop := op.writes ⊆ (W.map (Proc.devRef (τ := τ) .tc)).toFinset

/-- Membership in a literal list, by position: the head, or a member of the tail. -/
macro "mem_at" : tactic => `(tactic| repeat (first | exact List.Mem.head _ | apply List.Mem.tail))

end Cert.ReferenceIdeal.Hand

end
-- ==== Proof.RefKeepA.lean ====
/-
  The first eight stages of the reference program (degree, first product, first aggregation, bias, variance,
  normalisation, ELU): every operation of a stage writes within the stage's list of references, so a reference outside
  the list keeps its contents across the stage.
-/
import proofs.«167445_j32667521253433_2_alg».proof.Proof.RefSteps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Every operation of a stage writes within the stage's list -/

theorem opsDeg_w : (opsDeg : List (HloOp τ sig (Elt F))).Forall (Within WDeg) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at), w (by mem_at),
    w (by mem_at), w (by mem_at), w (by mem_at)⟩
theorem opsW_w : (opsW : List (HloOp τ sig (Elt F))).Forall (Within WW) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at), w (by mem_at),
    w (by mem_at)⟩
theorem opsAgg1_w : (opsAgg1 : List (HloOp τ sig (Elt F))).Forall (Within WAgg1) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at)⟩
theorem opsBias1a_w : (opsBias1a : List (HloOp τ sig (Elt F))).Forall (Within WBias1a) :=
  ⟨w (by mem_at), w (by mem_at), w (by mem_at), w (by mem_at), w (by mem_at)⟩
theorem opsBias1b_w : (opsBias1b : List (HloOp τ sig (Elt F))).Forall (Within WBias1b) :=
  ⟨w (by mem_at), w (by mem_at), w (by mem_at), w (by mem_at), w (by mem_at)⟩
theorem opsVar1_w : (opsVar1 : List (HloOp τ sig (Elt F))).Forall (Within WVar1) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at), w (by mem_at),
    w (by mem_at), w (by mem_at), w (by mem_at), w (by mem_at), w (by mem_at)⟩
theorem opsNorm1_w : (opsNorm1 : List (HloOp τ sig (Elt F))).Forall (Within WNorm1) :=
  ⟨w (by mem_at), w (by mem_at), w (by mem_at), w (by mem_at), w (by mem_at), w (by mem_at), w (by mem_at), w (by mem_at), w (by mem_at),
    w (by mem_at), w (by mem_at), w (by mem_at), w (by mem_at), w (by mem_at)⟩
theorem opsElu1_w : (opsElu1 : List (HloOp τ sig (Elt F))).Forall (Within WElu1) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at)⟩

/-! ## A reference a stage does not write keeps its contents

The reference is left out of the lemmas' index (it is a projection of a structure the matcher has not yet opened). -/

theorem aDeg_keep (V : Valuation τ sig (Elt F)) {r : Ref sig .tc} (hr : r ∉ WDeg) :
    aDeg V (no_index (Proc.devRef .tc r)) = V (Proc.devRef .tc r) := after_of_writes_sub opsDeg V opsDeg_w hr
theorem aW_keep (V : Valuation τ sig (Elt F)) {r : Ref sig .tc} (hr : r ∉ WW) :
    aW V (no_index (Proc.devRef .tc r)) = V (Proc.devRef .tc r) := after_of_writes_sub opsW V opsW_w hr
theorem aAgg1_keep (V : Valuation τ sig (Elt F)) {r : Ref sig .tc} (hr : r ∉ WAgg1) :
    aAgg1 V (no_index (Proc.devRef .tc r)) = V (Proc.devRef .tc r) := after_of_writes_sub opsAgg1 V opsAgg1_w hr
theorem aBias1a_keep (V : Valuation τ sig (Elt F)) {r : Ref sig .tc} (hr : r ∉ WBias1a) :
    aBias1a V (no_index (Proc.devRef .tc r)) = V (Proc.devRef .tc r) := after_of_writes_sub opsBias1a V opsBias1a_w hr
theorem aBias1b_keep (V : Valuation τ sig (Elt F)) {r : Ref sig .tc} (hr : r ∉ WBias1b) :
    aBias1b V (no_index (Proc.devRef .tc r)) = V (Proc.devRef .tc r) := after_of_writes_sub opsBias1b V opsBias1b_w hr
theorem aVar1_keep (V : Valuation τ sig (Elt F)) {r : Ref sig .tc} (hr : r ∉ WVar1) :
    aVar1 V (no_index (Proc.devRef .tc r)) = V (Proc.devRef .tc r) := after_of_writes_sub opsVar1 V opsVar1_w hr
theorem aNorm1_keep (V : Valuation τ sig (Elt F)) {r : Ref sig .tc} (hr : r ∉ WNorm1) :
    aNorm1 V (no_index (Proc.devRef .tc r)) = V (Proc.devRef .tc r) := after_of_writes_sub opsNorm1 V opsNorm1_w hr
theorem aElu1_keep (V : Valuation τ sig (Elt F)) {r : Ref sig .tc} (hr : r ∉ WElu1) :
    aElu1 V (no_index (Proc.devRef .tc r)) = V (Proc.devRef .tc r) := after_of_writes_sub opsElu1 V opsElu1_w hr

end Cert.ReferenceIdeal.Hand

end
-- ==== Proof.RefKeepB.lean ====
/-
  The last six stages of the reference program (second aggregation, bias, variance, normalisation, ELU): every
  operation of a stage writes within the stage's list of references, so a reference outside the list keeps its contents
  across the stage.
-/
import proofs.«167445_j32667521253433_2_alg».proof.Proof.RefSteps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Every operation of a stage writes within the stage's list -/

theorem opsAgg2_w : (opsAgg2 : List (HloOp τ sig (Elt F))).Forall (Within WAgg2) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at)⟩
theorem opsBias2_w : (opsBias2 : List (HloOp τ sig (Elt F))).Forall (Within WBias2) :=
  ⟨w (by mem_at), w (by mem_at), w (by mem_at), w (by mem_at), w (by mem_at), w (by mem_at), w (by mem_at), w (by mem_at), w (by mem_at),
    w (by mem_at)⟩
theorem opsVar2_w : (opsVar2 : List (HloOp τ sig (Elt F))).Forall (Within WVar2) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at), w (by mem_at), w (by mem_at), w (by mem_at),
    w (by mem_at), w (by mem_at), w (by mem_at), w (by mem_at), w (by mem_at)⟩
theorem opsNorm2a_w : (opsNorm2a : List (HloOp τ sig (Elt F))).Forall (Within WNorm2a) :=
  ⟨w (by mem_at), w (by mem_at), w (by mem_at), w (by mem_at), w (by mem_at), w (by mem_at), w (by mem_at), w (by mem_at), w (by mem_at),
    w (by mem_at), w (by mem_at)⟩
theorem opsNorm2b_w : (opsNorm2b : List (HloOp τ sig (Elt F))).Forall (Within WNorm2b) :=
  ⟨w (by mem_at), w (by mem_at), w (by mem_at)⟩
theorem opsElu2_w : (opsElu2 : List (HloOp τ sig (Elt F))).Forall (Within WElu2) :=
  ⟨w (by mem_at), w (by mem_at), w (by mem_at), w (by mem_at), w (by mem_at), w (by mem_at), w (by mem_at), w (by mem_at), w (by mem_at),
    w (by mem_at), w (by mem_at), w (by mem_at), w (by mem_at), w (by mem_at), w (by mem_at)⟩

/-! ## A reference a stage does not write keeps its contents

The reference is left out of the lemmas' index (it is a projection of a structure the matcher has not yet opened). -/

theorem aAgg2_keep (V : Valuation τ sig (Elt F)) {r : Ref sig .tc} (hr : r ∉ WAgg2) :
    aAgg2 V (no_index (Proc.devRef .tc r)) = V (Proc.devRef .tc r) := after_of_writes_sub opsAgg2 V opsAgg2_w hr
theorem aBias2_keep (V : Valuation τ sig (Elt F)) {r : Ref sig .tc} (hr : r ∉ WBias2) :
    aBias2 V (no_index (Proc.devRef .tc r)) = V (Proc.devRef .tc r) := after_of_writes_sub opsBias2 V opsBias2_w hr
theorem aVar2_keep (V : Valuation τ sig (Elt F)) {r : Ref sig .tc} (hr : r ∉ WVar2) :
    aVar2 V (no_index (Proc.devRef .tc r)) = V (Proc.devRef .tc r) := after_of_writes_sub opsVar2 V opsVar2_w hr
theorem aNorm2a_keep (V : Valuation τ sig (Elt F)) {r : Ref sig .tc} (hr : r ∉ WNorm2a) :
    aNorm2a V (no_index (Proc.devRef .tc r)) = V (Proc.devRef .tc r) := after_of_writes_sub opsNorm2a V opsNorm2a_w hr
theorem aNorm2b_keep (V : Valuation τ sig (Elt F)) {r : Ref sig .tc} (hr : r ∉ WNorm2b) :
    aNorm2b V (no_index (Proc.devRef .tc r)) = V (Proc.devRef .tc r) := after_of_writes_sub opsNorm2b V opsNorm2b_w hr
theorem aElu2_keep (V : Valuation τ sig (Elt F)) {r : Ref sig .tc} (hr : r ∉ WElu2) :
    aElu2 V (no_index (Proc.devRef .tc r)) = V (Proc.devRef .tc r) := after_of_writes_sub opsElu2 V opsElu2_w hr

end Cert.ReferenceIdeal.Hand

end
-- ==== Proof.RefFrame.lean ====
/-
  The reference program's fold stage by stage: a reference no stage writes keeps its contents across the whole line, and
  the ten arguments are such references.
-/
import proofs.«167445_j32667521253433_2_alg».proof.Proof.RefKeepA
import proofs.«167445_j32667521253433_2_alg».proof.Proof.RefKeepB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The ten arguments are written by no stage. -/
theorem after_ops_arg (V : Valuation τ sig (Elt F)) {r : Ref sig .tc}
    (h : r ∉ WDeg ∧ r ∉ WW ∧ r ∉ WAgg1 ∧ r ∉ WBias1a ∧ r ∉ WBias1b ∧ r ∉ WVar1 ∧ r ∉ WNorm1 ∧ r ∉ WElu1 ∧ r ∉ WAgg2 ∧ r ∉ WBias2
      ∧ r ∉ WVar2 ∧ r ∉ WNorm2a ∧ r ∉ WNorm2b ∧ r ∉ WElu2) :
    after ops V (Proc.devRef .tc r) = V (Proc.devRef .tc r) := by
  obtain ⟨h1, h2, h3, h4, h5, h6, h7, h8, h9, h10, h11, h12, h13, h14⟩ := h
  rw [after_ops]
  exact (aElu2_keep _ h14).trans ((aNorm2b_keep _ h13).trans ((aNorm2a_keep _ h12).trans ((aVar2_keep _ h11).trans
    ((aBias2_keep _ h10).trans ((aAgg2_keep _ h9).trans ((aElu1_keep _ h8).trans ((aNorm1_keep _ h7).trans ((aVar1_keep _ h6).trans
    ((aBias1b_keep _ h5).trans ((aBias1a_keep _ h4).trans ((aAgg1_keep _ h3).trans ((aW_keep _ h2).trans (aDeg_keep _ h1)))))))))))))

theorem after_ops_arg0 (V : Valuation τ sig (Elt F)) : after ops V (Proc.devRef .tc main_arg0) = V (Proc.devRef .tc main_arg0) := after_ops_arg V (by decide)
theorem after_ops_arg1 (V : Valuation τ sig (Elt F)) : after ops V (Proc.devRef .tc main_arg1) = V (Proc.devRef .tc main_arg1) := after_ops_arg V (by decide)
theorem after_ops_arg2 (V : Valuation τ sig (Elt F)) : after ops V (Proc.devRef .tc main_arg2) = V (Proc.devRef .tc main_arg2) := after_ops_arg V (by decide)
theorem after_ops_arg3 (V : Valuation τ sig (Elt F)) : after ops V (Proc.devRef .tc main_arg3) = V (Proc.devRef .tc main_arg3) := after_ops_arg V (by decide)
theorem after_ops_arg4 (V : Valuation τ sig (Elt F)) : after ops V (Proc.devRef .tc main_arg4) = V (Proc.devRef .tc main_arg4) := after_ops_arg V (by decide)
theorem after_ops_arg5 (V : Valuation τ sig (Elt F)) : after ops V (Proc.devRef .tc main_arg5) = V (Proc.devRef .tc main_arg5) := after_ops_arg V (by decide)
theorem after_ops_arg6 (V : Valuation τ sig (Elt F)) : after ops V (Proc.devRef .tc main_arg6) = V (Proc.devRef .tc main_arg6) := after_ops_arg V (by decide)
theorem after_ops_arg7 (V : Valuation τ sig (Elt F)) : after ops V (Proc.devRef .tc main_arg7) = V (Proc.devRef .tc main_arg7) := after_ops_arg V (by decide)
theorem after_ops_arg8 (V : Valuation τ sig (Elt F)) : after ops V (Proc.devRef .tc main_arg8) = V (Proc.devRef .tc main_arg8) := after_ops_arg V (by decide)
theorem after_ops_arg9 (V : Valuation τ sig (Elt F)) : after ops V (Proc.devRef .tc main_arg9) = V (Proc.devRef .tc main_arg9) := after_ops_arg V (by decide)

end Cert.ReferenceIdeal.Hand

end
-- ==== Proof.RefTerms.lean ====
/-
  The reference program's stages as functions of their inputs. Each body is the composition of the stage's operations
  in the program's own spelling (the outlined select functions' identity conversions dropped), so that the fold of the
  operations at a stage's result buffer is the stage function of the contents of the stage's input buffers.
-/
import proofs.«167445_j32667521253433_2_alg».proof.Proof.Gen.ReferenceIdeal

noncomputable section

namespace Cert.ReferenceIdeal.Hand

open Cert.ReferenceIdeal Cert.ReferenceIdeal.Gen Idealize.ShloMosaic

variable {F : FTy → Type} [FloatOps F]

/-- %3: row 0 of the edge table as a list, with the self-loops 0 … 49999 appended. -/
def srcList (ei : IVec S2x1600000 32) : IVec S1650000 32 :=
  concatenate S1650000 0
    [⟨S1600000, shapeCast S1600000 (extractStridedSlice S1x1600000 ![0, 0] ei slices_S2x1600000_S1x1600000_0_0) shapeCasts_S1x1600000_S1600000⟩,
      ⟨S50000, iotaInDim S50000 32 0⟩] concatenates_S1600000_S50000_S1650000_d0

/-- %6: row 1 of the edge table as a list, with the self-loops appended. -/
def dstList (ei : IVec S2x1600000 32) : IVec S1650000 32 :=
  concatenate S1650000 0
    [⟨S1600000, shapeCast S1600000 (extractStridedSlice S1x1600000 ![1, 0] ei slices_S2x1600000_S1x1600000_1_0) shapeCasts_S1x1600000_S1600000⟩,
      ⟨S50000, iotaInDim S50000 32 0⟩] concatenates_S1600000_S50000_S1650000_d0

/-- %10: ones scattered into zeros at the destination integers. -/
def degT (dst : IVec S1650000 32) : FVec F S50000 .f32 :=
  Host.scatterAdd (F := F) scatter_S50000_S1650000x1_S1650000_n_0_0_1
    (broadcastInDim S50000 ![] bcast_S_S50000 (constant (F := F) S_ .f32 0x00000000#32))
    (broadcastInDim S1650000x1 ![0] bcast_S1650000_S1650000x1_0 dst)
    (broadcastInDim S1650000 ![] bcast_S_S1650000 (constant (F := F) S_ .f32 0x3F800000#32))

/-- %14: where(deg > 0, rsqrt deg, 0). -/
def dinvT (dst : IVec S1650000 32) : FVec F S50000 .f32 :=
  select (cmpf .ogt (degT (F := F) dst) (broadcastInDim S50000 ![] bcast_S_S50000 (constant (F := F) S_ .f32 0x00000000#32)))
    (Host.rsqrt (F := F) (degT (F := F) dst))
    (broadcastInDim S50000 ![] bcast_S_S50000 (constant (F := F) S_ .f32 0x00000000#32))

/-- %19, %26, %35, %71: a negative integer has 50000 added. -/
def nrmT (z : IVec S1650000 32) : IVec S1650000 32 :=
  select (cmpi .slt z (broadcastInDim S1650000 ![] bcast_S_S1650000 (constantI S_ 32 0#32)))
    (addi z (broadcastInDim S1650000 ![] bcast_S_S1650000 (constantI S_ 32 50000#32))) z

/-- %29: dinv gathered by source times dinv gathered by destination. -/
def wT (dinv : FVec F S50000 .f32) (src dst : IVec S1650000 32) : FVec F S1650000 .f32 :=
  mulf
    (Host.gather gather_S50000_S1650000x1_S1650000_n_0_n_n_0_1_1 dinv (broadcastInDim S1650000x1 ![0] bcast_S1650000_S1650000x1_0 (nrmT src)))
    (Host.gather gather_S50000_S1650000x1_S1650000_n_0_n_n_0_1_1 dinv (broadcastInDim S1650000x1 ![0] bcast_S1650000_S1650000x1_0 (nrmT dst)))

/-- %43, %79: the rows of a · w gathered by source, weighted, summed by destination. -/
def aggT (a : FVec F S50000x128 .f32) (w : FVec F S128x128 .f32) (src dst : IVec S1650000 32) (wt : FVec F S1650000 .f32) :
    FVec F S50000x128 .f32 :=
  Host.scatterAdd (F := F) scatter_S50000x128_S1650000x1_S1650000x128_1_0_0_1
    (broadcastInDim S50000x128 ![] bcast_S_S50000x128 (constant (F := F) S_ .f32 0x00000000#32))
    (broadcastInDim S1650000x1 ![0] bcast_S1650000_S1650000x1_0 dst)
    (mulf
      (Host.gather gather_S50000x128_S1650000x1_S1650000x128_1_0_n_n_0_1_1128
        (Host.dotGeneral (F := F) dot_S50000x128_S128x128_S50000x128_1_0_0_1_n_n none a w)
        (broadcastInDim S1650000x1 ![0] bcast_S1650000_S1650000x1_0 (nrmT src)))
      (broadcastInDim S1650000x128 ![0, 1] bcast_S1650000x1_S1650000x128_0_1
        (broadcastInDim S1650000x1 ![0] bcast_S1650000_S1650000x1_0 wt)))

/-- %46, %82: the bias added to every row. -/
def biasT (y : FVec F S50000x128 .f32) (b : FVec F S128 .f32) : FVec F S50000x128 .f32 :=
  addf y (broadcastInDim S50000x128 ![0, 1] bcast_S1x128_S50000x128_0_1 (broadcastInDim S1x128 ![1] bcast_S128_S1x128_1 b))

/-- %50, %86 (and the variance function's %3): the row sums over 128, as a column. -/
def meanT (y : FVec F S50000x128 .f32) : FVec F S50000x1 .f32 :=
  Host.divf (F := F)
    (broadcastInDim S50000x1 ![0] bcast_S50000_S50000x1_0
      (Host.reduceAdd (F := F) y (constant (F := F) S_ .f32 0x00000000#32) reducesTo_S50000x128_S50000_d1 h_S_))
    (broadcastInDim S50000x1 ![] bcast_S_S50000x1 (constant (F := F) S_ .f32 0x43000000#32))

/-- The variance function's divisor 128 − float n. -/
def ddofT (n : IVec S_ 32) : FVec F S_ .f32 := subf (constant (F := F) S_ .f32 0x43000000#32) (sitofp (F := F) .f32 n)

/-- The variance function's %5: the rows minus its own row mean. -/
def devT (y : FVec F S50000x128 .f32) : FVec F S50000x128 .f32 :=
  subf y (broadcastInDim S50000x128 ![0, 1] bcast_S50000x1_S50000x128_0_1 (meanT y))

/-- %51, %87: the variance function on y and the integer n. -/
def varT (y : FVec F S50000x128 .f32) (n : IVec S_ 32) : FVec F S50000x1 .f32 :=
  select (broadcastInDim S50000x1 ![] bcast_S_S50000x1 (cmpf .ogt (ddofT (F := F) n) (constant (F := F) S_ .f32 0x00000000#32)))
    (Host.divf (F := F)
      (broadcastInDim S50000x1 ![0] bcast_S50000_S50000x1_0
        (Host.reduceAdd (F := F) (mulf (devT y) (devT y)) (constant (F := F) S_ .f32 0x00000000#32) reducesTo_S50000x128_S50000_d1 h_S_))
      (broadcastInDim S50000x1 ![] bcast_S_S50000x1 (ddofT (F := F) n)))
    (broadcastInDim S50000x1 ![] bcast_S_S50000x1 (constant (F := F) S_ .f32 0x7FC00000#32))

/-- %64, %100: centred by the column mean, times rsqrt (var + eps), times the gain, plus the offset. -/
def normT (y : FVec F S50000x128 .f32) (mean var : FVec F S50000x1 .f32) (g b : FVec F S128 .f32) : FVec F S50000x128 .f32 :=
  addf
    (mulf
      (mulf (subf y (broadcastInDim S50000x128 ![0, 1] bcast_S50000x1_S50000x128_0_1 mean))
        (broadcastInDim S50000x128 ![0, 1] bcast_S50000x1_S50000x128_0_1
          (Host.rsqrt (F := F) (addf var (broadcastInDim S50000x1 ![] bcast_S_S50000x1 (constant (F := F) S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- %65, %101: select(x > 0, x, 1 · expm1 (select(x > 0, 0, x))). -/
def eluT (x : FVec F S50000x128 .f32) : FVec F S50000x128 .f32 :=
  select (cmpf .ogt x (broadcastInDim S50000x128 ![] bcast_S_S50000x128 (constant (F := F) S_ .f32 0x00000000#32))) x
    (mulf (broadcastInDim S50000x128 ![] bcast_S_S50000x128 (constant (F := F) S_ .f32 0x3F800000#32))
      (Host.expm1 (F := F)
        (select (cmpf .ogt x (broadcastInDim S50000x128 ![] bcast_S_S50000x128 (constant (F := F) S_ .f32 0x00000000#32)))
          (broadcastInDim S50000x128 ![] bcast_S_S50000x128 (constant (F := F) S_ .f32 0x00000000#32)) x)))

/-- A layer's input to the normalisation: the aggregate plus the bias. -/
def preT (a : FVec F S50000x128 .f32) (w : FVec F S128x128 .f32) (b : FVec F S128 .f32) (src dst : IVec S1650000 32)
    (wt : FVec F S1650000 .f32) : FVec F S50000x128 .f32 := biasT (aggT a w src dst wt) b

/-- The normalisation and ELU of y, the variance function called with the integer 0. -/
def actT (y : FVec F S50000x128 .f32) (g β : FVec F S128 .f32) : FVec F S50000x128 .f32 :=
  eluT (normT y (meanT y) (varT y (constantI S_ 32 0#32)) g β)

/-- One layer. -/
def layerT (a : FVec F S50000x128 .f32) (w : FVec F S128x128 .f32) (b g β : FVec F S128 .f32) (src dst : IVec S1650000 32)
    (wt : FVec F S1650000 .f32) : FVec F S50000x128 .f32 := actT (preT a w b src dst wt) g β

/-- %101 as a function of the ten arguments. -/
def outT (x : FVec F S50000x128 .f32) (ei : IVec S2x1600000 32) (w1 : FVec F S128x128 .f32) (b1 g1 β1 : FVec F S128 .f32)
    (w2 : FVec F S128x128 .f32) (b2 g2 β2 : FVec F S128 .f32) : FVec F S50000x128 .f32 :=
  layerT (layerT x w1 b1 g1 β1 (srcList ei) (dstList ei) (wT (dinvT (F := F) (dstList ei)) (srcList ei) (dstList ei)))
    w2 b2 g2 β2 (srcList ei) (dstList ei) (wT (dinvT (F := F) (dstList ei)) (srcList ei) (dstList ei))

end Cert.ReferenceIdeal.Hand

end
-- ==== Proof.RefRead.lean ====
/-
  The reference program's fold read back stage by stage: each stage's result buffer holds the stage function
  (RefTerms.lean) of the contents of the stage's input buffers, and the whole fold at the result buffer %101 is outT of
  the ten arguments' contents.
-/
import proofs.«167445_j32667521253433_2_alg».proof.Proof.RefFrame
import proofs.«167445_j32667521253433_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the operations whose bodies are sums and searches over the operand's elements stay folded while two spellings of one
-- composition are compared
attribute [local irreducible] Host.scatterAdd Host.gather Host.reduceAdd concatenate

/-- The fold at a reference, by one pass: each operation's result at its own reference is its function's value, at another
    reference what was there (the references told apart by evaluation in the kernel). -/
local macro "after_results_k" : tactic =>
  `(tactic| (simp (disch := decide +kernel) only [after_cons, after_nil,
      nullary_result', unary_result', binary_result', ternary_result', reshape_result',
      nullary_result_ne', unary_result_ne', binary_result_ne', ternary_result_ne', reshape_result_ne']))

/-! ## Degree and edge weights -/

theorem aDeg_v3 (V : Valuation τ sig (Elt F)) :
    aDeg V (no_index (Proc.devRef .tc main_v3)) = srcList (V (Proc.devRef .tc main_arg1)) := by
  unfold aDeg opsDeg srcList
  after_results_k
  first | done | rfl

theorem aDeg_v6 (V : Valuation τ sig (Elt F)) :
    aDeg V (no_index (Proc.devRef .tc main_v6)) = dstList (V (Proc.devRef .tc main_arg1)) := by
  unfold aDeg opsDeg dstList
  after_results_k
  first | done | rfl

theorem aDeg_v14 (V : Valuation τ sig (Elt F)) :
    aDeg V (no_index (Proc.devRef .tc main_v14)) = dinvT (F := F) (dstList (V (Proc.devRef .tc main_arg1))) := by
  unfold aDeg opsDeg dinvT degT dstList
  after_results_k
  first | done | rfl

theorem aW_v29 (V : Valuation τ sig (Elt F)) :
    aW V (no_index (Proc.devRef .tc main_v29))
      = wT (F := F) (V (Proc.devRef .tc main_v14)) (V (Proc.devRef .tc main_v3)) (V (Proc.devRef .tc main_v6)) := by
  unfold aW opsW wT nrmT
  after_results_k
  first | done | rfl

/-! ## The first layer -/

theorem aAgg1_v43 (V : Valuation τ sig (Elt F)) :
    aAgg1 V (no_index (Proc.devRef .tc main_v43))
      = aggT (F := F) (V (Proc.devRef .tc main_arg0)) (V (Proc.devRef .tc main_arg2)) (V (Proc.devRef .tc main_v3))
          (V (Proc.devRef .tc main_v6)) (V (Proc.devRef .tc main_v29)) := by
  unfold aAgg1 opsAgg1 aggT nrmT
  after_results_k
  first | done | rfl

theorem aBias1a_v46 (V : Valuation τ sig (Elt F)) :
    aBias1a V (no_index (Proc.devRef .tc main_v46))
      = biasT (F := F) (V (Proc.devRef .tc main_v43)) (V (Proc.devRef .tc main_arg3)) := by
  unfold aBias1a opsBias1a biasT
  after_results_k
  first | done | rfl

theorem aBias1a_v47 (V : Valuation τ sig (Elt F)) :
    aBias1a V (no_index (Proc.devRef .tc main_v47))
      = Host.reduceAdd (F := F) (biasT (F := F) (V (Proc.devRef .tc main_v43)) (V (Proc.devRef .tc main_arg3)))
          (constant (F := F) S_ .f32 0x00000000#32) reducesTo_S50000x128_S50000_d1 h_S_ := by
  unfold aBias1a opsBias1a biasT
  after_results_k
  first | done | rfl

theorem aBias1b_v50 (V : Valuation τ sig (Elt F)) :
    aBias1b V (no_index (Proc.devRef .tc main_v50))
      = Host.divf (F := F) (broadcastInDim S50000x1 ![0] bcast_S50000_S50000x1_0 (V (Proc.devRef .tc main_v47)))
          (broadcastInDim S50000x1 ![] bcast_S_S50000x1 (constant (F := F) S_ .f32 0x43000000#32)) := by
  unfold aBias1b opsBias1b
  after_results_k
  first | done | rfl

theorem aBias1b_c11 (V : Valuation τ sig (Elt F)) :
    aBias1b V (no_index (Proc.devRef .tc main_c_11)) = constantI S_ 32 0#32 := by
  unfold aBias1b opsBias1b
  after_results_k
  first | done | rfl

theorem aVar1_v51 (V : Valuation τ sig (Elt F)) :
    aVar1 V (no_index (Proc.devRef .tc main_v51))
      = varT (F := F) (V (Proc.devRef .tc main_v46)) (V (Proc.devRef .tc main_c_11)) := by
  unfold aVar1 opsVar1 varT devT meanT ddofT
  after_results_k
  first | done | rfl

theorem aNorm1_v64 (V : Valuation τ sig (Elt F)) :
    aNorm1 V (no_index (Proc.devRef .tc main_v64))
      = normT (F := F) (V (Proc.devRef .tc main_v46)) (V (Proc.devRef .tc main_v50)) (V (Proc.devRef .tc main_v51))
          (V (Proc.devRef .tc main_arg4)) (V (Proc.devRef .tc main_arg5)) := by
  unfold aNorm1 opsNorm1 normT
  after_results_k
  first | done | rfl

theorem aElu1_v65 (V : Valuation τ sig (Elt F)) :
    aElu1 V (no_index (Proc.devRef .tc main_v65)) = eluT (F := F) (V (Proc.devRef .tc main_v64)) := by
  unfold aElu1 opsElu1 eluT
  after_results_k
  first | done | rfl

/-! ## The second layer -/

theorem aAgg2_v79 (V : Valuation τ sig (Elt F)) :
    aAgg2 V (no_index (Proc.devRef .tc main_v79))
      = aggT (F := F) (V (Proc.devRef .tc main_v65)) (V (Proc.devRef .tc main_arg6)) (V (Proc.devRef .tc main_v3))
          (V (Proc.devRef .tc main_v6)) (V (Proc.devRef .tc main_v29)) := by
  unfold aAgg2 opsAgg2 aggT nrmT
  after_results_k
  first | done | rfl

theorem aBias2_v82 (V : Valuation τ sig (Elt F)) :
    aBias2 V (no_index (Proc.devRef .tc main_v82))
      = biasT (F := F) (V (Proc.devRef .tc main_v79)) (V (Proc.devRef .tc main_arg7)) := by
  unfold aBias2 opsBias2 biasT
  after_results_k
  first | done | rfl

theorem aBias2_v86 (V : Valuation τ sig (Elt F)) :
    aBias2 V (no_index (Proc.devRef .tc main_v86))
      = meanT (F := F) (biasT (F := F) (V (Proc.devRef .tc main_v79)) (V (Proc.devRef .tc main_arg7))) := by
  unfold aBias2 opsBias2 meanT biasT
  after_results_k
  first | done | rfl

theorem aBias2_c18 (V : Valuation τ sig (Elt F)) :
    aBias2 V (no_index (Proc.devRef .tc main_c_18)) = constantI S_ 32 0#32 := by
  unfold aBias2 opsBias2
  after_results_k
  first | done | rfl

theorem aVar2_v87 (V : Valuation τ sig (Elt F)) :
    aVar2 V (no_index (Proc.devRef .tc main_v87))
      = varT (F := F) (V (Proc.devRef .tc main_v82)) (V (Proc.devRef .tc main_c_18)) := by
  unfold aVar2 opsVar2 varT devT meanT ddofT
  after_results_k
  first | done | rfl

theorem aNorm2a_v97 (V : Valuation τ sig (Elt F)) :
    aNorm2a V (no_index (Proc.devRef .tc main_v97))
      = mulf
          (mulf (subf (V (Proc.devRef .tc main_v82)) (broadcastInDim S50000x128 ![0, 1] bcast_S50000x1_S50000x128_0_1 (V (Proc.devRef .tc main_v86))))
            (broadcastInDim S50000x128 ![0, 1] bcast_S50000x1_S50000x128_0_1
              (Host.rsqrt (F := F) (addf (V (Proc.devRef .tc main_v87))
                (broadcastInDim S50000x1 ![] bcast_S_S50000x1 (constant (F := F) S_ .f32 0x3727C5AC#32))))))
          (broadcastInDim S50000x128 ![0, 1] bcast_S1x128_S50000x128_0_1
            (broadcastInDim S1x128 ![1] bcast_S128_S1x128_1 (V (Proc.devRef .tc main_arg8)))) := by
  unfold aNorm2a opsNorm2a
  after_results_k
  first | done | rfl

theorem aNorm2b_v100 (V : Valuation τ sig (Elt F)) :
    aNorm2b V (no_index (Proc.devRef .tc main_v100))
      = addf (V (Proc.devRef .tc main_v97))
          (broadcastInDim S50000x128 ![0, 1] bcast_S1x128_S50000x128_0_1
            (broadcastInDim S1x128 ![1] bcast_S128_S1x128_1 (V (Proc.devRef .tc main_arg9)))) := by
  unfold aNorm2b opsNorm2b
  after_results_k
  first | done | rfl

theorem aElu2_v101 (V : Valuation τ sig (Elt F)) :
    aElu2 V (no_index (Proc.devRef .tc main_v101)) = eluT (F := F) (V (Proc.devRef .tc main_v100)) := by
  unfold aElu2 opsElu2 eluT
  after_results_k
  first | done | rfl

/-! ## The whole fold at the result -/

/-- The fold of the 198 operations at %101 is outT of the arguments' contents. -/
theorem read_out (V : Valuation τ sig (Elt F)) :
    after ops V (Proc.devRef .tc main_v101)
      = outT (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [after_ops]
  simp (disch := decide +kernel) only [aElu2_v101, aNorm2b_v100, aNorm2a_v97, aVar2_v87, aBias2_c18, aBias2_v86, aBias2_v82, aAgg2_v79,
    aElu1_v65, aNorm1_v64, aVar1_v51, aBias1b_c11, aBias1b_v50, aBias1a_v47, aBias1a_v46, aAgg1_v43, aW_v29, aDeg_v14, aDeg_v6,
    aDeg_v3, aDeg_keep, aW_keep, aAgg1_keep, aBias1a_keep, aBias1b_keep, aVar1_keep, aNorm1_keep, aElu1_keep, aAgg2_keep,
    aBias2_keep, aVar2_keep, aNorm2a_keep, aNorm2b_keep, aElu2_keep]
  rfl

end Cert.ReferenceIdeal.Hand

end
-- ==== Proof.LibNormHost.lean ====
/-
  The host program's spelling of layer normalisation along the lanes of a [P, Q] array, read as the whole-array
  function lnorm.

  The host computes a row sum as a reduce over the lanes from a zero initial value; it lays the length-P vector of
  sums out as a [P, 1] column, divides the column by a constant broadcast to [P, 1], and broadcasts the result over the
  lanes to subtract it from the array.  The variance is the same spelling applied to the squares of the centred
  entries; the offset is added to the variance column, the reciprocal square root is taken on the column, and the
  column is broadcast over the lanes.  The gain and the offset vector of length Q are laid out as [1, Q] rows and
  broadcast over the rows.  At the ideal instance the reduce from zero is the plain finite sum, every broadcast is a
  read of the operand at the matching index, and the elementwise operations are the operations of the extended reals,
  so the spelling is lnorm entry by entry with nothing left to prove about arithmetic.
-/
import Idealize.ShloMosaic.Lib.ValueIdx
import Idealize.ShloMosaic.Lib.ValueLayout
import Idealize.ShloMosaic.Lib.Pipeline.Value
import Idealize.ShloMosaic.PureOps.Ideal.Laws
import proofs.«167445_j32667521253433_2_alg».proof.Proof.LibNormLayer

noncomputable section

namespace NormLayer

open Idealize.ShloMosaic Idealize.ShloMosaic.ValueIdx DenseLayer

variable {P Q : Nat}

/-- A reduce over the lanes from the zero initial value reads, at row p, the sum of row p. -/
theorem host_rowSum (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel) (p : Fin P) :
    Host.reduceAdd (F := Ideal) y (constant (F := Ideal) ⟨0, ![]⟩ .f32 0x00000000#32) hred hS (ix1 p)
      = ∑ k : Fin Q, y (ix2 p k) := by
  simp only [Host.reduceAdd, Ideal.hostReduceAdd_def]
  rw [Ideal.hostReduceAdd_single hred hred']
  show Ideal.ofBits .f32 0x00000000#32 + _ = _
  rw [Ideal.ofBits_zero_f32, zero_add]
  refine Finset.sum_congr rfl fun k _ => congrArg y (funext fun ax => Fin.ext ?_)
  match ax with
  | ⟨0, _⟩ => rfl
  | ⟨1, _⟩ => rfl

/-- The row sums laid out as a column and divided by a broadcast constant read, at (p, 0), the mean of row p. -/
theorem host_meanCol (w : BitVec 32) (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (p : Fin P) (u : Fin 1) :
    Host.divf (F := Ideal)
        (broadcastInDim ⟨2, ![P, 1]⟩ ![0] h1
          (Host.reduceAdd (F := Ideal) y (constant (F := Ideal) ⟨0, ![]⟩ .f32 0x00000000#32) hred hS))
        (broadcastInDim ⟨2, ![P, 1]⟩ ![] h0 (constant (F := Ideal) ⟨0, ![]⟩ .f32 w)) (ix2 p u)
      = rowMean (Ideal.ofBits .f32 w) y p := by
  show Ideal.div (broadcastInDim (s := ⟨1, ![P]⟩) ⟨2, ![P, 1]⟩ ![0] h1 _ (ix2 p u))
      (broadcastInDim (s := ⟨0, ![]⟩) ⟨2, ![P, 1]⟩ ![] h0 _ (ix2 p u)) = _
  rw [BroadcastReads.vec_to_col _ h1 p u, BroadcastReads.scalar_to _ _ h0, host_rowSum y hred hred' hS p]
  rfl

/-- The array minus its column of row means broadcast over the lanes is the centred array. -/
theorem host_centred (w : BitVec 32) (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (h2 : (⟨2, ![P, 1]⟩ : Shape).BroadcastsInDim ⟨2, ![P, Q]⟩ ![0, 1]) :
    subf y (broadcastInDim ⟨2, ![P, Q]⟩ ![0, 1] h2
      (Host.divf (F := Ideal)
        (broadcastInDim ⟨2, ![P, 1]⟩ ![0] h1
          (Host.reduceAdd (F := Ideal) y (constant (F := Ideal) ⟨0, ![]⟩ .f32 0x00000000#32) hred hS))
        (broadcastInDim ⟨2, ![P, 1]⟩ ![] h0 (constant (F := Ideal) ⟨0, ![]⟩ .f32 w))))
      = centred (Ideal.ofBits .f32 w) y := by
  funext j
  obtain ⟨p, q, rfl⟩ : ∃ (p : Fin P) (q : Fin Q), j = ix2 p q := ⟨j 0, j 1, eq_ix2 j⟩
  show y (ix2 p q) - broadcastInDim (s := ⟨2, ![P, 1]⟩) ⟨2, ![P, Q]⟩ ![0, 1] h2 _ (ix2 p q)
      = y (ix2 p q) - rowMean (Ideal.ofBits .f32 w) y p
  rw [BroadcastReads.col_to_lanes _ h2 p q, host_meanCol w y hred hred' hS h1 h0 p 0]

/-- THE HOST'S SPELLING of the normalisation: each row sum is a reduce from zero, laid out as a column and divided by
    a broadcast constant; the column of means is broadcast over the lanes and subtracted; the column of
    1 / sqrt (variance + offset) is broadcast over the lanes; the gain and the offset are length-Q vectors laid out
    as rows and broadcast over the rows. -/
theorem host_lnorm (cw ew : BitVec 32) (y : FVec Ideal ⟨2, ![P, Q]⟩ .f32) (g b : FVec Ideal ⟨1, ![Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (h2 : (⟨2, ![P, 1]⟩ : Shape).BroadcastsInDim ⟨2, ![P, Q]⟩ ![0, 1])
    (h3 : (⟨1, ![Q]⟩ : Shape).BroadcastsInDim ⟨2, ![1, Q]⟩ ![1])
    (h4 : (⟨2, ![1, Q]⟩ : Shape).BroadcastsInDim ⟨2, ![P, Q]⟩ ![0, 1]) :
    addf (mulf (mulf
        (subf y (broadcastInDim ⟨2, ![P, Q]⟩ ![0, 1] h2
          (Host.divf (F := Ideal)
            (broadcastInDim ⟨2, ![P, 1]⟩ ![0] h1
              (Host.reduceAdd (F := Ideal) y (constant (F := Ideal) ⟨0, ![]⟩ .f32 0x00000000#32) hred hS))
            (broadcastInDim ⟨2, ![P, 1]⟩ ![] h0 (constant (F := Ideal) ⟨0, ![]⟩ .f32 cw)))))
        (broadcastInDim ⟨2, ![P, Q]⟩ ![0, 1] h2 (Host.rsqrt (F := Ideal) (addf
          (Host.divf (F := Ideal)
            (broadcastInDim ⟨2, ![P, 1]⟩ ![0] h1
              (Host.reduceAdd (F := Ideal)
                (mulf
                  (subf y (broadcastInDim ⟨2, ![P, Q]⟩ ![0, 1] h2
                    (Host.divf (F := Ideal)
                      (broadcastInDim ⟨2, ![P, 1]⟩ ![0] h1
                        (Host.reduceAdd (F := Ideal) y (constant (F := Ideal) ⟨0, ![]⟩ .f32 0x00000000#32) hred hS))
                      (broadcastInDim ⟨2, ![P, 1]⟩ ![] h0 (constant (F := Ideal) ⟨0, ![]⟩ .f32 cw)))))
                  (subf y (broadcastInDim ⟨2, ![P, Q]⟩ ![0, 1] h2
                    (Host.divf (F := Ideal)
                      (broadcastInDim ⟨2, ![P, 1]⟩ ![0] h1
                        (Host.reduceAdd (F := Ideal) y (constant (F := Ideal) ⟨0, ![]⟩ .f32 0x00000000#32) hred hS))
                      (broadcastInDim ⟨2, ![P, 1]⟩ ![] h0 (constant (F := Ideal) ⟨0, ![]⟩ .f32 cw))))))
                (constant (F := Ideal) ⟨0, ![]⟩ .f32 0x00000000#32) hred hS))
            (broadcastInDim ⟨2, ![P, 1]⟩ ![] h0 (constant (F := Ideal) ⟨0, ![]⟩ .f32 cw)))
          (broadcastInDim ⟨2, ![P, 1]⟩ ![] h0 (constant (F := Ideal) ⟨0, ![]⟩ .f32 ew))))))
        (broadcastInDim ⟨2, ![P, Q]⟩ ![0, 1] h4 (broadcastInDim ⟨2, ![1, Q]⟩ ![1] h3 g)))
      (broadcastInDim ⟨2, ![P, Q]⟩ ![0, 1] h4 (broadcastInDim ⟨2, ![1, Q]⟩ ![1] h3 b))
    = lnorm (Ideal.ofBits .f32 cw) (Ideal.ofBits .f32 ew) y (fun q => g (ix1 q)) (fun q => b (ix1 q)) := by
  rw [host_centred cw y hred hred' hS h1 h0 h2]
  funext j
  obtain ⟨p, q, rfl⟩ : ∃ (p : Fin P) (q : Fin Q), j = ix2 p q := ⟨j 0, j 1, eq_ix2 j⟩
  show centred (Ideal.ofBits .f32 cw) y (ix2 p q) * broadcastInDim (s := ⟨2, ![P, 1]⟩) ⟨2, ![P, Q]⟩ ![0, 1] h2 _ (ix2 p q)
        * broadcastInDim ⟨2, ![P, Q]⟩ ![0, 1] h4 (broadcastInDim ⟨2, ![1, Q]⟩ ![1] h3 g) (ix2 p q)
      + broadcastInDim ⟨2, ![P, Q]⟩ ![0, 1] h4 (broadcastInDim ⟨2, ![1, Q]⟩ ![1] h3 b) (ix2 p q)
    = centred (Ideal.ofBits .f32 cw) y (ix2 p q)
        * Ideal.rsqrt (rowVar (Ideal.ofBits .f32 cw) y p + Ideal.ofBits .f32 ew) * g (ix1 q) + b (ix1 q)
  rw [BroadcastReads.col_to_lanes _ h2 p q, BroadcastReads.row_to_rows _ h4 p q, BroadcastReads.row_to_rows _ h4 p q,
    BroadcastReads.vec_to_row g h3 0 q, BroadcastReads.vec_to_row b h3 0 q]
  show centred (Ideal.ofBits .f32 cw) y (ix2 p q)
        * Ideal.rsqrt (Ideal.div (broadcastInDim (s := ⟨1, ![P]⟩) ⟨2, ![P, 1]⟩ ![0] h1 _ (ix2 p (0 : Fin 1)))
              (broadcastInDim ⟨2, ![P, 1]⟩ ![] h0 (constant (F := Ideal) ⟨0, ![]⟩ .f32 cw) (ix2 p (0 : Fin 1)))
            + broadcastInDim ⟨2, ![P, 1]⟩ ![] h0 (constant (F := Ideal) ⟨0, ![]⟩ .f32 ew) (ix2 p (0 : Fin 1)))
        * g (ix1 q) + b (ix1 q) = _
  rw [BroadcastReads.vec_to_col _ h1 p 0, BroadcastReads.scalar_to _ _ h0, BroadcastReads.scalar_to _ _ h0,
    host_rowSum _ hred hred' hS p]
  rfl

/-- A column broadcast over the lanes and multiplied in scales row p by the column's entry (p, 0). -/
theorem host_rowScale (z : FVec Ideal ⟨2, ![P, Q]⟩ .f32) (s : FVec Ideal ⟨2, ![P, 1]⟩ .f32)
    (h2 : (⟨2, ![P, 1]⟩ : Shape).BroadcastsInDim ⟨2, ![P, Q]⟩ ![0, 1]) :
    mulf z (broadcastInDim ⟨2, ![P, Q]⟩ ![0, 1] h2 s) = fun i => z i * s (ix2 (n0 := P) (i 0) (0 : Fin 1)) := by
  funext j
  obtain ⟨p, q, rfl⟩ : ∃ (p : Fin P) (q : Fin Q), j = ix2 p q := ⟨j 0, j 1, eq_ix2 j⟩
  show z (ix2 p q) * broadcastInDim ⟨2, ![P, Q]⟩ ![0, 1] h2 s (ix2 p q) = z (ix2 p q) * s (ix2 p (0 : Fin 1))
  rw [BroadcastReads.col_to_lanes s h2 p q]

end NormLayer

end
-- ==== Proof.LibVarianceElu.lean ====
/-
  The host's spelling of the normalisation and of ELU, when the variance comes from jnp.var and the activation from
  jax.nn.elu (at the ideal instance).

  jnp.var recomputes the row mean, squares the centred entries, sums them over the lanes, divides by 128 − float(0), and
  selects the quotient against a NaN constant under the scalar test 128 − float(0) > 0. The integer 0 converts to the real
  0, the float word of 128 is the real 128, so the divisor is 128, the test holds and the quotient is selected: the column
  of row variances with divisor 128.

  jax.nn.elu is select(x > 0, x, 1 · expm1(select(x > 0, 0, x))). Where x > 0 fails the inner select is x, expm1 x is
  e^x − 1 by definition on the extended reals, and the factor 1 is neutral: y where y > 0, else e^y − 1.
-/
import proofs.«167445_j32667521253433_2_alg».proof.Proof.LibGcnSpec
import proofs.«167445_j32667521253433_2_alg».proof.Proof.LibNormHost

noncomputable section

namespace Gcn

open Idealize.ShloMosaic Idealize.ShloMosaic.ValueIdx NormLayer

variable {P Q : Nat}

/-- The float word of 128.0 is the real number 128. -/
theorem c128_eq : c128 = ((128 : ℝ) : EReal) := by
  unfold c128
  simp [Ideal.ofBits, Ideal.ieee, -EReal.coe_mul]; norm_num

theorem c128_pos : (0 : EReal) < c128 := by
  rw [c128_eq]
  exact_mod_cast (by norm_num : (0 : ℝ) < 128)

/-- 128 − float(0), the divisor jnp.var computes, is 128. -/
theorem ddof_zero :
    subf (constant (F := Ideal) ⟨0, ![]⟩ .f32 0x43000000#32) (sitofp (F := Ideal) .f32 (constantI ⟨0, ![]⟩ 32 0#32)) ix0 = c128 := by
  show Ideal.ofBits .f32 0x43000000#32 - (((0#32 : BitVec 32).toInt : ℝ) : EReal) = c128
  simp [c128]

/-- The column of row variances as jnp.var spells it, for ANY array cc in place of the centred one. -/
theorem host_varCol (cc : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (zc : FVec Ideal ⟨0, ![]⟩ .f32) (hzc : zc ix0 = 0) (zs : FVec Ideal ⟨2, ![P, 1]⟩ .f32) (p : Fin P) (u : Fin 1) :
    select (broadcastInDim ⟨2, ![P, 1]⟩ ![] h0
        (cmpf .ogt (subf (constant (F := Ideal) ⟨0, ![]⟩ .f32 0x43000000#32) (sitofp (F := Ideal) .f32 (constantI ⟨0, ![]⟩ 32 0#32))) zc))
      (Host.divf (F := Ideal)
        (broadcastInDim ⟨2, ![P, 1]⟩ ![0] h1
          (Host.reduceAdd (F := Ideal) (mulf cc cc) (constant (F := Ideal) ⟨0, ![]⟩ .f32 0x00000000#32) hred hS))
        (broadcastInDim ⟨2, ![P, 1]⟩ ![] h0
          (subf (constant (F := Ideal) ⟨0, ![]⟩ .f32 0x43000000#32) (sitofp (F := Ideal) .f32 (constantI ⟨0, ![]⟩ 32 0#32)))))
      zs (ix2 p u)
    = Ideal.div (∑ k : Fin Q, cc (ix2 p k) * cc (ix2 p k)) c128 := by
  show Scalar.select (broadcastInDim (s := ⟨0, ![]⟩) ⟨2, ![P, 1]⟩ ![] h0 _ (ix2 p u))
      (Ideal.div (broadcastInDim (s := ⟨1, ![P]⟩) ⟨2, ![P, 1]⟩ ![0] h1 _ (ix2 p u))
        (broadcastInDim (s := ⟨0, ![]⟩) ⟨2, ![P, 1]⟩ ![] h0 _ (ix2 p u))) (zs (ix2 p u)) = _
  rw [BroadcastReads.scalar_to, BroadcastReads.scalar_to, BroadcastReads.vec_to_col _ h1 p u, host_rowSum _ hred hred' hS p,
    ddof_zero]
  have hc : cmpf .ogt (subf (constant (F := Ideal) ⟨0, ![]⟩ .f32 0x43000000#32) (sitofp (F := Ideal) .f32 (constantI ⟨0, ![]⟩ 32 0#32))) zc ix0
      = 1 := by
    show Ideal.cmp .ogt (subf (constant (F := Ideal) ⟨0, ![]⟩ .f32 0x43000000#32) (sitofp (F := Ideal) .f32 (constantI ⟨0, ![]⟩ 32 0#32)) ix0)
      (zc ix0) = 1
    rw [ddof_zero, hzc]
    unfold Ideal.cmp
    simp [c128_pos]
  rw [hc]
  rfl

/-- THE HOST'S SPELLING of the normalisation with jnp.var's variance. -/
theorem host_lnorm_var (y : FVec Ideal ⟨2, ![P, Q]⟩ .f32) (g b : FVec Ideal ⟨1, ![Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (h2 : (⟨2, ![P, 1]⟩ : Shape).BroadcastsInDim ⟨2, ![P, Q]⟩ ![0, 1])
    (h3 : (⟨1, ![Q]⟩ : Shape).BroadcastsInDim ⟨2, ![1, Q]⟩ ![1])
    (h4 : (⟨2, ![1, Q]⟩ : Shape).BroadcastsInDim ⟨2, ![P, Q]⟩ ![0, 1])
    (zc : FVec Ideal ⟨0, ![]⟩ .f32) (hzc : zc ix0 = 0) (zs : FVec Ideal ⟨2, ![P, 1]⟩ .f32) :
    addf (mulf (mulf
        (subf y (broadcastInDim ⟨2, ![P, Q]⟩ ![0, 1] h2
          (Host.divf (F := Ideal)
            (broadcastInDim ⟨2, ![P, 1]⟩ ![0] h1
              (Host.reduceAdd (F := Ideal) y (constant (F := Ideal) ⟨0, ![]⟩ .f32 0x00000000#32) hred hS))
            (broadcastInDim ⟨2, ![P, 1]⟩ ![] h0 (constant (F := Ideal) ⟨0, ![]⟩ .f32 0x43000000#32)))))
        (broadcastInDim ⟨2, ![P, Q]⟩ ![0, 1] h2 (Host.rsqrt (F := Ideal) (addf
          (select (broadcastInDim ⟨2, ![P, 1]⟩ ![] h0
              (cmpf .ogt (subf (constant (F := Ideal) ⟨0, ![]⟩ .f32 0x43000000#32) (sitofp (F := Ideal) .f32 (constantI ⟨0, ![]⟩ 32 0#32))) zc))
            (Host.divf (F := Ideal)
              (broadcastInDim ⟨2, ![P, 1]⟩ ![0] h1
                (Host.reduceAdd (F := Ideal)
                  (mulf
                    (subf y (broadcastInDim ⟨2, ![P, Q]⟩ ![0, 1] h2
                      (Host.divf (F := Ideal)
                        (broadcastInDim ⟨2, ![P, 1]⟩ ![0] h1
                          (Host.reduceAdd (F := Ideal) y (constant (F := Ideal) ⟨0, ![]⟩ .f32 0x00000000#32) hred hS))
                        (broadcastInDim ⟨2, ![P, 1]⟩ ![] h0 (constant (F := Ideal) ⟨0, ![]⟩ .f32 0x43000000#32)))))
                    (subf y (broadcastInDim ⟨2, ![P, Q]⟩ ![0, 1] h2
                      (Host.divf (F := Ideal)
                        (broadcastInDim ⟨2, ![P, 1]⟩ ![0] h1
                          (Host.reduceAdd (F := Ideal) y (constant (F := Ideal) ⟨0, ![]⟩ .f32 0x00000000#32) hred hS))
                        (broadcastInDim ⟨2, ![P, 1]⟩ ![] h0 (constant (F := Ideal) ⟨0, ![]⟩ .f32 0x43000000#32))))))
                  (constant (F := Ideal) ⟨0, ![]⟩ .f32 0x00000000#32) hred hS))
              (broadcastInDim ⟨2, ![P, 1]⟩ ![] h0
                (subf (constant (F := Ideal) ⟨0, ![]⟩ .f32 0x43000000#32) (sitofp (F := Ideal) .f32 (constantI ⟨0, ![]⟩ 32 0#32)))))
            zs)
          (broadcastInDim ⟨2, ![P, 1]⟩ ![] h0 (constant (F := Ideal) ⟨0, ![]⟩ .f32 0x3727C5AC#32))))))
        (broadcastInDim ⟨2, ![P, Q]⟩ ![0, 1] h4 (broadcastInDim ⟨2, ![1, Q]⟩ ![1] h3 g)))
      (broadcastInDim ⟨2, ![P, Q]⟩ ![0, 1] h4 (broadcastInDim ⟨2, ![1, Q]⟩ ![1] h3 b))
    = lnorm c128 eps y (fun q => g (ix1 q)) (fun q => b (ix1 q)) := by
  rw [host_centred 0x43000000#32 y hred hred' hS h1 h0 h2]
  funext j
  obtain ⟨p, q, rfl⟩ : ∃ (p : Fin P) (q : Fin Q), j = ix2 p q := ⟨j 0, j 1, eq_ix2 j⟩
  show centred (Ideal.ofBits .f32 0x43000000#32) y (ix2 p q) * broadcastInDim (s := ⟨2, ![P, 1]⟩) ⟨2, ![P, Q]⟩ ![0, 1] h2 _ (ix2 p q)
        * broadcastInDim ⟨2, ![P, Q]⟩ ![0, 1] h4 (broadcastInDim ⟨2, ![1, Q]⟩ ![1] h3 g) (ix2 p q)
      + broadcastInDim ⟨2, ![P, Q]⟩ ![0, 1] h4 (broadcastInDim ⟨2, ![1, Q]⟩ ![1] h3 b) (ix2 p q)
    = centred c128 y (ix2 p q) * Ideal.rsqrt (rowVar c128 y p + eps) * g (ix1 q) + b (ix1 q)
  rw [BroadcastReads.col_to_lanes _ h2 p q, BroadcastReads.row_to_rows _ h4 p q, BroadcastReads.row_to_rows _ h4 p q,
    BroadcastReads.vec_to_row g h3 0 q, BroadcastReads.vec_to_row b h3 0 q]
  show centred c128 y (ix2 p q)
        * Ideal.rsqrt (select _ _ zs (ix2 p (0 : Fin 1))
            + broadcastInDim ⟨2, ![P, 1]⟩ ![] h0 (constant (F := Ideal) ⟨0, ![]⟩ .f32 0x3727C5AC#32) (ix2 p (0 : Fin 1)))
        * g (ix1 q) + b (ix1 q) = _
  rw [host_varCol _ hred hred' hS h1 h0 zc hzc zs p 0, BroadcastReads.scalar_to]
  rfl

/-- THE HOST'S SPELLING of ELU (jax.nn.elu): the zeros and the one are any arrays holding 0 and 1. -/
theorem host_elu {s : Shape} (x z z' z'' one : FVec Ideal s .f32) (hz : ∀ j, z j = 0) (hz' : ∀ j, z' j = 0) (hz'' : ∀ j, z'' j = 0)
    (ho : ∀ j, one j = 1) :
    select (cmpf .ogt x z) x (mulf one (Host.expm1 (F := Ideal) (select (cmpf .ogt x z') z'' x))) = elu x := by
  funext j
  show Scalar.select (Ideal.cmp .ogt (x j) (z j)) (x j)
      (one j * (Ideal.exp (Scalar.select (Ideal.cmp .ogt (x j) (z' j)) (z'' j) (x j)) - 1)) = elu1 (x j)
  rw [hz, hz', hz'', ho, one_mul]
  unfold elu1 Scalar.select
  by_cases hc : Ideal.cmp .ogt (x j) 0 = 1
  · rw [if_pos hc, if_pos hc]
  · rw [if_neg hc, if_neg hc, if_neg hc]

end Gcn

end
-- ==== Proof.RefValue.lean ====
/-
  The reference program's result is Gcn.outRef of its arguments: stage by stage, the host's spelling read at an index.
-/
import proofs.«167445_j32667521253433_2_alg».proof.Proof.RefTerms
import proofs.«167445_j32667521253433_2_alg».proof.Proof.LibGcnHost
import proofs.«167445_j32667521253433_2_alg».proof.Proof.LibVarianceElu

noncomputable section

namespace Cert.ReferenceIdeal.Hand

open Cert.ReferenceIdeal Cert.ReferenceIdeal.Gen Idealize.ShloMosaic Idealize.ShloMosaic.ValueIdx

/-- The degree of node i. -/
theorem degT_apply (dst : IVec S1650000 32) (i : Fin 50000) : degT (F := Ideal) dst (ix1 i) = Gcn.deg dst i :=
  Gcn.host_deg (N := 50000) (E := 1650000) ⟨rfl, rfl, rfl, rfl⟩ bcast_S1650000_S1650000x1_0 _ _
    (fun j => Gcn.zero_bcast _ _ j) (fun j => Gcn.one_bcast _ _ j) dst i

/-- dinv of node i. -/
theorem dinvT_apply (dst : IVec S1650000 32) (i : Fin 50000) : dinvT (F := Ideal) dst (ix1 i) = Gcn.dinv dst i :=
  Gcn.host_dinv (N := 50000) (E := 1650000) _ _ _ dst i (degT_apply dst i) (Gcn.zero_bcast _ _ _) (Gcn.zero_bcast _ _ _)

/-- The normalised integer at position e. -/
theorem nrmT_apply (z : IVec S1650000 32) (e : Fin 1650000) : nrmT z (ix1 e) = Gcn.nrm 50000#32 (z (ix1 e)) :=
  Gcn.host_nrm z _ _ 50000#32 (ix1 e) (by rw [BroadcastReads.scalar_to]; rfl) (by rw [BroadcastReads.scalar_to]; rfl)

/-- The weighted aggregate of the rows of a · w. -/
theorem aggT_eq (a : FVec Ideal S50000x128 .f32) (w : FVec Ideal S128x128 .f32) (src dst : IVec S1650000 32) :
    aggT (F := Ideal) a w src dst (wT (dinvT (F := Ideal) dst) src dst)
      = Gcn.aggRef (N := 50000) (E := 1650000) (by decide) 50000#32 src dst (Gcn.matProd a w) := by
  unfold aggT wT
  rw [Gcn.host_matProd (P := 50000) (K := 128) (Q := 128) ⟨rfl, rfl, rfl, rfl, rfl, rfl⟩ a w]
  exact Gcn.host_aggRef (N := 50000) (E := 1650000) (Q := 128) (by decide) ⟨rfl, rfl, rfl, rfl⟩ ⟨rfl, rfl, rfl, rfl, rfl, rfl⟩
    ⟨rfl, rfl, rfl, rfl, rfl, rfl⟩ bcast_S1650000_S1650000x1_0 bcast_S1650000x1_S1650000x128_0_1 _ (fun j => Gcn.zero_bcast _ _ j)
    50000#32 src dst (nrmT src) (nrmT dst) (nrmT_apply src) (nrmT_apply dst) (dinvT (F := Ideal) dst) (dinvT_apply dst) _

/-- The bias added to every row. -/
theorem biasT_eq (y : FVec Ideal S50000x128 .f32) (b : FVec Ideal S128 .f32) :
    biasT (F := Ideal) y b = fun j => y j + (fun q : Fin 128 => b (ix1 q)) (j 1) := by
  funext j
  obtain ⟨p, q, rfl⟩ : ∃ (p : Fin 50000) (q : Fin 128), j = ix2 p q := ⟨j 0, j 1, eq_ix2 j⟩
  show y (ix2 p q) + broadcastInDim S50000x128 ![0, 1] bcast_S1x128_S50000x128_0_1 (broadcastInDim S1x128 ![1] bcast_S128_S1x128_1 b) (ix2 p q)
      = y (ix2 p q) + b (ix1 q)
  rw [BroadcastReads.row_to_rows (n := 50000) (c := 128) _ bcast_S1x128_S50000x128_0_1 p q,
    BroadcastReads.vec_to_row (c := 128) b bcast_S128_S1x128_1 0 q]

/-- The normalisation and ELU. -/
theorem actT_eq (y : FVec Ideal S50000x128 .f32) (g β : FVec Ideal S128 .f32) :
    actT (F := Ideal) y g β = Gcn.normAct y (fun q => g (ix1 q)) (fun q => β (ix1 q)) := by
  have hn : normT (F := Ideal) y (meanT y) (varT y (constantI S_ 32 0#32)) g β
      = NormLayer.lnorm Gcn.c128 Gcn.eps y (fun q => g (ix1 q)) (fun q => β (ix1 q)) := by
    unfold normT varT devT ddofT meanT
    exact Gcn.host_lnorm_var (P := 50000) (Q := 128) y g β reducesTo_S50000x128_S50000_d1 (by decide) h_S_ bcast_S50000_S50000x1_0
      bcast_S_S50000x1 bcast_S50000x1_S50000x128_0_1 bcast_S128_S1x128_1 bcast_S1x128_S50000x128_0_1 _
      (by show Ideal.ofBits .f32 0x00000000#32 = 0; exact Ideal.ofBits_zero_f32) _
  unfold actT
  rw [hn]
  unfold eluT Gcn.normAct
  exact Gcn.host_elu _ _ _ _ _ (fun j => Gcn.zero_bcast _ _ j) (fun j => Gcn.zero_bcast _ _ j) (fun j => Gcn.zero_bcast _ _ j)
    (fun j => Gcn.one_bcast _ _ j)

/-- One layer. -/
theorem layerT_eq (a : FVec Ideal S50000x128 .f32) (w : FVec Ideal S128x128 .f32) (b g β : FVec Ideal S128 .f32)
    (src dst : IVec S1650000 32) :
    layerT (F := Ideal) a w b g β src dst (wT (dinvT (F := Ideal) dst) src dst)
      = Gcn.layerRef (N := 50000) (E := 1650000) (by decide) 50000#32 src dst a w (fun q => b (ix1 q)) (fun q => g (ix1 q))
          (fun q => β (ix1 q)) := by
  unfold layerT preT Gcn.layerRef
  rw [actT_eq]
  refine congrArg (fun y => Gcn.normAct y _ _) ?_
  rw [biasT_eq, aggT_eq]

/-- The result as a function of the ten arguments. -/
theorem outT_eq (x : FVec Ideal S50000x128 .f32) (ei : IVec S2x1600000 32) (w1 : FVec Ideal S128x128 .f32)
    (b1 g1 β1 : FVec Ideal S128 .f32) (w2 : FVec Ideal S128x128 .f32) (b2 g2 β2 : FVec Ideal S128 .f32) :
    outT (F := Ideal) x ei w1 b1 g1 β1 w2 b2 g2 β2
      = Gcn.outRef (N := 50000) (E := 1650000) (by decide) 50000#32 (srcList ei) (dstList ei) x w1 (fun q => b1 (ix1 q))
          (fun q => g1 (ix1 q)) (fun q => β1 (ix1 q)) w2 (fun q => b2 (ix1 q)) (fun q => g2 (ix1 q)) (fun q => β2 (ix1 q)) := by
  unfold outT
  rw [layerT_eq, layerT_eq]
  rfl

end Cert.ReferenceIdeal.Hand

end
-- ==== Proof.RefFinal.lean ====
/-
  The reference program's run: every weakly fair execution terminates with the result at Gcn.outRef of the arguments and
  the arguments unchanged — the fold of the operations read at the result buffer (the stages' composition) and at each
  argument buffer (no operation writes one), and the stages' composition as Gcn.outRef.
-/
import proofs.«167445_j32667521253433_2_alg».proof.Proof.RefRun
import proofs.«167445_j32667521253433_2_alg».proof.Proof.RefFrame
import proofs.«167445_j32667521253433_2_alg».proof.Proof.RefRead
import proofs.«167445_j32667521253433_2_alg».proof.Proof.RefValue

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101)
        = Gcn.outRef (N := 50000) (E := 1650000) (by decide) 50000#32 (srcList (m ((c.tc : Thread nD τ).loc main_arg1))) (dstList (m ((c.tc : Thread nD τ).loc main_arg1)))
            (m ((c.tc : Thread nD τ).loc main_arg0)) (m ((c.tc : Thread nD τ).loc main_arg2)) (fun q => m ((c.tc : Thread nD τ).loc main_arg3) (ix1 q)) (fun q => m ((c.tc : Thread nD τ).loc main_arg4) (ix1 q)) (fun q => m ((c.tc : Thread nD τ).loc main_arg5) (ix1 q))
            (m ((c.tc : Thread nD τ).loc main_arg6)) (fun q => m ((c.tc : Thread nD τ).loc main_arg7) (ix1 q)) (fun q => m ((c.tc : Thread nD τ).loc main_arg8) (ix1 q)) (fun q => m ((c.tc : Thread nD τ).loc main_arg9) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v101).trans ((read_out _).trans (outT_eq _ _ _ _ _ _ _ _ _ _)),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _)⟩)
    (run_main (F := Ideal) m ρ)

end Cert.ReferenceIdeal.Hand

end
-- ==== Proof.lean ====
/-
  The certificate of a two-layer graph convolution block — three row-tiled kernels (a product with rows scaled by dinv; a
  normalisation + ELU fused with the next scaled product; a final normalisation + ELU) with the degree count, the gathers
  and the scatter-adds between them on the host — against the plain reference, which weights every gathered row by
  dinv[src] · dinv[dst] before the scatter-add.

  Both programs run, and their results are one function of the arguments (Proof/LibGcnSpec.lean): the kernel program's result is
  Gcn.outKer of its arguments (Proof/KerValue.lean: the run read through the three regions and the host stretches), the
  reference's is Gcn.outRef (Proof/RefFinal.lean: its run read stage by stage), and Gcn.outKer = Gcn.outRef (Proof/LibGcnBridge.lean) because dinv is a real
  number in [0, ∞) — a factor that can be taken out of the sum over the edges — and dinv[dst e] = dinv i on every edge that
  lands on node i. No finiteness of the inputs is used. The idealization rewrote nothing, so its conjunct is trivial; the
  two kernel programs' frames are the generated ones, the reference's frame is its run with the result dropped.
-/
import proofs.«167445_j32667521253433_2_alg».proof.Defs
import proofs.«167445_j32667521253433_2_alg».proof.Proof.Gen.Kernel
import proofs.«167445_j32667521253433_2_alg».proof.Proof.Gen.Kernel.Skeleton
import proofs.«167445_j32667521253433_2_alg».proof.Proof.Gen.Kernel.Launch
import proofs.«167445_j32667521253433_2_alg».proof.Proof.Gen.Kernel.Points
import proofs.«167445_j32667521253433_2_alg».proof.Proof.Gen.Kernel.Frame
import proofs.«167445_j32667521253433_2_alg».proof.Proof.Gen.KernelIdeal
import proofs.«167445_j32667521253433_2_alg».proof.Proof.Gen.KernelIdeal.Skeleton
import proofs.«167445_j32667521253433_2_alg».proof.Proof.Gen.KernelIdeal.Launch
import proofs.«167445_j32667521253433_2_alg».proof.Proof.Gen.KernelIdeal.Points
import proofs.«167445_j32667521253433_2_alg».proof.Proof.Gen.KernelIdeal.Frame
import proofs.«167445_j32667521253433_2_alg».proof.Proof.Gen.ReferenceIdeal
import proofs.«167445_j32667521253433_2_alg».proof.Proof.Gen.Pre_finite_inputs
import proofs.«167445_j32667521253433_2_alg».proof.Proof.LibGcnBridge
import proofs.«167445_j32667521253433_2_alg».proof.Proof.KerValue
import proofs.«167445_j32667521253433_2_alg».proof.Proof.RefFinal
import Idealize.ShloMosaic.Adequacy
import Idealize.ShloMosaic.Init

noncomputable section

namespace Cert.Proof

open Idealize.ShloMosaic Idealize.ShloMosaic.ValueIdx Idealize.SL.Sem

/-- Both programs build the source list from the edge array by the same operations. -/
theorem srcList_eq : Cert.KernelIdeal.Hand.srcList = Cert.ReferenceIdeal.Hand.srcList := rfl
/-- And the destination list. -/
theorem dstList_eq : Cert.KernelIdeal.Hand.dstList = Cert.ReferenceIdeal.Hand.dstList := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9⟩ := hagree c
  rw [e0, e1, e2, e3, e4, e5, e6, e7, e8, e9, ← srcList_eq, ← dstList_eq]
  exact (Gcn.outKer_eq_outRef _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
